-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v134_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : FVec F S64x64 .f32) (main_arg2 : FVec F S64 .f32) (main_arg3 : IVec S1600000 32) (main_arg4 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S10000x64 : Shape := ⟨2, ![10000, 64]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S4000x64 : Shape := ⟨2, ![4000, 64]⟩
abbrev S4000x1 : Shape := ⟨2, ![4000, 1]⟩
abbrev S1600000x64 : Shape := ⟨2, ![1600000, 64]⟩
abbrev S4000x2 : Shape := ⟨2, ![4000, 2]⟩

abbrev nBuf : Space → Nat
  | .hbm => 193
  | .vmem => 112
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S1600000, .i32⟩
  | 4 => ⟨S1600000, .i32⟩
  | 5 => ⟨S100000x64, .f32⟩
  | 6 => ⟨S_, .f32⟩
  | 7 => ⟨S1600000, .f32⟩
  | 8 => ⟨S_, .f32⟩
  | 9 => ⟨S100000, .f32⟩
  | 10 => ⟨S1600000x1, .i32⟩
  | 11 => ⟨S100000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .i1⟩
  | 19 => ⟨S_, .f32⟩
  | 20 => ⟨S100000, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S100000x1, .f32⟩
  | 39 => ⟨S100000x1, .f32⟩
  | 40 => ⟨S100000x2, .f32⟩
  | 41 => ⟨S100000x1, .f32⟩
  | 42 => ⟨S100000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000x64, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S100000x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S100000x64, .f32⟩
  | 87 => ⟨S100000x64, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x64, .f32⟩
  | 97 => ⟨S_, .f32⟩
  | 98 => ⟨S100000x64, .f32⟩
  | 99 => ⟨S1600000x1, .i32⟩
  | 100 => ⟨S100000x64, .f32⟩
  | 101 => ⟨S100000x64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000x64, .f32⟩
  | 117 => ⟨S100000x64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S_, .f32⟩
  | _ => ⟨S100000x64, .f32⟩

abbrev hbmTy0_1 (i : Nat) : BufTy := match i % 128 with
  | 0 => ⟨S100000x64, .f32⟩
  | 1 => ⟨S1600000x1, .i32⟩
  | 2 => ⟨S100000x64, .f32⟩
  | 3 => ⟨S100000x64, .f32⟩
  | 4 => ⟨S100000x64, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S100000x64, .f32⟩
  | 19 => ⟨S100000x64, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S100000x64, .f32⟩
  | 34 => ⟨S100000x64, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x64, .f32⟩
  | 44 => ⟨S_, .f32⟩
  | 45 => ⟨S100000x64, .f32⟩
  | 46 => ⟨S1600000x1, .i32⟩
  | 47 => ⟨S100000x64, .f32⟩
  | 48 => ⟨S100000x64, .f32⟩
  | 49 => ⟨S100000x64, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000x64, .f32⟩
  | 64 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S4000x64, .f32⟩
  | .local _ .vmem, ⟨7, _⟩ => ⟨S4000x64, .f32⟩
  | .local _ .vmem, ⟨8, _⟩ => ⟨S4000x1, .f32⟩
  | .local _ .vmem, ⟨9, _⟩ => ⟨S4000x1, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x2, .f32⟩
  | .local _ .vmem, ⟨15, _⟩ => ⟨S4000x2, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x2, .f32⟩
  | .local _ .vmem, ⟨25, _⟩ => ⟨S4000x2, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x2, .f32⟩
  | .local _ .vmem, ⟨35, _⟩ => ⟨S4000x2, .f32⟩
  | .local _ .vmem, ⟨36, _⟩ => ⟨S4000x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S4000x2, .f32⟩
  | .local _ .vmem, ⟨45, _⟩ => ⟨S4000x2, .f32⟩
  | .local _ .vmem, ⟨46, _⟩ => ⟨S4000x64, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S4000x64, .f32⟩
  | .local _ .vmem, ⟨51, _⟩ => ⟨S4000x64, .f32⟩
  | .local _ .vmem, ⟨52, _⟩ => ⟨S4000x64, .f32⟩
  | .local _ .vmem, ⟨53, _⟩ => ⟨S4000x64, .f32⟩
  | .local _ .vmem, ⟨54, _⟩ => ⟨S4000x2, .f32⟩
  | .local _ .vmem, ⟨55, _⟩ => ⟨S4000x2, .f32⟩
  | .local _ .vmem, ⟨56, _⟩ => ⟨S4000x64, .f32⟩
  | .local _ .vmem, ⟨57, _⟩ => ⟨S4000x64, .f32⟩
  | .local _ .vmem, ⟨58, _⟩ => ⟨S4000x64, .f32⟩
  | .local _ .vmem, ⟨59, _⟩ => ⟨S4000x64, .f32⟩
  | .local _ .vmem, ⟨60, _⟩ => ⟨S4000x64, .f32⟩
  | .local _ .vmem, ⟨61, _⟩ => ⟨S4000x64, .f32⟩
  | .local _ .vmem, ⟨62, _⟩ => ⟨S4000x64, .f32⟩
  | .local _ .vmem, ⟨63, _⟩ => ⟨S4000x64, .f32⟩
  | .local _ .vmem, ⟨64, _⟩ => ⟨S4000x2, .f32⟩
  | .local _ .vmem, ⟨65, _⟩ => ⟨S4000x2, .f32⟩
  | .local _ .vmem, ⟨66, _⟩ => ⟨S4000x64, .f32⟩
  | .local _ .vmem, ⟨67, _⟩ => ⟨S4000x64, .f32⟩
  | .local _ .vmem, ⟨68, _⟩ => ⟨S4000x64, .f32⟩
  | .local _ .vmem, ⟨69, _⟩ => ⟨S4000x64, .f32⟩
  | .local _ .vmem, ⟨70, _⟩ => ⟨S4000x64, .f32⟩
  | .local _ .vmem, ⟨71, _⟩ => ⟨S4000x64, .f32⟩
  | .local _ .vmem, ⟨72, _⟩ => ⟨S4000x64, .f32⟩
  | .local _ .vmem, ⟨73, _⟩ => ⟨S4000x64, .f32⟩
  | .local _ .vmem, ⟨74, _⟩ => ⟨S4000x2, .f32⟩
  | .local _ .vmem, ⟨75, _⟩ => ⟨S4000x2, .f32⟩
  | .local _ .vmem, ⟨76, _⟩ => ⟨S4000x64, .f32⟩
  | .local _ .vmem, ⟨77, _⟩ => ⟨S4000x64, .f32⟩
  | .local _ .vmem, ⟨78, _⟩ => ⟨S4000x64, .f32⟩
  | .local _ .vmem, ⟨79, _⟩ => ⟨S4000x64, .f32⟩
  | .local _ .vmem, ⟨80, _⟩ => ⟨S4000x64, .f32⟩
  | .local _ .vmem, ⟨81, _⟩ => ⟨S4000x64, .f32⟩
  | .local _ .vmem, ⟨82, _⟩ => ⟨S4000x64, .f32⟩
  | .local _ .vmem, ⟨83, _⟩ => ⟨S4000x64, .f32⟩
  | .local _ .vmem, ⟨84, _⟩ => ⟨S4000x2, .f32⟩
  | .local _ .vmem, ⟨85, _⟩ => ⟨S4000x2, .f32⟩
  | .local _ .vmem, ⟨86, _⟩ => ⟨S4000x64, .f32⟩
  | .local _ .vmem, ⟨87, _⟩ => ⟨S4000x64, .f32⟩
  | .local _ .vmem, ⟨88, _⟩ => ⟨S4000x64, .f32⟩
  | .local _ .vmem, ⟨89, _⟩ => ⟨S4000x64, .f32⟩
  | .local _ .vmem, ⟨90, _⟩ => ⟨S4000x64, .f32⟩
  | .local _ .vmem, ⟨91, _⟩ => ⟨S4000x64, .f32⟩
  | .local _ .vmem, ⟨92, _⟩ => ⟨S4000x64, .f32⟩
  | .local _ .vmem, ⟨93, _⟩ => ⟨S4000x64, .f32⟩
  | .local _ .vmem, ⟨94, _⟩ => ⟨S4000x2, .f32⟩
  | .local _ .vmem, ⟨95, _⟩ => ⟨S4000x2, .f32⟩
  | .local _ .vmem, ⟨96, _⟩ => ⟨S4000x64, .f32⟩
  | .local _ .vmem, ⟨97, _⟩ => ⟨S4000x64, .f32⟩
  | .local _ .vmem, ⟨98, _⟩ => ⟨S4000x64, .f32⟩
  | .local _ .vmem, ⟨99, _⟩ => ⟨S4000x64, .f32⟩
  | .local _ .vmem, ⟨100, _⟩ => ⟨S4000x64, .f32⟩
  | .local _ .vmem, ⟨101, _⟩ => ⟨S4000x64, .f32⟩
  | .local _ .vmem, ⟨102, _⟩ => ⟨S4000x64, .f32⟩
  | .local _ .vmem, ⟨103, _⟩ => ⟨S4000x64, .f32⟩
  | .local _ .vmem, ⟨104, _⟩ => ⟨S4000x2, .f32⟩
  | .local _ .vmem, ⟨105, _⟩ => ⟨S4000x2, .f32⟩
  | .local _ .vmem, ⟨106, _⟩ => ⟨S4000x64, .f32⟩
  | .local _ .vmem, ⟨107, _⟩ => ⟨S4000x64, .f32⟩
  | .local _ .vmem, ⟨108, _⟩ => ⟨S4000x64, .f32⟩
  | .local _ .vmem, ⟨109, _⟩ => ⟨S4000x64, .f32⟩
  | .local _ .vmem, ⟨110, _⟩ => ⟨S4000x64, .f32⟩
  | .local _ .vmem, ⟨111, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_c_10 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46_0 : Ref sig .tc := ⟨.hbm, 71, rfl⟩
abbrev main_v46_1 : Ref sig .tc := ⟨.hbm, 72, rfl⟩
abbrev main_c_13 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57_0 : Ref sig .tc := ⟨.hbm, 86, rfl⟩
abbrev main_v57_1 : Ref sig .tc := ⟨.hbm, 87, rfl⟩
abbrev main_c_16 : Ref sig .tc := ⟨.hbm, 88, rfl⟩
abbrev main_v58 : Ref sig .tc := ⟨.hbm, 89, rfl⟩
abbrev main_v59 : Ref sig .tc := ⟨.hbm, 90, rfl⟩
abbrev main_c_17 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_18 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68_0 : Ref sig .tc := ⟨.hbm, 101, rfl⟩
abbrev main_v68_1 : Ref sig .tc := ⟨.hbm, 102, rfl⟩
abbrev main_c_19 : Ref sig .tc := ⟨.hbm, 103, rfl⟩
abbrev main_v69 : Ref sig .tc := ⟨.hbm, 104, rfl⟩
abbrev main_v70 : Ref sig .tc := ⟨.hbm, 105, rfl⟩
abbrev main_c_20 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_21 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79_0 : Ref sig .tc := ⟨.hbm, 116, rfl⟩
abbrev main_v79_1 : Ref sig .tc := ⟨.hbm, 117, rfl⟩
abbrev main_c_22 : Ref sig .tc := ⟨.hbm, 118, rfl⟩
abbrev main_v80 : Ref sig .tc := ⟨.hbm, 119, rfl⟩
abbrev main_v81 : Ref sig .tc := ⟨.hbm, 120, rfl⟩
abbrev main_c_23 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_24 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90_0 : Ref sig .tc := ⟨.hbm, 131, rfl⟩
abbrev main_v90_1 : Ref sig .tc := ⟨.hbm, 132, rfl⟩
abbrev main_c_25 : Ref sig .tc := ⟨.hbm, 133, rfl⟩
abbrev main_v91 : Ref sig .tc := ⟨.hbm, 134, rfl⟩
abbrev main_v92 : Ref sig .tc := ⟨.hbm, 135, rfl⟩
abbrev main_c_26 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_27 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101_0 : Ref sig .tc := ⟨.hbm, 146, rfl⟩
abbrev main_v101_1 : Ref sig .tc := ⟨.hbm, 147, rfl⟩
abbrev main_c_28 : Ref sig .tc := ⟨.hbm, 148, rfl⟩
abbrev main_v102 : Ref sig .tc := ⟨.hbm, 149, rfl⟩
abbrev main_v103 : Ref sig .tc := ⟨.hbm, 150, rfl⟩
abbrev main_c_29 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_30 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112_0 : Ref sig .tc := ⟨.hbm, 161, rfl⟩
abbrev main_v112_1 : Ref sig .tc := ⟨.hbm, 162, rfl⟩
abbrev main_c_31 : Ref sig .tc := ⟨.hbm, 163, rfl⟩
abbrev main_v113 : Ref sig .tc := ⟨.hbm, 164, rfl⟩
abbrev main_v114 : Ref sig .tc := ⟨.hbm, 165, rfl⟩
abbrev main_c_32 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_33 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123_0 : Ref sig .tc := ⟨.hbm, 176, rfl⟩
abbrev main_v123_1 : Ref sig .tc := ⟨.hbm, 177, rfl⟩
abbrev main_c_34 : Ref sig .tc := ⟨.hbm, 178, rfl⟩
abbrev main_v124 : Ref sig .tc := ⟨.hbm, 179, rfl⟩
abbrev main_v125 : Ref sig .tc := ⟨.hbm, 180, rfl⟩
abbrev main_c_35 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_36 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134_0 : Ref sig .tc := ⟨.hbm, 191, rfl⟩
abbrev main_v134_1 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_stg4_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg3_1 : Ref sig .tc := ⟨.vmem, 69, rfl⟩
abbrev cc7_stg4_0 : Ref sig .tc := ⟨.vmem, 70, rfl⟩
abbrev cc7_stg4_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg2_1 : Ref sig .tc := ⟨.vmem, 77, rfl⟩
abbrev cc8_stg3_0 : Ref sig .tc := ⟨.vmem, 78, rfl⟩
abbrev cc8_stg3_1 : Ref sig .tc := ⟨.vmem, 79, rfl⟩
abbrev cc8_stg4_0 : Ref sig .tc := ⟨.vmem, 80, rfl⟩
abbrev cc8_stg4_1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg1_1 : Ref sig .tc := ⟨.vmem, 85, rfl⟩
abbrev cc9_stg2_0 : Ref sig .tc := ⟨.vmem, 86, rfl⟩
abbrev cc9_stg2_1 : Ref sig .tc := ⟨.vmem, 87, rfl⟩
abbrev cc9_stg3_0 : Ref sig .tc := ⟨.vmem, 88, rfl⟩
abbrev cc9_stg3_1 : Ref sig .tc := ⟨.vmem, 89, rfl⟩
abbrev cc9_stg4_0 : Ref sig .tc := ⟨.vmem, 90, rfl⟩
abbrev cc9_stg4_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg1_1 : Ref sig .tc := ⟨.vmem, 95, rfl⟩
abbrev cc10_stg2_0 : Ref sig .tc := ⟨.vmem, 96, rfl⟩
abbrev cc10_stg2_1 : Ref sig .tc := ⟨.vmem, 97, rfl⟩
abbrev cc10_stg3_0 : Ref sig .tc := ⟨.vmem, 98, rfl⟩
abbrev cc10_stg3_1 : Ref sig .tc := ⟨.vmem, 99, rfl⟩
abbrev cc10_stg4_0 : Ref sig .tc := ⟨.vmem, 100, rfl⟩
abbrev cc10_stg4_1 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg1_1 : Ref sig .tc := ⟨.vmem, 105, rfl⟩
abbrev cc11_stg2_0 : Ref sig .tc := ⟨.vmem, 106, rfl⟩
abbrev cc11_stg2_1 : Ref sig .tc := ⟨.vmem, 107, rfl⟩
abbrev cc11_stg3_0 : Ref sig .tc := ⟨.vmem, 108, rfl⟩
abbrev cc11_stg3_1 : Ref sig .tc := ⟨.vmem, 109, rfl⟩
abbrev cc11_stg4_0 : Ref sig .tc := ⟨.vmem, 110, rfl⟩
abbrev cc11_stg4_1 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem3_1 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc6_sem3_0 : DmaSem sig := 58
abbrev cc6_sem3_1 : DmaSem sig := 59
abbrev cc6_sem4_0 : DmaSem sig := 60
abbrev cc6_sem4_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc7_sem3_0 : DmaSem sig := 68
abbrev cc7_sem3_1 : DmaSem sig := 69
abbrev cc7_sem4_0 : DmaSem sig := 70
abbrev cc7_sem4_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem2_1 : DmaSem sig := 77
abbrev cc8_sem3_0 : DmaSem sig := 78
abbrev cc8_sem3_1 : DmaSem sig := 79
abbrev cc8_sem4_0 : DmaSem sig := 80
abbrev cc8_sem4_1 : DmaSem sig := 81
abbrev cc9_sem0_0 : DmaSem sig := 82
abbrev cc9_sem0_1 : DmaSem sig := 83
abbrev cc9_sem1_0 : DmaSem sig := 84
abbrev cc9_sem1_1 : DmaSem sig := 85
abbrev cc9_sem2_0 : DmaSem sig := 86
abbrev cc9_sem2_1 : DmaSem sig := 87
abbrev cc9_sem3_0 : DmaSem sig := 88
abbrev cc9_sem3_1 : DmaSem sig := 89
abbrev cc9_sem4_0 : DmaSem sig := 90
abbrev cc9_sem4_1 : DmaSem sig := 91
abbrev cc10_sem0_0 : DmaSem sig := 92
abbrev cc10_sem0_1 : DmaSem sig := 93
abbrev cc10_sem1_0 : DmaSem sig := 94
abbrev cc10_sem1_1 : DmaSem sig := 95
abbrev cc10_sem2_0 : DmaSem sig := 96
abbrev cc10_sem2_1 : DmaSem sig := 97
abbrev cc10_sem3_0 : DmaSem sig := 98
abbrev cc10_sem3_1 : DmaSem sig := 99
abbrev cc10_sem4_0 : DmaSem sig := 100
abbrev cc10_sem4_1 : DmaSem sig := 101
abbrev cc11_sem0_0 : DmaSem sig := 102
abbrev cc11_sem0_1 : DmaSem sig := 103
abbrev cc11_sem1_0 : DmaSem sig := 104
abbrev cc11_sem1_1 : DmaSem sig := 105
abbrev cc11_sem2_0 : DmaSem sig := 106
abbrev cc11_sem2_1 : DmaSem sig := 107
abbrev cc11_sem3_0 : DmaSem sig := 108
abbrev cc11_sem3_1 : DmaSem sig := 109
abbrev cc11_sem4_0 : DmaSem sig := 110
abbrev cc11_sem4_1 : DmaSem sig := 111

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x2 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x2 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x2 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S4000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S4000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x2 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S4000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S4000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x2 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S4000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S4000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x2 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S4000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S4000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4000x2 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S4000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S4000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S4000x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  slices_S4000x2_o0_0_S4000x1 : S4000x2.Slices ![0, 0] S4000x1
  slices_S4000x2_o0_1_S4000x1 : S4000x2.Slices ![0, 1] S4000x1
  dot_S10000x64_S64x64_S10000x64_1_0_0_1_n_n_wf : DotDims.WF S10000x64 S64x64 S10000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x2.size a ≤ S100000x2.size a
  hwx2_1 : ∀ i : grid2.Coords, EltTy.bits .f32 = 32 ∨ (Rect.block (s := S100000x2) S4000x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x2.size a ≤ S100000x2.size a
  hwx3_1 : ∀ i : grid3.Coords, EltTy.bits .f32 = 32 ∨ (Rect.block (s := S100000x2) S4000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S100000x64.size a
  hwx3_3 : ∀ i : grid3.Coords, EltTy.bits .f32 = 32 ∨ (Rect.block (s := S100000x64) S4000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .f32 = 32 ∨ (Rect.block (s := S100000x64) S4000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x2.size a ≤ S100000x2.size a
  hwx4_1 : ∀ i : grid4.Coords, EltTy.bits .f32 = 32 ∨ (Rect.block (s := S100000x2) S4000x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S100000x64.size a
  hwx4_3 : ∀ i : grid4.Coords, EltTy.bits .f32 = 32 ∨ (Rect.block (s := S100000x64) S4000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S100000x64.size a
  hwx4_4 : ∀ i : grid4.Coords, EltTy.bits .f32 = 32 ∨ (Rect.block (s := S100000x64) S4000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x2.size a ≤ S100000x2.size a
  hwx5_1 : ∀ i : grid5.Coords, EltTy.bits .f32 = 32 ∨ (Rect.block (s := S100000x2) S4000x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x64.size a ≤ S100000x64.size a
  hwx5_2 : ∀ i : grid5.Coords, EltTy.bits .f32 = 32 ∨ (Rect.block (s := S100000x64) S4000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x64.size a ≤ S100000x64.size a
  hwx5_3 : ∀ i : grid5.Coords, EltTy.bits .f32 = 32 ∨ (Rect.block (s := S100000x64) S4000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x64.size a ≤ S100000x64.size a
  hwx5_4 : ∀ i : grid5.Coords, EltTy.bits .f32 = 32 ∨ (Rect.block (s := S100000x64) S4000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x2.size a ≤ S100000x2.size a
  hwx6_1 : ∀ i : grid6.Coords, EltTy.bits .f32 = 32 ∨ (Rect.block (s := S100000x2) S4000x2.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x64.size a ≤ S100000x64.size a
  hwx6_2 : ∀ i : grid6.Coords, EltTy.bits .f32 = 32 ∨ (Rect.block (s := S100000x64) S4000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x64.size a ≤ S100000x64.size a
  hwx6_3 : ∀ i : grid6.Coords, EltTy.bits .f32 = 32 ∨ (Rect.block (s := S100000x64) S4000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x64.size a ≤ S100000x64.size a
  hwx6_4 : ∀ i : grid6.Coords, EltTy.bits .f32 = 32 ∨ (Rect.block (s := S100000x64) S4000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S100000x64.size a
  hwx7_0 : ∀ i : grid7.Coords, EltTy.bits .f32 = 32 ∨ (Rect.block (s := S100000x64) S4000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x2.size a ≤ S100000x2.size a
  hwx7_1 : ∀ i : grid7.Coords, EltTy.bits .f32 = 32 ∨ (Rect.block (s := S100000x2) S4000x2.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x64.size a ≤ S100000x64.size a
  hwx7_2 : ∀ i : grid7.Coords, EltTy.bits .f32 = 32 ∨ (Rect.block (s := S100000x64) S4000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x64.size a ≤ S100000x64.size a
  hwx7_3 : ∀ i : grid7.Coords, EltTy.bits .f32 = 32 ∨ (Rect.block (s := S100000x64) S4000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4000x64.size a ≤ S100000x64.size a
  hwx7_4 : ∀ i : grid7.Coords, EltTy.bits .f32 = 32 ∨ (Rect.block (s := S100000x64) S4000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S100000x64.size a
  hwx8_0 : ∀ i : grid8.Coords, EltTy.bits .f32 = 32 ∨ (Rect.block (s := S100000x64) S4000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x2.size a ≤ S100000x2.size a
  hwx8_1 : ∀ i : grid8.Coords, EltTy.bits .f32 = 32 ∨ (Rect.block (s := S100000x2) S4000x2.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x64.size a ≤ S100000x64.size a
  hwx8_2 : ∀ i : grid8.Coords, EltTy.bits .f32 = 32 ∨ (Rect.block (s := S100000x64) S4000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x64.size a ≤ S100000x64.size a
  hwx8_3 : ∀ i : grid8.Coords, EltTy.bits .f32 = 32 ∨ (Rect.block (s := S100000x64) S4000x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S4000x64.size a ≤ S100000x64.size a
  hwx8_4 : ∀ i : grid8.Coords, EltTy.bits .f32 = 32 ∨ (Rect.block (s := S100000x64) S4000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x64.size a ≤ S100000x64.size a
  hwx9_0 : ∀ i : grid9.Coords, EltTy.bits .f32 = 32 ∨ (Rect.block (s := S100000x64) S4000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x2.size a ≤ S100000x2.size a
  hwx9_1 : ∀ i : grid9.Coords, EltTy.bits .f32 = 32 ∨ (Rect.block (s := S100000x2) S4000x2.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4000x64.size a ≤ S100000x64.size a
  hwx9_2 : ∀ i : grid9.Coords, EltTy.bits .f32 = 32 ∨ (Rect.block (s := S100000x64) S4000x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x64.size a ≤ S100000x64.size a
  hwx9_3 : ∀ i : grid9.Coords, EltTy.bits .f32 = 32 ∨ (Rect.block (s := S100000x64) S4000x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4000x64.size a ≤ S100000x64.size a
  hwx9_4 : ∀ i : grid9.Coords, EltTy.bits .f32 = 32 ∨ (Rect.block (s := S100000x64) S4000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x64.size a ≤ S100000x64.size a
  hwx10_0 : ∀ i : grid10.Coords, EltTy.bits .f32 = 32 ∨ (Rect.block (s := S100000x64) S4000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x2.size a ≤ S100000x2.size a
  hwx10_1 : ∀ i : grid10.Coords, EltTy.bits .f32 = 32 ∨ (Rect.block (s := S100000x2) S4000x2.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4000x64.size a ≤ S100000x64.size a
  hwx10_2 : ∀ i : grid10.Coords, EltTy.bits .f32 = 32 ∨ (Rect.block (s := S100000x64) S4000x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4000x64.size a ≤ S100000x64.size a
  hwx10_3 : ∀ i : grid10.Coords, EltTy.bits .f32 = 32 ∨ (Rect.block (s := S100000x64) S4000x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S4000x64.size a ≤ S100000x64.size a
  hwx10_4 : ∀ i : grid10.Coords, EltTy.bits .f32 = 32 ∨ (Rect.block (s := S100000x64) S4000x64.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x64.size a ≤ S100000x64.size a
  hwx11_0 : ∀ i : grid11.Coords, EltTy.bits .f32 = 32 ∨ (Rect.block (s := S100000x64) S4000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4000x2.size a ≤ S100000x2.size a
  hwx11_1 : ∀ i : grid11.Coords, EltTy.bits .f32 = 32 ∨ (Rect.block (s := S100000x2) S4000x2.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S4000x64.size a ≤ S100000x64.size a
  hwx11_2 : ∀ i : grid11.Coords, EltTy.bits .f32 = 32 ∨ (Rect.block (s := S100000x64) S4000x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4000x64.size a ≤ S100000x64.size a
  hwx11_3 : ∀ i : grid11.Coords, EltTy.bits .f32 = 32 ∨ (Rect.block (s := S100000x64) S4000x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S4000x64.size a ≤ S100000x64.size a
  hwx11_4 : ∀ i : grid11.Coords, EltTy.bits .f32 = 32 ∨ (Rect.block (s := S100000x64) S4000x64.size (cc11_transform_4 i) (hinb11_4 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S4000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35_0) S4000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35_1) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v45) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S4000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46_0) S4000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v46_1) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v56) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S4000x2.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v57_0) S4000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v57_1) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v67) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v22) S4000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v0) S4000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v68_0) S4000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v68_1) S4000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v78) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v22) S4000x2.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v0) S4000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v79_0) S4000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v79_1) S4000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v89) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v22) S4000x2.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v0) S4000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v90_0) S4000x64.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v90_1) S4000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v100) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v22) S4000x2.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v0) S4000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v101_0) S4000x64.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v101_1) S4000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v111) S4000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v22) S4000x2.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v0) S4000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v112_0) S4000x64.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v112_1) S4000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v122) S4000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v22) S4000x2.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v0) S4000x64.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v123_0) S4000x64.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v123_1) S4000x64.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v133) S4000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v22) S4000x2.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v0) S4000x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v134_0) S4000x64.size cc11_transform_3 reads11_3 true false 2 stage11_3 sem11_3
    hrank11 hreads11_3 hinb11_3 nbuf11_3 (Memref.isWhole_whole _) hwx11_3 hstage11_3

abbrev win11_4 : Pipeline.Window sig grid11 :=
  Pipeline.Window.ofSpec (Memref.whole main_v134_1) S4000x64.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩

abbrev nBuf : Space → Nat
  | .hbm => 283
  | .vmem => 0
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S1600000, .i32⟩
  | 4 => ⟨S1600000, .i32⟩
  | 5 => ⟨S100000x64, .f32⟩
  | 6 => ⟨S1x64, .f32⟩
  | 7 => ⟨S100000x64, .f32⟩
  | 8 => ⟨S100000x64, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S100000x1, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000x64, .f32⟩
  | 59 => ⟨S100000x64, .f32⟩
  | 60 => ⟨S_, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S100000x64, .f32⟩
  | 67 => ⟨S100000x64, .f32⟩
  | 68 => ⟨S100000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S_, .f32⟩
  | 112 => ⟨S100000x64, .f32⟩
  | 113 => ⟨S100000x64, .f32⟩
  | 114 => ⟨S100000x64, .f32⟩
  | 115 => ⟨S100000x64, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S_, .f32⟩
  | 127 => ⟨S100000x64, .f32⟩
  | _ => ⟨S100000x64, .f32⟩

abbrev hbmTy0_1 (i : Nat) : BufTy := match i % 128 with
  | 0 => ⟨S1600000x1, .i32⟩
  | 1 => ⟨S100000x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S100000x64, .f32⟩
  | 11 => ⟨S100000x64, .f32⟩
  | 12 => ⟨S100000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S_, .f32⟩
  | 23 => ⟨S100000x64, .f32⟩
  | 24 => ⟨S1600000x1, .i32⟩
  | 25 => ⟨S100000x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S_, .f32⟩
  | 32 => ⟨S100000x64, .f32⟩
  | 33 => ⟨S100000x64, .f32⟩
  | 34 => ⟨S100000x64, .f32⟩
  | 35 => ⟨S100000x64, .f32⟩
  | 36 => ⟨S100000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x64, .f32⟩
  | 46 => ⟨S_, .f32⟩
  | 47 => ⟨S100000x64, .f32⟩
  | 48 => ⟨S1600000x1, .i32⟩
  | 49 => ⟨S100000x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S100000x64, .f32⟩
  | 59 => ⟨S100000x64, .f32⟩
  | 60 => ⟨S100000x64, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S_, .f32⟩
  | 71 => ⟨S100000x64, .f32⟩
  | 72 => ⟨S1600000x1, .i32⟩
  | 73 => ⟨S100000x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S100000x64, .f32⟩
  | 84 => ⟨S100000x64, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S_, .f32⟩
  | 95 => ⟨S100000x64, .f32⟩
  | 96 => ⟨S1600000x1, .i32⟩
  | 97 => ⟨S100000x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S_, .f32⟩
  | 119 => ⟨S100000x64, .f32⟩
  | 120 => ⟨S1600000x1, .i32⟩
  | 121 => ⟨S100000x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .f32⟩
  | _ => ⟨S100000x64, .f32⟩

abbrev hbmTy0_2 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S100000x64, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S_, .f32⟩
  | 15 => ⟨S100000x64, .f32⟩
  | 16 => ⟨S1600000x1, .i32⟩
  | 17 => ⟨S100000x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_c_13 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_17 : Ref sig .tc := ⟨.hbm, 93, rfl⟩
abbrev main_v65 : Ref sig .tc := ⟨.hbm, 94, rfl⟩
abbrev main_v66 : Ref sig .tc := ⟨.hbm, 95, rfl⟩
abbrev main_c_18 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_v78 : Ref sig .tc := ⟨.hbm, 110, rfl⟩
abbrev main_cst_21 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_22 : Ref sig .tc := ⟨.hbm, 117, rfl⟩
abbrev main_v84 : Ref sig .tc := ⟨.hbm, 118, rfl⟩
abbrev main_v85 : Ref sig .tc := ⟨.hbm, 119, rfl⟩
abbrev main_c_23 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_24 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_25 : Ref sig .tc := ⟨.hbm, 132, rfl⟩
abbrev main_v96 : Ref sig .tc := ⟨.hbm, 133, rfl⟩
abbrev main_v97 : Ref sig .tc := ⟨.hbm, 134, rfl⟩
abbrev main_cst_26 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_27 : Ref sig .tc := ⟨.hbm, 141, rfl⟩
abbrev main_v103 : Ref sig .tc := ⟨.hbm, 142, rfl⟩
abbrev main_v104 : Ref sig .tc := ⟨.hbm, 143, rfl⟩
abbrev main_c_28 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_29 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_30 : Ref sig .tc := ⟨.hbm, 156, rfl⟩
abbrev main_v115 : Ref sig .tc := ⟨.hbm, 157, rfl⟩
abbrev main_v116 : Ref sig .tc := ⟨.hbm, 158, rfl⟩
abbrev main_cst_31 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_32 : Ref sig .tc := ⟨.hbm, 165, rfl⟩
abbrev main_v122 : Ref sig .tc := ⟨.hbm, 166, rfl⟩
abbrev main_v123 : Ref sig .tc := ⟨.hbm, 167, rfl⟩
abbrev main_c_33 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_34 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_35 : Ref sig .tc := ⟨.hbm, 180, rfl⟩
abbrev main_v134 : Ref sig .tc := ⟨.hbm, 181, rfl⟩
abbrev main_v135 : Ref sig .tc := ⟨.hbm, 182, rfl⟩
abbrev main_cst_36 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_c_37 : Ref sig .tc := ⟨.hbm, 189, rfl⟩
abbrev main_v141 : Ref sig .tc := ⟨.hbm, 190, rfl⟩
abbrev main_v142 : Ref sig .tc := ⟨.hbm, 191, rfl⟩
abbrev main_c_38 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_39 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_40 : Ref sig .tc := ⟨.hbm, 204, rfl⟩
abbrev main_v153 : Ref sig .tc := ⟨.hbm, 205, rfl⟩
abbrev main_v154 : Ref sig .tc := ⟨.hbm, 206, rfl⟩
abbrev main_cst_41 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_c_42 : Ref sig .tc := ⟨.hbm, 213, rfl⟩
abbrev main_v160 : Ref sig .tc := ⟨.hbm, 214, rfl⟩
abbrev main_v161 : Ref sig .tc := ⟨.hbm, 215, rfl⟩
abbrev main_c_43 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_cst_44 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_cst_45 : Ref sig .tc := ⟨.hbm, 228, rfl⟩
abbrev main_v172 : Ref sig .tc := ⟨.hbm, 229, rfl⟩
abbrev main_v173 : Ref sig .tc := ⟨.hbm, 230, rfl⟩
abbrev main_cst_46 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_c_47 : Ref sig .tc := ⟨.hbm, 237, rfl⟩
abbrev main_v179 : Ref sig .tc := ⟨.hbm, 238, rfl⟩
abbrev main_v180 : Ref sig .tc := ⟨.hbm, 239, rfl⟩
abbrev main_c_48 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_cst_49 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_cst_50 : Ref sig .tc := ⟨.hbm, 252, rfl⟩
abbrev main_v191 : Ref sig .tc := ⟨.hbm, 253, rfl⟩
abbrev main_v192 : Ref sig .tc := ⟨.hbm, 254, rfl⟩
abbrev main_cst_51 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_c_52 : Ref sig .tc := ⟨.hbm, 261, rfl⟩
abbrev main_v198 : Ref sig .tc := ⟨.hbm, 262, rfl⟩
abbrev main_v199 : Ref sig .tc := ⟨.hbm, 263, rfl⟩
abbrev main_c_53 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_cst_54 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_cst_55 : Ref sig .tc := ⟨.hbm, 276, rfl⟩
abbrev main_v210 : Ref sig .tc := ⟨.hbm, 277, rfl⟩
abbrev main_v211 : Ref sig .tc := ⟨.hbm, 278, rfl⟩
abbrev main_cst_56 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics of the APPNP propagation, index by index, over the extended reals.

  Nodes are rows of a 100000 × 64 table. With `h0 = x · W + b` the projected features and two per-node factors
  (the inverse square roots of the out- and in-degrees, zero for an isolated node), one propagation step sends
  `h` to `0.9 · A(h · ns) · nd + 0.1 · h0`, where `A` gathers rows along the edges' sources and sums them at the
  edges' destinations. The functions below are one such step read at an index `i = (row, column)`, in the
  arrangement the tiled kernels compute it: the two factors sit side by side in a 100000 × 2 table, column 0 the
  source factor and column 1 the destination factor, and a step also returns the next message `h' · ns`.
  No program is mentioned here; the aggregation `A` enters only as an array `agg` already computed.
-/
import Idealize.ShloMosaic.PureOps.Ideal
import Idealize.ShloMosaic.Lib.ValueIdx

noncomputable section

namespace Cert.Appnp

open Idealize.ShloMosaic

/-- The node table's shape, the two-column factor table's, a one-column table's, the weight's and the bias's. -/
abbrev SN64 : Shape := ⟨2, ![100000, 64]⟩
abbrev SN2 : Shape := ⟨2, ![100000, 2]⟩
abbrev SN1 : Shape := ⟨2, ![100000, 1]⟩
abbrev SW : Shape := ⟨2, ![64, 64]⟩
abbrev SB : Shape := ⟨1, ![64]⟩

/-- Row of `i`, column `k` of the two-column factor table. -/
abbrev rowcol (i : SN64.Idx) (k : Fin 2) : SN2.Idx := fun a => match a with
  | ⟨0, _⟩ => ⟨(i 0).val, (i 0).isLt⟩
  | ⟨1, _⟩ => ⟨k.val, k.isLt⟩
/-- Row of `i` in a one-column table. -/
abbrev row1 (i : SN64.Idx) : SN1.Idx := fun a => match a with
  | ⟨0, _⟩ => ⟨(i 0).val, (i 0).isLt⟩
  | ⟨1, _⟩ => ⟨0, Nat.one_pos⟩
/-- Entry `k` of `i`'s row of the features. -/
abbrev lid (i : SN64.Idx) (k : Fin 64) : SN64.Idx := fun a => match a with
  | ⟨0, _⟩ => ⟨(i 0).val, (i 0).isLt⟩
  | ⟨1, _⟩ => ⟨k.val, k.isLt⟩
/-- Entry `k` of `i`'s column of the weight. -/
abbrev rid (i : SN64.Idx) (k : Fin 64) : SW.Idx := fun a => match a with
  | ⟨0, _⟩ => ⟨k.val, k.isLt⟩
  | ⟨1, _⟩ => ⟨(i 1).val, (i 1).isLt⟩
/-- `i`'s column in the bias. -/
abbrev bid (i : SN64.Idx) : SB.Idx := fun a => match a with
  | ⟨0, _⟩ => ⟨(i 1).val, (i 1).isLt⟩

/-- The two mixing weights, as the single-precision words both programs carry (0.9 and 0.1 rounded). -/
abbrev c9 : EReal := Ideal.ofBits .f32 0x3F666666#32
abbrev c1 : EReal := Ideal.ofBits .f32 0x3DCCCCCD#32

/-- The projection: row times weight column, plus the bias. -/
def lin (x : SN64.Idx → EReal) (W : SW.Idx → EReal) (b : SB.Idx → EReal) : SN64.Idx → EReal :=
  fun i => (∑ k : Fin 64, x (lid i k) * W (rid i k)) + b (bid i)

/-- A table scaled row by row by a one-column table. -/
def scale (h : SN64.Idx → EReal) (nc : SN1.Idx → EReal) : SN64.Idx → EReal :=
  fun i => h i * nc (row1 i)

/-- The new features of one step from the aggregated messages: `(0.9 · agg) · nd + 0.1 · h0`. -/
def combH (agg : SN64.Idx → EReal) (nrm : SN2.Idx → EReal) (h0 : SN64.Idx → EReal) : SN64.Idx → EReal :=
  fun i => c9 * agg i * nrm (rowcol i 1) + c1 * h0 i

/-- The next message of one step: the new features scaled by the source factor. -/
def combM (agg : SN64.Idx → EReal) (nrm : SN2.Idx → EReal) (h0 : SN64.Idx → EReal) : SN64.Idx → EReal :=
  fun i => combH agg nrm h0 i * nrm (rowcol i 0)

end Cert.Appnp

end
-- ==== Proof.RVal.lean ====
/-
  The reference, one propagation step at a time. Its run ends with the result at one long composed term of the
  arguments; that term is the projection `h0 = x · W + b`, the two degree factors as one-column tables, and ten
  applications of one step `h ↦ 0.9 · (A(h · ns) · nd) + 0.1 · h0`, where `A` gathers rows along the edges' sources and
  sums them at the destinations. The step is written once below, as the operations stand in the program, and the run's
  term is its tenfold application by unfolding. The projection is then read at an index: a sum of products along a row of
  the features and a column of the weight, plus the bias entry of the column.
-/
import proofs.«144990_j83459804496278_1_alg».proof.Proof.RunP
import proofs.«144990_j83459804496278_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Cert.Appnp

variable {F : FTy → Type} [FloatOps F]

/-- The aggregation along the edges: each edge's source row of `msg` is gathered (a negative source index first moved up
    by the number of nodes, as array indexing does) and the rows are summed at the edges' destinations, into zeros. -/
def agg (msg : (⟨S100000x64, .f32⟩ : BufTy).Contents (Elt F)) (x3 x4 : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 x4)
    (Host.gather gather_S100000x64_S1600000x1_S1600000x64_1_0_n_n_0_1_164 msg
      (broadcastInDim S1600000x1 ![0] bcast_S1600000_S1600000x1_0
        (select (cmpi .slt x3 (broadcastInDim S1600000 ![] bcast_S_S1600000 (constantI S_ 32 0#32)))
          (addi x3 (broadcastInDim S1600000 ![] bcast_S_S1600000 (constantI S_ 32 100000#32))) x3)))

/-- A node's degree: one for every edge whose endpoint `idx` it is, summed into zeros. -/
def deg (idx : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- A node's factor: the inverse square root of its degree (at least one), zero where the degree is zero. -/
def norm (idx : (⟨S1600000, .i32⟩ : BufTy).Contents (Elt F)) : (⟨S100000, .f32⟩ : BufTy).Contents (Elt F) :=
  select (cmpf .ogt (deg idx) (broadcastInDim S100000 ![] bcast_S_S100000 (constant S_ .f32 0x00000000#32)))
    (Host.rsqrt (maximumf (deg idx) (broadcastInDim S100000 ![] bcast_S_S100000 (constant S_ .f32 0x3F800000#32))))
    (broadcastInDim S100000 ![] bcast_S_S100000 (id (constant S_ .f32 0x00000000#32)))

/-- The factors as a one-column table. -/
def ncol (idx : (⟨S1600000, .i32⟩ : BufTy).Contents (Elt F)) : (⟨S100000x1, .f32⟩ : BufTy).Contents (Elt F) :=
  broadcastInDim S100000x1 ![0] bcast_S100000_S100000x1_0 (norm idx)

/-- The projection, as the reference's operations stand: the whole matrix product plus the bias repeated down the rows. -/
def proj (x0 : (⟨S100000x64, .f32⟩ : BufTy).Contents (Elt F)) (x1 : (⟨S64x64, .f32⟩ : BufTy).Contents (Elt F))
    (x2 : (⟨S64, .f32⟩ : BufTy).Contents (Elt F)) : (⟨S100000x64, .f32⟩ : BufTy).Contents (Elt F) :=
  addf (Host.dotGeneral dot_S100000x64_S64x64_S100000x64_1_0_0_1_n_n none x0 x1)
    (broadcastInDim S100000x64 ![0, 1] bcast_S1x64_S100000x64_0_1 (broadcastInDim S1x64 ![1] bcast_S64_S1x64_1 x2))

/-- One propagation step, as the reference's operations stand: `0.9 · (A(h · ns) · nd) + 0.1 · h0`, the one-column
    factor tables repeated along the 64 columns. -/
def step (h0 : (⟨S100000x64, .f32⟩ : BufTy).Contents (Elt F)) (nsc ndc : (⟨S100000x1, .f32⟩ : BufTy).Contents (Elt F))
    (x3 x4 : (⟨S1600000, .i32⟩ : BufTy).Contents (Elt F)) (h : (⟨S100000x64, .f32⟩ : BufTy).Contents (Elt F)) :
    (⟨S100000x64, .f32⟩ : BufTy).Contents (Elt F) :=
  addf (mulf (broadcastInDim S100000x64 ![] bcast_S_S100000x64 (constant S_ .f32 0x3F666666#32))
      (mulf (agg (mulf h (broadcastInDim S100000x64 ![0, 1] bcast_S100000x1_S100000x64_0_1 nsc)) x3 x4)
        (broadcastInDim S100000x64 ![0, 1] bcast_S100000x1_S100000x64_0_1 ndc)))
    (mulf (broadcastInDim S100000x64 ![] bcast_S_S100000x64 (constant S_ .f32 0x3DCCCCCD#32)) h0)

/-- The reference's result: ten steps from the projection. -/
def result (x0 : (⟨S100000x64, .f32⟩ : BufTy).Contents (Elt F)) (x1 : (⟨S64x64, .f32⟩ : BufTy).Contents (Elt F))
    (x2 : (⟨S64, .f32⟩ : BufTy).Contents (Elt F)) (x3 x4 : (⟨S1600000, .i32⟩ : BufTy).Contents (Elt F)) :
    (⟨S100000x64, .f32⟩ : BufTy).Contents (Elt F) :=
  (step (proj x0 x1 x2) (ncol x3) (ncol x4) x3 x4 (step (proj x0 x1 x2) (ncol x3) (ncol x4) x3 x4 (step (proj x0 x1 x2) (ncol x3) (ncol x4) x3 x4 (step (proj x0 x1 x2) (ncol x3) (ncol x4) x3 x4 (step (proj x0 x1 x2) (ncol x3) (ncol x4) x3 x4 (step (proj x0 x1 x2) (ncol x3) (ncol x4) x3 x4 (step (proj x0 x1 x2) (ncol x3) (ncol x4) x3 x4 (step (proj x0 x1 x2) (ncol x3) (ncol x4) x3 x4 (step (proj x0 x1 x2) (ncol x3) (ncol x4) x3 x4 (step (proj x0 x1 x2) (ncol x3) (ncol x4) x3 x4 (proj x0 x1 x2)))))))))))

set_option maxRecDepth 8192 in
/-- The run's composed term is that tenfold step of the arguments as launched. -/
theorem res_eq (m : (ℓ : Loc nD τ sig) → Buf (Elt F) ℓ) (c : Dev nD) :
    Cert.ReferenceIdeal.ValueP.res_main_v214 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.ValueP.res_main_v214; rfl

/-! ## The projection at an index -/

/-- Which entries of the two operands the matrix product pairs at result index `i` and contraction index `q`. -/
theorem lhs_0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem rhs_0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem rhs_1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- Over the extended reals the reference's projection is `Cert.Appnp.lin`: entry (r, q) is the sum over k of
    x(r, k) · W(k, q), plus b(q). -/
theorem proj_eq (x0 : (⟨S100000x64, .f32⟩ : BufTy).Contents (Elt Ideal)) (x1 : (⟨S64x64, .f32⟩ : BufTy).Contents (Elt Ideal))
    (x2 : (⟨S64, .f32⟩ : BufTy).Contents (Elt Ideal)) : proj (F := Ideal) x0 x1 x2 = lin x0 x1 x2 := by
  funext i
  unfold proj lin
  rw [ValueIdx.addf_apply]
  have hb : broadcastInDim S100000x64 ![0, 1] bcast_S1x64_S100000x64_0_1 (broadcastInDim S1x64 ![1] bcast_S64_S1x64_1 x2) i = x2 (bid i) := by
    rw [broadcastInDim_apply _ bcast_S1x64_S100000x64_0_1 _ i (fun a => match a with
      | ⟨0, _⟩ => ⟨0, Nat.one_pos⟩
      | ⟨1, _⟩ => ⟨(i 1).val, (i 1).isLt⟩) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])]
    exact broadcastInDim_apply _ bcast_S64_S1x64_1 x2 _ (bid i) (fun a => match a with
      | ⟨0, _⟩ => by show (i 1).val = if (64 : Nat) = 1 then 0 else (i 1).val; rw [if_neg (by decide)])
  rw [hb]
  refine congrArg (· + x2 (bid i)) ?_
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lid i k := funext fun a => Fin.ext (by
    match a with
    | ⟨0, _⟩ => exact lhs_0 _ _
    | ⟨1, _⟩ => exact (lhs_1 _ _).trans hk)
  have er : dot_S100000x64_S64x64_S100000x64_1_0_0_1_n_n.rhsIdx i ((ValueIdx.contrEquiv1 dot_S100000x64_S64x64_S100000x64_1_0_0_1_n_n 64 rfl rfl).symm k) = rid i k := funext fun a => Fin.ext (by
    match a with
    | ⟨0, _⟩ => exact (rhs_0 _ _).trans hk
    | ⟨1, _⟩ => exact rhs_1 _ _)
  rw [el, er]

end Cert.ReferenceIdeal.RefValue

end
-- ==== Proof.KRun.lean ====
/-
  The kernel program's run with its result named. The program is twelve tiled regions among stretches of host
  operations; the generated frame follows the buffers' contents through all of them as a fold `Gen.W0 … Gen.W27` and
  states only that the arguments end as launched. The same launch of the same segments, read once more at the result
  buffer, says that the result ends at the last boundary's contents of that buffer.
-/
import proofs.«144990_j83459804496278_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting, with the result buffer at the
    last boundary's contents and the arguments as launched. -/
theorem run_main : θ_run defs (onTc (τ := τ) (main (F := F))) ⟨m, fun _ => 0, ρ⟩ (fun r => ∀ c : Dev nD,
      r.2.mem ((c.tc : Thread nD τ).loc main_v134_0) = W27 m ρ c (Proc.devRef .tc main_v134_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v134_0 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c)⟩)

end Cert.KernelIdeal.KRun

end
-- ==== Proof.Lin0.lean ====
/-
  Region 0 of the kernel's program is the projection `h0 = x · W + b`, tiled over the nodes: at grid point `t` it reads
  rows 10000·t … 10000·t + 9999 of the features, the whole weight and the whole bias, multiplies the row block by the
  weight on the matrix unit into a zero accumulator (the operands narrowed to bfloat16 first, which changes nothing over the
  extended reals), adds the bias to every row, and writes the same rows of the result. The ten row blocks tile the 100000
  rows, so after the region the result array is `Cert.Appnp.lin` of the three arrays as the region found them: entry
  (r, q) is the sum over k of x(r, k) · W(k, q), plus b(q).
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Lin0

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- Entry `k` of `j`'s row in a block of the features; entry `k` of `j`'s column of the weight; `j`'s column in the bias. -/
abbrev jl (j : S10000x64.Idx) (k : Fin 64) : S10000x64.Idx := fun a => match a with
  | ⟨0, _⟩ => ⟨(j 0).val, (j 0).isLt⟩
  | ⟨1, _⟩ => ⟨k.val, k.isLt⟩
abbrev jr (j : S10000x64.Idx) (k : Fin 64) : S64x64.Idx := fun a => match a with
  | ⟨0, _⟩ => ⟨k.val, k.isLt⟩
  | ⟨1, _⟩ => ⟨(j 1).val, (j 1).isLt⟩
abbrev jb (j : S10000x64.Idx) : S64.Idx := fun a => match a with
  | ⟨0, _⟩ => ⟨(j 1).val, (j 1).isLt⟩

/-- Which entries of the two operands the matrix product pairs at result index `j` and contraction index `q`. -/
theorem lhs_0 (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (j : S10000x64.Idx) (q : dot_S10000x64_S64x64_S10000x64_1_0_0_1_n_n.contr.Idx) : (dot_S10000x64_S64x64_S10000x64_1_0_0_1_n_n.lhsIdx j q 1).val = (q ⟨0, by decide⟩).val :=
  dot_S10000x64_S64x64_S10000x64_1_0_0_1_n_n.lhsIdx_val_of_single rfl j q
theorem rhs_0 (j : S10000x64.Idx) (q : dot_S10000x64_S64x64_S10000x64_1_0_0_1_n_n.contr.Idx) : (dot_S10000x64_S64x64_S10000x64_1_0_0_1_n_n.rhsIdx j q 0).val = (q ⟨0, by decide⟩).val :=
  dot_S10000x64_S64x64_S10000x64_1_0_0_1_n_n.rhsIdx_val_of_single rfl j q
theorem rhs_1 (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The bias, given a leading unit axis and repeated down the block's rows, read at an index: the bias at the column. -/
theorem brow (v5 : Vec Ideal S64 .f32) (j : S10000x64.Idx) :
    broadcastTo S10000x64 (shapeCast S1x64 v5 shapeCasts_S64_S1x64) broadcasts_S1x64_S10000x64 j = v5 (jb j) := by
  rw [broadcastTo_apply _ broadcasts_S1x64_S10000x64 j (fun a => match a with
    | ⟨0, _⟩ => ⟨0, Nat.one_pos⟩
    | ⟨1, _⟩ => ⟨(j 1).val, (j 1).isLt⟩) (fun a => match a with
    | ⟨0, _⟩ => by show 0 = if (1 : Nat) = 1 then 0 else (j 0).val; rw [if_pos rfl]
    | ⟨1, _⟩ => by show (j 1).val = if (64 : Nat) = 1 then 0 else (j 1).val; rw [if_neg (by decide)])]
  exact shapeCast_apply v5 shapeCasts_S64_S1x64 _ (jb j) (by
    rw [Shape.rowMajor_val_two, Shape.rowMajor_val_one]
    show (j 1).val = 0 * 64 + (j 1).val
    omega)

/-- The payload at an index of the block: the row of the features block against the column of the weight, plus the bias. -/
theorem pay (v0 : Vec Ideal S10000x64 .f32) (v2 : Vec Ideal S64x64 .f32) (v5 : Vec Ideal S64 .f32) (j : S10000x64.Idx) :
    k0_pay1 v0 v2 v5 j = (∑ k : Fin 64, v0 (jl j k) * v2 (jr j k)) + v5 (jb j) := by
  unfold k0_pay1
  show FloatOps.matmul (F := Ideal) dot_S10000x64_S64x64_S10000x64_1_0_0_1_n_n none (truncf .bf16 v0 bitsLt_bf16_f32) (truncf .bf16 v2 bitsLt_bf16_f32) (constant S10000x64 .f32 0x00000000#32) j
      + broadcastTo S10000x64 (shapeCast S1x64 v5 shapeCasts_S64_S1x64) broadcasts_S1x64_S10000x64 j = _
  rw [brow, Ideal.matmul_constant_zero_apply, ← Equiv.sum_comp (ValueIdx.contrEquiv1 dot_S10000x64_S64x64_S10000x64_1_0_0_1_n_n 64 rfl rfl).symm]
  refine congrArg (· + v5 (jb j)) (Finset.sum_congr rfl fun k _ => ?_)
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = jl j k := funext fun a => Fin.ext (by
    match a with
    | ⟨0, _⟩ => exact lhs_0 _ _
    | ⟨1, _⟩ => exact (lhs_1 _ _).trans hk)
  have er : dot_S10000x64_S64x64_S10000x64_1_0_0_1_n_n.rhsIdx j ((ValueIdx.contrEquiv1 dot_S10000x64_S64x64_S10000x64_1_0_0_1_n_n 64 rfl rfl).symm k) = jr j k := funext fun a => Fin.ext (by
    match a with
    | ⟨0, _⟩ => exact (rhs_0 _ _).trans hk
    | ⟨1, _⟩ => exact rhs_1 _ _)
  rw [el, er]
  rfl

/-- The payload at a block index `j` that sits at the array index `i`, from the reads at the matching indices. -/
theorem point (x0 : Vec Ideal S10000x64 .f32) (x1 : Vec Ideal S64x64 .f32) (x2 : Vec Ideal S64 .f32)
    (X : SN64.Idx → EReal) (Wt : SW.Idx → EReal) (B : SB.Idx → EReal) (j : S10000x64.Idx) (i : SN64.Idx)
    (e0 : ∀ k, x0 (jl j k) = X (lid i k)) (e1 : ∀ k, x1 (jr j k) = Wt (rid i k)) (e2 : x2 (jb j) = B (bid i)) :
    k0_pay1 x0 x1 x2 j = lin X Wt B i := by
  rw [pay, e2]
  exact congrArg (· + B (bid i)) (Finset.sum_congr rfl fun k _ => by rw [e0 k, e1 k])

/-- The printed index maps over the grid: the features' and the result's block row is the point; the weight and the bias
    are one block each. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of `lin` of the three arrays as found. -/
theorem flushed_eq (c : Dev nD) (t : Fin cfg0.N) :
    (dat0 V c).flushed 3 t = ((cfg0.win 3).blk t).view.read (Elt Ideal) (lin (V c main_arg0) (V c main_arg1) (V c main_arg2)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz, View.ld_unit_zero (S := S64) hz1]
  obtain ⟨a0, a1, b0, b1, d0, f0, f1⟩ := idx_facts t
  funext j
  refine point _ _ _ _ _ _ j _ (fun k => ?_) (fun k => ?_) ?_
  · show V c main_arg0 (((cfg0.win 0).blk t).view.emb (jl j k)) = V c main_arg0 (lid (((cfg0.win 3).blk t).view.emb j) k)
    refine congrArg _ (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * k.val = k.val; omega
  · show V c main_arg1 (((cfg0.win 1).blk t).view.emb (jr j k)) = V c main_arg1 (rid (((cfg0.win 3).blk t).view.emb j) k)
    refine congrArg _ (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  · show V c main_arg2 (((cfg0.win 2).blk t).view.emb (jb j)) = V c main_arg2 (bid (((cfg0.win 3).blk t).view.emb j))
    refine congrArg _ (funext fun a => Fin.ext ?_)
    match a with
    | ⟨0, _⟩ => show win0_2.index t (0 : Fin 1) * 64 + 1 * (j 1).val = win0_3.index t (1 : Fin 2) * 64 + 1 * (j 1).val; omega

/-- An index of the result array is in point `t`'s block iff its row is among the block's 10000 rows. -/
theorem mem_blk (t : Fin cfg0.N) (i : SN64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v0).slice (win0_3.rect t)).set ↔ _
  rw [View.set_slice_whole, Rect.mem_set_unit]
  exact Iff.rfl

/-- Every row lies in the block of the point `row / 10000`. -/
theorem cover (i : SN64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_3 _, ?_⟩
  rw [mem_blk]
  obtain ⟨-, -, -, -, -, f0, f1⟩ := idx_facts ⟨(i 0).val / 10000, by rw [hN]; omega⟩
  intro a
  match a with
  | ⟨0, _⟩ => show win0_3.index _ (0 : Fin 2) * 10000 ≤ (i 0).val ∧ (i 0).val < win0_3.index _ (0 : Fin 2) * 10000 + 10000; rw [f0]; show (i 0).val / 10000 * 10000 ≤ _ ∧ _ < (i 0).val / 10000 * 10000 + 10000; omega
  | ⟨1, _⟩ => show win0_3.index _ (1 : Fin 2) * 64 ≤ (i 1).val ∧ (i 1).val < win0_3.index _ (1 : Fin 2) * 64 + 64; rw [f1]; omega

/-- After the region the result array is `lin` of the features, the weight and the bias as the region found them. -/
theorem final (c : Dev nD) : (dat0 V c).arrAt 3 cfg0.N = lin (V c main_arg0) (V c main_arg1) (V c main_arg2) :=
  (dat0 V c).arrAt_eq_of_cover 3 _ (fun t _ => flushed_eq V c t) cover

end Cert.KernelIdeal.Lin0

end
-- ==== Proof.Scale1.lean ====
/-
  Region 1 of the kernel's program scales the projected features row by row by the source factor, tiled over the nodes:
  at grid point `t` it reads rows 4000·t … 4000·t + 3999 of the features and of the one-column factor table and writes
  the same rows of their product, the factor repeated along the 64 lanes. The 25 row blocks tile the 100000 rows, so after
  the region the result array is `Cert.Appnp.scale` of the two arrays as the region found them.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Scale1

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- `j`'s row in a block of the one-column table. -/
abbrev jrow (j : S4000x64.Idx) : S4000x1.Idx := fun a => match a with
  | ⟨0, _⟩ => ⟨(j 0).val, (j 0).isLt⟩
  | ⟨1, _⟩ => ⟨0, Nat.one_pos⟩

/-- The payload at an index of the block: the feature times its row's factor. -/
theorem pay (v0 : Vec Ideal S4000x64 .f32) (v2 : Vec Ideal S4000x1 .f32) (j : S4000x64.Idx) :
    k1_pay1 v0 v2 j = v0 j * v2 (jrow j) := by
  unfold k1_pay1
  simp only [shapeCast_self]
  show v0 j * broadcastTo S4000x64 v2 broadcasts_S4000x1_S4000x64 j = _
  rw [broadcastTo_apply _ broadcasts_S4000x1_S4000x64 j (jrow j) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]

/-- The payload at a block index `j` that sits at the array index `i`, from the two reads at those indices. -/
theorem point (x0 : Vec Ideal S4000x64 .f32) (x1 : Vec Ideal S4000x1 .f32)
    (h : SN64.Idx → EReal) (nc : SN1.Idx → EReal) (j : S4000x64.Idx) (i : SN64.Idx)
    (e0 : x0 j = h i) (e1 : x1 (jrow j) = nc (row1 i)) :
    k1_pay1 x0 x1 j = scale h nc i := by
  rw [pay, e0, e1]; rfl

/-- The printed index maps over the grid: every window's block row is the point, its block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `scale` of the two arrays as found. -/
theorem flushed_eq (c : Dev nD) (t : Fin cfg1.N) :
    (dat1 V c).flushed 2 t = ((cfg1.win 2).blk t).view.read (Elt Ideal) (scale (V c main_v0) (V c main_v23)) := by
  show (cfg1.win 2).cut (grid1.coords t) ((dat1 V c).after 2 t) = _
  rw [after1_2]
  unfold out1_2
  rw [View.canon_unit_zero hz]
  simp only [View.ld_unit_zero (S := S4000x64) hz, View.ld_unit_zero (S := S4000x1) hz]
  obtain ⟨a0, a1, b0, b1, f0, f1⟩ := idx_facts t
  funext j
  refine point _ _ _ _ j _ ?_ ?_
  · show V c main_v0 (((cfg1.win 0).blk t).view.emb j) = V c main_v0 (((cfg1.win 2).blk t).view.emb j)
    refine congrArg _ (funext fun a => Fin.ext ?_)
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 64 + 1 * (j 1).val = win1_2.index t (1 : Fin 2) * 64 + 1 * (j 1).val; omega
  · show V c main_v23 (((cfg1.win 1).blk t).view.emb (jrow j)) = V c main_v23 (row1 (((cfg1.win 2).blk t).view.emb j))
    refine congrArg _ (funext fun a => Fin.ext ?_)
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 1 + 1 * 0 = 0; omega

/-- An index of the result array is in point `t`'s block iff its row is among the block's 4000 rows. -/
theorem mem_blk (t : Fin cfg1.N) (i : SN64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v24).slice (win1_2.rect t)).set ↔ _
  rw [View.set_slice_whole, Rect.mem_set_unit]
  exact Iff.rfl

/-- Every row lies in the block of the point `row / 4000`. -/
theorem cover (i : SN64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 25 := N_1
  refine ⟨⟨(i 0).val / 4000, by rw [hN]; omega⟩, flush1_2 _, ?_⟩
  rw [mem_blk]
  obtain ⟨-, -, -, -, f0, f1⟩ := idx_facts ⟨(i 0).val / 4000, by rw [hN]; omega⟩
  intro a
  match a with
  | ⟨0, _⟩ => show win1_2.index _ (0 : Fin 2) * 4000 ≤ (i 0).val ∧ (i 0).val < win1_2.index _ (0 : Fin 2) * 4000 + 4000; rw [f0]; show (i 0).val / 4000 * 4000 ≤ _ ∧ _ < (i 0).val / 4000 * 4000 + 4000; omega
  | ⟨1, _⟩ => show win1_2.index _ (1 : Fin 2) * 64 ≤ (i 1).val ∧ (i 1).val < win1_2.index _ (1 : Fin 2) * 64 + 64; rw [f1]; omega

/-- After the region the result array is `scale` of the features and the factor column as the region found them. -/
theorem final (c : Dev nD) : (dat1 V c).arrAt 2 cfg1.N = scale (V c main_v0) (V c main_v23) :=
  (dat1 V c).arrAt_eq_of_cover 2 _ (fun t _ => flushed_eq V c t) cover

end Cert.KernelIdeal.Scale1

end
-- ==== Proof.KDefs.lean ====
/-
  The host operations of the kernel's program between its tiled regions, each stretch as one function of the buffers it
  reads: the aggregation along the edges (a gather by source, a sum by destination), the two degree factors, and the
  two-column table that holds them side by side. Nothing here is opened: the reference applies the same operations, and
  the two sides are compared as whole functions.
-/
import proofs.«144990_j83459804496278_1_alg».proof.Proof.Gen.KernelIdeal

noncomputable section

namespace Cert.KernelIdeal.KVal

open Cert.KernelIdeal Cert.KernelIdeal.Gen Idealize.ShloMosaic

variable {F : FTy → Type} [FloatOps F]

/-- The aggregation along the edges: each edge's source row of `msg` is gathered (a negative source index first moved up
    by the number of nodes, as array indexing does) and the rows are summed at the edges' destinations, into zeros. -/
def agg (msg : (⟨S100000x64, .f32⟩ : BufTy).Contents (Elt F)) (x3 x4 : (⟨S1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 x4)
    (Host.gather gather_S100000x64_S1600000x1_S1600000x64_1_0_n_n_0_1_164 msg
      (broadcastInDim S1600000x1 ![0] bcast_S1600000_S1600000x1_0
        (select (cmpi .slt x3 (broadcastInDim S1600000 ![] bcast_S_S1600000 (constantI S_ 32 0#32)))
          (addi x3 (broadcastInDim S1600000 ![] bcast_S_S1600000 (constantI S_ 32 100000#32))) x3)))

/-- A node's degree: one for every edge whose endpoint `idx` it is, summed into zeros. -/
def deg (idx : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- A node's factor: the inverse square root of its degree (at least one), zero where the degree is zero. -/
def norm (idx : (⟨S1600000, .i32⟩ : BufTy).Contents (Elt F)) : (⟨S100000, .f32⟩ : BufTy).Contents (Elt F) :=
  select (cmpf .ogt (deg idx) (broadcastInDim S100000 ![] bcast_S_S100000 (constant S_ .f32 0x00000000#32)))
    (Host.rsqrt (maximumf (deg idx) (broadcastInDim S100000 ![] bcast_S_S100000 (constant S_ .f32 0x3F800000#32))))
    (broadcastInDim S100000 ![] bcast_S_S100000 (id (constant S_ .f32 0x00000000#32)))

/-- The factors as a one-column table. -/
def ncol (idx : (⟨S1600000, .i32⟩ : BufTy).Contents (Elt F)) : (⟨S100000x1, .f32⟩ : BufTy).Contents (Elt F) :=
  broadcastInDim S100000x1 ![0] bcast_S100000_S100000x1_0 (norm idx)

/-- The source and destination factors side by side: column 0 the source's, column 1 the destination's. -/
def norms (x3 x4 : (⟨S1600000, .i32⟩ : BufTy).Contents (Elt F)) : (⟨S100000x2, .f32⟩ : BufTy).Contents (Elt F) :=
  concatenate S100000x2 1 [⟨S100000x1, ncol x3⟩, ⟨S100000x1, ncol x4⟩] concatenates_S100000x1_S100000x1_S100000x2_d1

end Cert.KernelIdeal.KVal

end
-- ==== Proof.KStep01.lean ====
/-
  The kernel program's buffers from the launch to the end of its second region. Region 0 leaves the projection
  `h0 = x · W + b`; the host operations after it compute the two degree factors from the edge lists, set them side by
  side in a two-column table and keep the source factor as a one-column table; region 1 leaves the first message
  `h0 · ns`. The edge lists, the projection and the factor table are untouched by everything that follows them here.
-/
import proofs.«144990_j83459804496278_1_alg».proof.Proof.Gen.KernelIdeal.Frame
import proofs.«144990_j83459804496278_1_alg».proof.Proof.Lin0
import proofs.«144990_j83459804496278_1_alg».proof.Proof.Scale1
import proofs.«144990_j83459804496278_1_alg».proof.Proof.KDefs
import Idealize.ShloMosaic.Lib.StableHlo.Run

set_option maxRecDepth 16384

noncomputable section

namespace Cert.KernelIdeal.KStep01

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The first stretch after region 0: the two degrees from the edge lists, and for the sources the comparison with zero and the inverse square root of the degree raised to at least one. -/
theorem hostA (W : Valuation τ sig (Elt Ideal)) :
    StableHlo.after (hostOps1 (F := Ideal)) W (Proc.devRef .tc main_arg3) = W (Proc.devRef .tc main_arg3)
    ∧ StableHlo.after (hostOps1 (F := Ideal)) W (Proc.devRef .tc main_arg4) = W (Proc.devRef .tc main_arg4)
    ∧ StableHlo.after (hostOps1 (F := Ideal)) W (Proc.devRef .tc main_v0) = W (Proc.devRef .tc main_v0)
    ∧ StableHlo.after (hostOps1 (F := Ideal)) W (Proc.devRef .tc main_v9) = cmpf (F := Ideal) .ogt (deg (W (Proc.devRef .tc main_arg3))) (broadcastInDim S100000 ![] bcast_S_S100000 (constant (F := Ideal) S_ .f32 0x00000000#32))
    ∧ StableHlo.after (hostOps1 (F := Ideal)) W (Proc.devRef .tc main_v12) = Host.rsqrt (maximumf (deg (W (Proc.devRef .tc main_arg3))) (broadcastInDim S100000 ![] bcast_S_S100000 (constant (F := Ideal) S_ .f32 0x3F800000#32)))
    ∧ StableHlo.after (hostOps1 (F := Ideal)) W (Proc.devRef .tc main_cst_4) = constant (F := Ideal) S_ .f32 0x00000000#32
    ∧ StableHlo.after (hostOps1 (F := Ideal)) W (Proc.devRef .tc main_v7) = deg (F := Ideal) (W (Proc.devRef .tc main_arg4)) := by
  refine ⟨?_, ?_, ?_, ?_, ?_, ?_, ?_⟩ <;> (dsimp only [hostOps1]; after_results_simp) <;> rfl

set_option maxHeartbeats 1000000 in
/-- The second stretch: the source factor, zero where the degree is zero. -/
theorem hostB (W : Valuation τ sig (Elt Ideal)) :
    StableHlo.after (hostOps1_1 (F := Ideal)) W (Proc.devRef .tc main_arg3) = W (Proc.devRef .tc main_arg3)
    ∧ StableHlo.after (hostOps1_1 (F := Ideal)) W (Proc.devRef .tc main_arg4) = W (Proc.devRef .tc main_arg4)
    ∧ StableHlo.after (hostOps1_1 (F := Ideal)) W (Proc.devRef .tc main_v0) = W (Proc.devRef .tc main_v0)
    ∧ StableHlo.after (hostOps1_1 (F := Ideal)) W (Proc.devRef .tc main_v7) = W (Proc.devRef .tc main_v7)
    ∧ StableHlo.after (hostOps1_1 (F := Ideal)) W (Proc.devRef .tc main_v13) = select (W (Proc.devRef .tc main_v9)) (W (Proc.devRef .tc main_v12)) (broadcastInDim S100000 ![] bcast_S_S100000 (id (W (Proc.devRef .tc main_cst_4)))) := by
  refine ⟨?_, ?_, ?_, ?_, ?_⟩ <;> (dsimp only [hostOps1_1]; after_results_simp) <;> rfl

set_option maxHeartbeats 1000000 in
/-- The third stretch: the same comparison and inverse square root for the destinations. -/
theorem hostC (W : Valuation τ sig (Elt Ideal)) :
    StableHlo.after (hostOps1_2 (F := Ideal)) W (Proc.devRef .tc main_arg3) = W (Proc.devRef .tc main_arg3)
    ∧ StableHlo.after (hostOps1_2 (F := Ideal)) W (Proc.devRef .tc main_arg4) = W (Proc.devRef .tc main_arg4)
    ∧ StableHlo.after (hostOps1_2 (F := Ideal)) W (Proc.devRef .tc main_v0) = W (Proc.devRef .tc main_v0)
    ∧ StableHlo.after (hostOps1_2 (F := Ideal)) W (Proc.devRef .tc main_v13) = W (Proc.devRef .tc main_v13)
    ∧ StableHlo.after (hostOps1_2 (F := Ideal)) W (Proc.devRef .tc main_v15) = cmpf (F := Ideal) .ogt (W (Proc.devRef .tc main_v7)) (broadcastInDim S100000 ![] bcast_S_S100000 (constant (F := Ideal) S_ .f32 0x00000000#32))
    ∧ StableHlo.after (hostOps1_2 (F := Ideal)) W (Proc.devRef .tc main_v18) = Host.rsqrt (maximumf (W (Proc.devRef .tc main_v7)) (broadcastInDim S100000 ![] bcast_S_S100000 (constant (F := Ideal) S_ .f32 0x3F800000#32)))
    ∧ StableHlo.after (hostOps1_2 (F := Ideal)) W (Proc.devRef .tc main_cst_7) = constant (F := Ideal) S_ .f32 0x00000000#32 := by
  refine ⟨?_, ?_, ?_, ?_, ?_, ?_, ?_⟩ <;> (dsimp only [hostOps1_2]; after_results_simp) <;> rfl

set_option maxHeartbeats 1000000 in
/-- The fourth stretch: the destination factor. -/
theorem hostD (W : Valuation τ sig (Elt Ideal)) :
    StableHlo.after (hostOps1_3 (F := Ideal)) W (Proc.devRef .tc main_arg3) = W (Proc.devRef .tc main_arg3)
    ∧ StableHlo.after (hostOps1_3 (F := Ideal)) W (Proc.devRef .tc main_arg4) = W (Proc.devRef .tc main_arg4)
    ∧ StableHlo.after (hostOps1_3 (F := Ideal)) W (Proc.devRef .tc main_v0) = W (Proc.devRef .tc main_v0)
    ∧ StableHlo.after (hostOps1_3 (F := Ideal)) W (Proc.devRef .tc main_v13) = W (Proc.devRef .tc main_v13)
    ∧ StableHlo.after (hostOps1_3 (F := Ideal)) W (Proc.devRef .tc main_v19) = select (W (Proc.devRef .tc main_v15)) (W (Proc.devRef .tc main_v18)) (broadcastInDim S100000 ![] bcast_S_S100000 (id (W (Proc.devRef .tc main_cst_7)))) := by
  refine ⟨?_, ?_, ?_, ?_, ?_⟩ <;> (dsimp only [hostOps1_3]; after_results_simp) <;> rfl

set_option maxHeartbeats 1000000 in
/-- The fifth stretch: the two factors as columns side by side, and the source factor's column by itself. -/
theorem hostE (W : Valuation τ sig (Elt Ideal)) :
    StableHlo.after (hostOps1_4 (F := Ideal)) W (Proc.devRef .tc main_arg3) = W (Proc.devRef .tc main_arg3)
    ∧ StableHlo.after (hostOps1_4 (F := Ideal)) W (Proc.devRef .tc main_arg4) = W (Proc.devRef .tc main_arg4)
    ∧ StableHlo.after (hostOps1_4 (F := Ideal)) W (Proc.devRef .tc main_v0) = W (Proc.devRef .tc main_v0)
    ∧ StableHlo.after (hostOps1_4 (F := Ideal)) W (Proc.devRef .tc main_v22) = concatenate S100000x2 1 [⟨S100000x1, broadcastInDim S100000x1 ![0] bcast_S100000_S100000x1_0 (W (Proc.devRef .tc main_v13))⟩, ⟨S100000x1, broadcastInDim S100000x1 ![0] bcast_S100000_S100000x1_0 (W (Proc.devRef .tc main_v19))⟩] concatenates_S100000x1_S100000x1_S100000x2_d1
    ∧ StableHlo.after (hostOps1_4 (F := Ideal)) W (Proc.devRef .tc main_v23) = broadcastInDim S100000x1 ![0] bcast_S100000_S100000x1_0 (W (Proc.devRef .tc main_v13)) := by
  refine ⟨?_, ?_, ?_, ?_, ?_⟩ <;> (dsimp only [hostOps1_4]; after_results_simp) <;> rfl

/-- The buffers at the end of region 1. -/
theorem step (c : Dev nD) :
    W7 m ρ c (Proc.devRef .tc main_arg3) = m ((c : Thread nD τ).loc main_arg3)
    ∧ W7 m ρ c (Proc.devRef .tc main_arg4) = m ((c : Thread nD τ).loc main_arg4)
    ∧ W7 m ρ c (Proc.devRef .tc main_v22) = norms (m ((c : Thread nD τ).loc main_arg3)) (m ((c : Thread nD τ).loc main_arg4))
    ∧ W7 m ρ c (Proc.devRef .tc main_v0) = lin (m ((c : Thread nD τ).loc main_arg0)) (m ((c : Thread nD τ).loc main_arg1)) (m ((c : Thread nD τ).loc main_arg2))
    ∧ W7 m ρ c (Proc.devRef .tc main_v24) = scale (lin (m ((c : Thread nD τ).loc main_arg0)) (m ((c : Thread nD τ).loc main_arg1)) (m ((c : Thread nD τ).loc main_arg2))) (ncol (m ((c : Thread nD τ).loc main_arg3))) := by
  have a3 : W1 m ρ c (Proc.devRef .tc main_arg3) = m ((c : Thread nD τ).loc main_arg3) := W1_of_ne m ρ c main_arg3 (by decide)
  have a4 : W1 m ρ c (Proc.devRef .tc main_arg4) = m ((c : Thread nD τ).loc main_arg4) := W1_of_ne m ρ c main_arg4 (by decide)
  have ah : W1 m ρ c (Proc.devRef .tc main_v0) = lin (m ((c : Thread nD τ).loc main_arg0)) (m ((c : Thread nD τ).loc main_arg1)) (m ((c : Thread nD τ).loc main_arg2)) :=
    (W1_arr m ρ c 3).trans (Lin0.final (V0 m ρ) c)
  have A := hostA (W1 m ρ c)
  have Ak_arg3 : W2 m ρ c (Proc.devRef .tc main_arg3) = W1 m ρ c (Proc.devRef .tc main_arg3) := A.1
  have Ak_arg4 : W2 m ρ c (Proc.devRef .tc main_arg4) = W1 m ρ c (Proc.devRef .tc main_arg4) := A.2.1
  have Ak_v0 : W2 m ρ c (Proc.devRef .tc main_v0) = W1 m ρ c (Proc.devRef .tc main_v0) := A.2.2.1
  have A_v9 : W2 m ρ c (Proc.devRef .tc main_v9) = cmpf (F := Ideal) .ogt (deg (W1 m ρ c (Proc.devRef .tc main_arg3))) (broadcastInDim S100000 ![] bcast_S_S100000 (constant (F := Ideal) S_ .f32 0x00000000#32)) := A.2.2.2.1
  have A_v12 : W2 m ρ c (Proc.devRef .tc main_v12) = Host.rsqrt (maximumf (deg (W1 m ρ c (Proc.devRef .tc main_arg3))) (broadcastInDim S100000 ![] bcast_S_S100000 (constant (F := Ideal) S_ .f32 0x3F800000#32))) := A.2.2.2.2.1
  have A_cst_4 : W2 m ρ c (Proc.devRef .tc main_cst_4) = constant (F := Ideal) S_ .f32 0x00000000#32 := A.2.2.2.2.2.1
  have A_v7 : W2 m ρ c (Proc.devRef .tc main_v7) = deg (F := Ideal) (W1 m ρ c (Proc.devRef .tc main_arg4)) := A.2.2.2.2.2.2
  have B := hostB (W2 m ρ c)
  have Bk_arg3 : W3 m ρ c (Proc.devRef .tc main_arg3) = W2 m ρ c (Proc.devRef .tc main_arg3) := B.1
  have Bk_arg4 : W3 m ρ c (Proc.devRef .tc main_arg4) = W2 m ρ c (Proc.devRef .tc main_arg4) := B.2.1
  have Bk_v0 : W3 m ρ c (Proc.devRef .tc main_v0) = W2 m ρ c (Proc.devRef .tc main_v0) := B.2.2.1
  have Bk_v7 : W3 m ρ c (Proc.devRef .tc main_v7) = W2 m ρ c (Proc.devRef .tc main_v7) := B.2.2.2.1
  have B_v13 : W3 m ρ c (Proc.devRef .tc main_v13) = select (W2 m ρ c (Proc.devRef .tc main_v9)) (W2 m ρ c (Proc.devRef .tc main_v12)) (broadcastInDim S100000 ![] bcast_S_S100000 (id (W2 m ρ c (Proc.devRef .tc main_cst_4)))) := B.2.2.2.2
  have C := hostC (W3 m ρ c)
  have Ck_arg3 : W4 m ρ c (Proc.devRef .tc main_arg3) = W3 m ρ c (Proc.devRef .tc main_arg3) := C.1
  have Ck_arg4 : W4 m ρ c (Proc.devRef .tc main_arg4) = W3 m ρ c (Proc.devRef .tc main_arg4) := C.2.1
  have Ck_v0 : W4 m ρ c (Proc.devRef .tc main_v0) = W3 m ρ c (Proc.devRef .tc main_v0) := C.2.2.1
  have Ck_v13 : W4 m ρ c (Proc.devRef .tc main_v13) = W3 m ρ c (Proc.devRef .tc main_v13) := C.2.2.2.1
  have C_v15 : W4 m ρ c (Proc.devRef .tc main_v15) = cmpf (F := Ideal) .ogt (W3 m ρ c (Proc.devRef .tc main_v7)) (broadcastInDim S100000 ![] bcast_S_S100000 (constant (F := Ideal) S_ .f32 0x00000000#32)) := C.2.2.2.2.1
  have C_v18 : W4 m ρ c (Proc.devRef .tc main_v18) = Host.rsqrt (maximumf (W3 m ρ c (Proc.devRef .tc main_v7)) (broadcastInDim S100000 ![] bcast_S_S100000 (constant (F := Ideal) S_ .f32 0x3F800000#32))) := C.2.2.2.2.2.1
  have C_cst_7 : W4 m ρ c (Proc.devRef .tc main_cst_7) = constant (F := Ideal) S_ .f32 0x00000000#32 := C.2.2.2.2.2.2
  have D := hostD (W4 m ρ c)
  have Dk_arg3 : W5 m ρ c (Proc.devRef .tc main_arg3) = W4 m ρ c (Proc.devRef .tc main_arg3) := D.1
  have Dk_arg4 : W5 m ρ c (Proc.devRef .tc main_arg4) = W4 m ρ c (Proc.devRef .tc main_arg4) := D.2.1
  have Dk_v0 : W5 m ρ c (Proc.devRef .tc main_v0) = W4 m ρ c (Proc.devRef .tc main_v0) := D.2.2.1
  have Dk_v13 : W5 m ρ c (Proc.devRef .tc main_v13) = W4 m ρ c (Proc.devRef .tc main_v13) := D.2.2.2.1
  have D_v19 : W5 m ρ c (Proc.devRef .tc main_v19) = select (W4 m ρ c (Proc.devRef .tc main_v15)) (W4 m ρ c (Proc.devRef .tc main_v18)) (broadcastInDim S100000 ![] bcast_S_S100000 (id (W4 m ρ c (Proc.devRef .tc main_cst_7)))) := D.2.2.2.2
  have E := hostE (W5 m ρ c)
  have Ek_arg3 : W6 m ρ c (Proc.devRef .tc main_arg3) = W5 m ρ c (Proc.devRef .tc main_arg3) := E.1
  have Ek_arg4 : W6 m ρ c (Proc.devRef .tc main_arg4) = W5 m ρ c (Proc.devRef .tc main_arg4) := E.2.1
  have Ek_v0 : W6 m ρ c (Proc.devRef .tc main_v0) = W5 m ρ c (Proc.devRef .tc main_v0) := E.2.2.1
  have E_v22 : W6 m ρ c (Proc.devRef .tc main_v22) = concatenate S100000x2 1 [⟨S100000x1, broadcastInDim S100000x1 ![0] bcast_S100000_S100000x1_0 (W5 m ρ c (Proc.devRef .tc main_v13))⟩, ⟨S100000x1, broadcastInDim S100000x1 ![0] bcast_S100000_S100000x1_0 (W5 m ρ c (Proc.devRef .tc main_v19))⟩] concatenates_S100000x1_S100000x1_S100000x2_d1 := E.2.2.2.1
  have E_v23 : W6 m ρ c (Proc.devRef .tc main_v23) = broadcastInDim S100000x1 ![0] bcast_S100000_S100000x1_0 (W5 m ρ c (Proc.devRef .tc main_v13)) := E.2.2.2.2
  have e3 : W6 m ρ c (Proc.devRef .tc main_arg3) = m ((c : Thread nD τ).loc main_arg3) := Ek_arg3.trans (Dk_arg3.trans (Ck_arg3.trans (Bk_arg3.trans (Ak_arg3.trans a3))))
  have e4 : W6 m ρ c (Proc.devRef .tc main_arg4) = m ((c : Thread nD τ).loc main_arg4) := Ek_arg4.trans (Dk_arg4.trans (Ck_arg4.trans (Bk_arg4.trans (Ak_arg4.trans a4))))
  have eh : W6 m ρ c (Proc.devRef .tc main_v0) = lin (m ((c : Thread nD τ).loc main_arg0)) (m ((c : Thread nD τ).loc main_arg1)) (m ((c : Thread nD τ).loc main_arg2)) := Ek_v0.trans (Dk_v0.trans (Ck_v0.trans (Bk_v0.trans (Ak_v0.trans ah))))
  have n3 : W3 m ρ c (Proc.devRef .tc main_v13) = norm (m ((c : Thread nD τ).loc main_arg3)) := by
    rw [B_v13, A_v9, A_v12, A_cst_4, a3]; rfl
  have n4 : W5 m ρ c (Proc.devRef .tc main_v19) = norm (m ((c : Thread nD τ).loc main_arg4)) := by
    rw [D_v19, C_v15, C_v18, C_cst_7, Bk_v7, A_v7, a4]; rfl
  have n3' : W5 m ρ c (Proc.devRef .tc main_v13) = norm (m ((c : Thread nD τ).loc main_arg3)) := Dk_v13.trans (Ck_v13.trans n3)
  have en : W6 m ρ c (Proc.devRef .tc main_v22) = norms (m ((c : Thread nD τ).loc main_arg3)) (m ((c : Thread nD τ).loc main_arg4)) := by
    rw [E_v22, n3', n4]; rfl
  have ec : W6 m ρ c (Proc.devRef .tc main_v23) = ncol (m ((c : Thread nD τ).loc main_arg3)) := by
    rw [E_v23, n3']; rfl
  refine ⟨(W7_of_ne m ρ c main_arg3 (by decide)).trans e3, (W7_of_ne m ρ c main_arg4 (by decide)).trans e4,
    (W7_of_ne m ρ c main_v22 (by decide)).trans en,
    ((W7_arr m ρ c 0).trans (((dat1 (V6 m ρ) c).arrAt_in 0 rfl _).trans (A_eq1 (V6 m ρ) c 0))).trans eh, ?_⟩
  refine (W7_arr m ρ c 2).trans ((Scale1.final (V6 m ρ) c).trans ?_)
  show scale (W6 m ρ c (Proc.devRef .tc main_v0)) (W6 m ρ c (Proc.devRef .tc main_v23)) = _
  rw [eh, ec]

end Cert.KernelIdeal.KStep01

end
-- ==== Proof.Comb2.lean ====
/-
  Region 2 of the kernel's program is one propagation step's dense half, tiled over the nodes: at grid point `t` it
  reads rows 4000·t … 4000·t + 3999 of the aggregated messages, of the two-column factor table and of the projected
  features, and writes the same rows of the new features `(0.9 · agg) · nd + 0.1 · h0` and of the next message (the new
  features times the source factor). The 25 row blocks tile the 100000 rows, so after the region each output array is one
  function of the three input arrays as the region found them: `Cert.Appnp.combH` and `Cert.Appnp.combM`.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Comb2

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Column `k` of `j`'s row in a block of the factor table. -/
abbrev jcol (j : S4000x64.Idx) (k : Fin 2) : S4000x2.Idx := fun a => match a with
  | ⟨0, _⟩ => ⟨(j 0).val, (j 0).isLt⟩
  | ⟨1, _⟩ => ⟨k.val, k.isLt⟩

/-- The keepdims column of a block's factor table, broadcast along the 64 lanes, read at an index: the column's entry of
    the index's row. -/
theorem bcol (k : Fin 2) (off : Fin 2 → Nat) (hoff : off = ![0, k.val]) (h : S4000x2.Slices off S4000x1) (x1 : Vec Ideal S4000x2 .f32) (j : S4000x64.Idx) :
    broadcastTo S4000x64 (extractStridedSlice S4000x1 off x1 h) broadcasts_S4000x1_S4000x64 j = x1 (jcol j k) := by
  subst hoff
  rw [broadcastTo_apply _ broadcasts_S4000x1_S4000x64 j (fun a => match a with
    | ⟨0, _⟩ => ⟨(j 0).val, (j 0).isLt⟩
    | ⟨1, _⟩ => ⟨0, Nat.one_pos⟩) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]
  exact extractStridedSlice_apply _ x1 h _ (jcol j k) (fun a => match a with
    | ⟨0, _⟩ => by show (j 0).val = 0 + (j 0).val; omega
    | ⟨1, _⟩ => by show k.val = k.val + 0; omega)

/-- The new-features payload at an index of the block. -/
theorem payH (x0 : Vec Ideal S4000x64 .f32) (x1 : Vec Ideal S4000x2 .f32) (x2 : Vec Ideal S4000x64 .f32) (j : S4000x64.Idx) :
    k2_pay2 x0 x1 x2 j = c9 * x0 j * x1 (jcol j 1) + c1 * x2 j := by
  unfold k2_pay2 k2_pay1
  simp only [shapeCast_self]
  show Ideal.ofBits .f32 0x3F666666#32 * x0 j * broadcastTo S4000x64 (extractStridedSlice S4000x1 ![0, 1] x1 slices_S4000x2_o0_1_S4000x1) broadcasts_S4000x1_S4000x64 j + Ideal.ofBits .f32 0x3DCCCCCD#32 * x2 j = _
  rw [bcol 1 ![0, 1] rfl]

/-- The next-message payload at an index of the block. -/
theorem payM (x0 : Vec Ideal S4000x64 .f32) (x1 : Vec Ideal S4000x2 .f32) (x2 : Vec Ideal S4000x64 .f32) (j : S4000x64.Idx) :
    k2_pay3 x0 x1 x2 j = (c9 * x0 j * x1 (jcol j 1) + c1 * x2 j) * x1 (jcol j 0) := by
  unfold k2_pay3
  show k2_pay2 x0 x1 x2 j * broadcastTo S4000x64 (extractStridedSlice S4000x1 ![0, 0] (k2_pay1 x1) slices_S4000x2_o0_0_S4000x1) broadcasts_S4000x1_S4000x64 j = _
  unfold k2_pay1
  simp only [shapeCast_self]
  rw [payH, bcol 0 ![0, 0] rfl]

/-- Both payloads at a block index `j` that sits at the array index `i`, from the three reads at those indices. -/
theorem pointH (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e2 : x2 j = h0 i) :
    k2_pay2 x0 x1 x2 j = combH agg nrm h0 i := by
  rw [payH, e0, e1, e2]; rfl
theorem pointM (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e1' : x1 (jcol j 0) = nrm (rowcol i 0)) (e2 : x2 j = h0 i) :
    k2_pay3 x0 x1 x2 j = combM agg nrm h0 i := by
  rw [payM, e0, e1, e1', e2]; rfl

/-- The printed index maps over the grid: every window's block row is the point, its block column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The three input blocks at point `t`, read at a block index, are the arrays at the output block's array index. -/
theorem reads (w : Fin 2) (hw : w = 0 ∨ w = 1) (c : Dev nD) (t : Fin cfg2.N) (j : S4000x64.Idx) (i : SN64.Idx)
    (hi0 : (i 0).val = t.val * 4000 + (j 0).val) (hi1 : (i 1).val = (j 1).val) :
    iblk2 V c 0 t j = V c main_v34 i ∧ iblk2 V c 1 t (jcol j w) = V c main_v22 (rowcol i w) ∧ iblk2 V c 2 t j = V c main_v0 i := by
  obtain ⟨a0, a1, b0, b1, d0, d1, -⟩ := idx_facts t
  refine ⟨?_, ?_, ?_⟩
  · show V c main_v34 (((cfg2.win 0).blk t).view.emb j) = V c main_v34 i
    refine congrArg _ (funext fun a => Fin.ext ?_)
    match a with
    | ⟨0, _⟩ => show win2_0.index t (0 : Fin 2) * 4000 + 1 * (j 0).val = (i 0).val; omega
    | ⟨1, _⟩ => show win2_0.index t (1 : Fin 2) * 64 + 1 * (j 1).val = (i 1).val; omega
  · show V c main_v22 (((cfg2.win 1).blk t).view.emb (jcol j w)) = V c main_v22 (rowcol i w)
    refine congrArg _ (funext fun a => Fin.ext ?_)
    match a with
    | ⟨0, _⟩ => show win2_1.index t (0 : Fin 2) * 4000 + 1 * (j 0).val = (i 0).val; omega
    | ⟨1, _⟩ => show win2_1.index t (1 : Fin 2) * 2 + 1 * w.val = w.val; omega
  · show V c main_v0 (((cfg2.win 2).blk t).view.emb j) = V c main_v0 i
    refine congrArg _ (funext fun a => Fin.ext ?_)
    match a with
    | ⟨0, _⟩ => show win2_2.index t (0 : Fin 2) * 4000 + 1 * (j 0).val = (i 0).val; omega
    | ⟨1, _⟩ => show win2_2.index t (1 : Fin 2) * 64 + 1 * (j 1).val = (i 1).val; omega

/-- What point `t` writes back through the new-features window is block `t` of `combH` of the arrays as found. -/
theorem flushed3_eq (c : Dev nD) (t : Fin cfg2.N) :
    (dat2 V c).flushed 3 t = ((cfg2.win 3).blk t).view.read (Elt Ideal) (combH (V c main_v34) (V c main_v22) (V c main_v0)) := by
  show (cfg2.win 3).cut (grid2.coords t) ((dat2 V c).after 3 t) = _
  rw [after2_3]
  unfold out2_3
  rw [View.canon_unit_zero hz]
  simp only [View.ld_unit_zero (S := S4000x64) hz, View.ld_unit_zero (S := S4000x2) hz]
  obtain ⟨-, -, -, -, -, -, f0, f1, -⟩ := idx_facts t
  funext j
  have hi0 : ((((cfg2.win 3).blk t).view.emb j) 0).val = t.val * 4000 + (j 0).val := by
    show win2_3.index t (0 : Fin 2) * 4000 + 1 * (j 0).val = _; omega
  have hi1 : ((((cfg2.win 3).blk t).view.emb j) 1).val = (j 1).val := by
    show win2_3.index t (1 : Fin 2) * 64 + 1 * (j 1).val = _; omega
  obtain ⟨r0, r1, r2⟩ := reads V 1 (Or.inr rfl) c t j _ hi0 hi1
  exact pointH _ _ _ _ _ _ j _ r0 r1 r2

/-- The same through the next-message window: block `t` of `combM`. -/
theorem flushed4_eq (c : Dev nD) (t : Fin cfg2.N) :
    (dat2 V c).flushed 4 t = ((cfg2.win 4).blk t).view.read (Elt Ideal) (combM (V c main_v34) (V c main_v22) (V c main_v0)) := by
  show (cfg2.win 4).cut (grid2.coords t) ((dat2 V c).after 4 t) = _
  rw [after2_4]
  unfold out2_4
  rw [View.canon_unit_zero hz]
  simp only [View.ld_unit_zero (S := S4000x64) hz, View.ld_unit_zero (S := S4000x2) hz]
  obtain ⟨-, -, -, -, -, -, -, -, f0, f1⟩ := idx_facts t
  funext j
  have hi0 : ((((cfg2.win 4).blk t).view.emb j) 0).val = t.val * 4000 + (j 0).val := by
    show win2_4.index t (0 : Fin 2) * 4000 + 1 * (j 0).val = _; omega
  have hi1 : ((((cfg2.win 4).blk t).view.emb j) 1).val = (j 1).val := by
    show win2_4.index t (1 : Fin 2) * 64 + 1 * (j 1).val = _; omega
  obtain ⟨r0, r1, r2⟩ := reads V 1 (Or.inr rfl) c t j _ hi0 hi1
  obtain ⟨-, r1', -⟩ := reads V 0 (Or.inl rfl) c t j _ hi0 hi1
  exact pointM _ _ _ _ _ _ j _ r0 r1 r1' r2

/-- An index of an output array is in point `t`'s block iff its row is among the block's 4000 rows. -/
theorem mem_blk3 (t : Fin cfg2.N) (i : SN64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v35_0).slice (win2_3.rect t)).set ↔ _
  rw [View.set_slice_whole, Rect.mem_set_unit]
  exact Iff.rfl
theorem mem_blk4 (t : Fin cfg2.N) (i : SN64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v35_1).slice (win2_4.rect t)).set ↔ _
  rw [View.set_slice_whole, Rect.mem_set_unit]
  exact Iff.rfl

/-- Every row lies in the block of the point `row / 4000`. -/
theorem cover3 (i : SN64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 25 := N_2
  refine ⟨⟨(i 0).val / 4000, by rw [hN]; omega⟩, flush2_3 _, ?_⟩
  rw [mem_blk3]
  obtain ⟨-, -, -, -, -, -, f0, f1, -⟩ := idx_facts ⟨(i 0).val / 4000, by rw [hN]; omega⟩
  intro a
  match a with
  | ⟨0, _⟩ => show win2_3.index _ (0 : Fin 2) * 4000 ≤ (i 0).val ∧ (i 0).val < win2_3.index _ (0 : Fin 2) * 4000 + 4000; rw [f0]; show (i 0).val / 4000 * 4000 ≤ _ ∧ _ < (i 0).val / 4000 * 4000 + 4000; omega
  | ⟨1, _⟩ => show win2_3.index _ (1 : Fin 2) * 64 ≤ (i 1).val ∧ (i 1).val < win2_3.index _ (1 : Fin 2) * 64 + 64; rw [f1]; omega
theorem cover4 (i : SN64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 25 := N_2
  refine ⟨⟨(i 0).val / 4000, by rw [hN]; omega⟩, flush2_4 _, ?_⟩
  rw [mem_blk4]
  obtain ⟨-, -, -, -, -, -, -, -, f0, f1⟩ := idx_facts ⟨(i 0).val / 4000, by rw [hN]; omega⟩
  intro a
  match a with
  | ⟨0, _⟩ => show win2_4.index _ (0 : Fin 2) * 4000 ≤ (i 0).val ∧ (i 0).val < win2_4.index _ (0 : Fin 2) * 4000 + 4000; rw [f0]; show (i 0).val / 4000 * 4000 ≤ _ ∧ _ < (i 0).val / 4000 * 4000 + 4000; omega
  | ⟨1, _⟩ => show win2_4.index _ (1 : Fin 2) * 64 ≤ (i 1).val ∧ (i 1).val < win2_4.index _ (1 : Fin 2) * 64 + 64; rw [f1]; omega

/-- After the region the new-features array is `combH` of the three input arrays as the region found them. -/
theorem final3 (c : Dev nD) : (dat2 V c).arrAt 3 cfg2.N = combH (V c main_v34) (V c main_v22) (V c main_v0) :=
  (dat2 V c).arrAt_eq_of_cover 3 _ (fun t _ => flushed3_eq V c t) cover3
/-- And the next-message array is `combM` of them. -/
theorem final4 (c : Dev nD) : (dat2 V c).arrAt 4 cfg2.N = combM (V c main_v34) (V c main_v22) (V c main_v0) :=
  (dat2 V c).arrAt_eq_of_cover 4 _ (fun t _ => flushed4_eq V c t) cover4

end Cert.KernelIdeal.Comb2

end
-- ==== Proof.KStep2.lean ====
/-
  The kernel program's buffers across one propagation step: the host operations before region 2 aggregate the current
  message along the edges; region 2 combines the aggregate with the factor table and the projection into the new
  features and the next message. The edge lists, the factor table and the projection pass through unchanged.
-/
import proofs.«144990_j83459804496278_1_alg».proof.Proof.Gen.KernelIdeal.Frame
import proofs.«144990_j83459804496278_1_alg».proof.Proof.Comb2
import proofs.«144990_j83459804496278_1_alg».proof.Proof.KDefs
import Idealize.ShloMosaic.Lib.StableHlo.Run

set_option maxRecDepth 16384

noncomputable section

namespace Cert.KernelIdeal.KStep2

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The host operations before region 2, from any contents: the aggregate of the message along the edges; the edge
    lists, the factor table and the projection kept. -/
theorem host (Wp : Valuation τ sig (Elt Ideal)) :
    StableHlo.after (hostOps2 (F := Ideal)) Wp (Proc.devRef .tc main_arg3) = Wp (Proc.devRef .tc main_arg3)
    ∧ StableHlo.after (hostOps2 (F := Ideal)) Wp (Proc.devRef .tc main_arg4) = Wp (Proc.devRef .tc main_arg4)
    ∧ StableHlo.after (hostOps2 (F := Ideal)) Wp (Proc.devRef .tc main_v22) = Wp (Proc.devRef .tc main_v22)
    ∧ StableHlo.after (hostOps2 (F := Ideal)) Wp (Proc.devRef .tc main_v0) = Wp (Proc.devRef .tc main_v0)
    ∧ StableHlo.after (hostOps2 (F := Ideal)) Wp (Proc.devRef .tc main_v34) = agg (Wp (Proc.devRef .tc main_v24)) (Wp (Proc.devRef .tc main_arg3)) (Wp (Proc.devRef .tc main_arg4)) := by
  refine ⟨?_, ?_, ?_, ?_, ?_⟩ <;> (dsimp only [hostOps2]; after_results_simp) <;> rfl

/-- The buffers at the end of region 2, from what they hold at the end of the region before. -/
theorem step (c : Dev nD) (x3 x4 : (⟨S1600000, .i32⟩ : BufTy).Contents (Elt Ideal)) (nrm : SN2.Idx → EReal) (h0 msg : SN64.Idx → EReal)
    (h3 : W7 m ρ c (Proc.devRef .tc main_arg3) = x3) (h4 : W7 m ρ c (Proc.devRef .tc main_arg4) = x4)
    (hn : W7 m ρ c (Proc.devRef .tc main_v22) = nrm) (hh : W7 m ρ c (Proc.devRef .tc main_v0) = h0)
    (hm : W7 m ρ c (Proc.devRef .tc main_v24) = msg) :
    W9 m ρ c (Proc.devRef .tc main_arg3) = x3 ∧ W9 m ρ c (Proc.devRef .tc main_arg4) = x4
    ∧ W9 m ρ c (Proc.devRef .tc main_v22) = nrm ∧ W9 m ρ c (Proc.devRef .tc main_v0) = h0
    ∧ W9 m ρ c (Proc.devRef .tc main_v35_0) = combH (agg msg x3 x4) nrm h0
    ∧ W9 m ρ c (Proc.devRef .tc main_v35_1) = combM (agg msg x3 x4) nrm h0 := by
  obtain ⟨g3, g4, gn, gh, ga⟩ := host (W7 m ρ c)
  have e3 : W8 m ρ c (Proc.devRef .tc main_arg3) = x3 := g3.trans h3
  have e4 : W8 m ρ c (Proc.devRef .tc main_arg4) = x4 := g4.trans h4
  have en : W8 m ρ c (Proc.devRef .tc main_v22) = nrm := gn.trans hn
  have eh : W8 m ρ c (Proc.devRef .tc main_v0) = h0 := gh.trans hh
  have ea : W8 m ρ c (Proc.devRef .tc main_v34) = agg msg x3 x4 := by
    rw [← hm, ← h3, ← h4]; exact ga
  refine ⟨(W9_of_ne m ρ c main_arg3 (by decide)).trans e3, (W9_of_ne m ρ c main_arg4 (by decide)).trans e4,
    ((W9_arr m ρ c 1).trans (((dat2 (V8 m ρ) c).arrAt_in 1 rfl _).trans (A_eq2 (V8 m ρ) c 1))).trans en,
    ((W9_arr m ρ c 2).trans (((dat2 (V8 m ρ) c).arrAt_in 2 rfl _).trans (A_eq2 (V8 m ρ) c 2))).trans eh, ?_, ?_⟩
  · refine (W9_arr m ρ c 3).trans ((Comb2.final3 (V8 m ρ) c).trans ?_)
    show combH (W8 m ρ c (Proc.devRef .tc main_v34)) (W8 m ρ c (Proc.devRef .tc main_v22)) (W8 m ρ c (Proc.devRef .tc main_v0)) = _
    rw [ea, en, eh]
  · refine (W9_arr m ρ c 4).trans ((Comb2.final4 (V8 m ρ) c).trans ?_)
    show combM (W8 m ρ c (Proc.devRef .tc main_v34)) (W8 m ρ c (Proc.devRef .tc main_v22)) (W8 m ρ c (Proc.devRef .tc main_v0)) = _
    rw [ea, en, eh]

end Cert.KernelIdeal.KStep2

end
-- ==== Proof.Comb3.lean ====
/-
  Region 3 of the kernel's program is one propagation step's dense half, tiled over the nodes: at grid point `t` it
  reads rows 4000·t … 4000·t + 3999 of the aggregated messages, of the two-column factor table and of the projected
  features, and writes the same rows of the new features `(0.9 · agg) · nd + 0.1 · h0` and of the next message (the new
  features times the source factor). The 25 row blocks tile the 100000 rows, so after the region each output array is one
  function of the three input arrays as the region found them: `Cert.Appnp.combH` and `Cert.Appnp.combM`.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Comb3

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Column `k` of `j`'s row in a block of the factor table. -/
abbrev jcol (j : S4000x64.Idx) (k : Fin 2) : S4000x2.Idx := fun a => match a with
  | ⟨0, _⟩ => ⟨(j 0).val, (j 0).isLt⟩
  | ⟨1, _⟩ => ⟨k.val, k.isLt⟩

/-- The keepdims column of a block's factor table, broadcast along the 64 lanes, read at an index: the column's entry of
    the index's row. -/
theorem bcol (k : Fin 2) (off : Fin 2 → Nat) (hoff : off = ![0, k.val]) (h : S4000x2.Slices off S4000x1) (x1 : Vec Ideal S4000x2 .f32) (j : S4000x64.Idx) :
    broadcastTo S4000x64 (extractStridedSlice S4000x1 off x1 h) broadcasts_S4000x1_S4000x64 j = x1 (jcol j k) := by
  subst hoff
  rw [broadcastTo_apply _ broadcasts_S4000x1_S4000x64 j (fun a => match a with
    | ⟨0, _⟩ => ⟨(j 0).val, (j 0).isLt⟩
    | ⟨1, _⟩ => ⟨0, Nat.one_pos⟩) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]
  exact extractStridedSlice_apply _ x1 h _ (jcol j k) (fun a => match a with
    | ⟨0, _⟩ => by show (j 0).val = 0 + (j 0).val; omega
    | ⟨1, _⟩ => by show k.val = k.val + 0; omega)

/-- The new-features payload at an index of the block. -/
theorem payH (x0 : Vec Ideal S4000x64 .f32) (x1 : Vec Ideal S4000x2 .f32) (x2 : Vec Ideal S4000x64 .f32) (j : S4000x64.Idx) :
    k3_pay2 x0 x1 x2 j = c9 * x0 j * x1 (jcol j 1) + c1 * x2 j := by
  unfold k3_pay2 k3_pay1
  simp only [shapeCast_self]
  show Ideal.ofBits .f32 0x3F666666#32 * x0 j * broadcastTo S4000x64 (extractStridedSlice S4000x1 ![0, 1] x1 slices_S4000x2_o0_1_S4000x1) broadcasts_S4000x1_S4000x64 j + Ideal.ofBits .f32 0x3DCCCCCD#32 * x2 j = _
  rw [bcol 1 ![0, 1] rfl]

/-- The next-message payload at an index of the block. -/
theorem payM (x0 : Vec Ideal S4000x64 .f32) (x1 : Vec Ideal S4000x2 .f32) (x2 : Vec Ideal S4000x64 .f32) (j : S4000x64.Idx) :
    k3_pay3 x0 x1 x2 j = (c9 * x0 j * x1 (jcol j 1) + c1 * x2 j) * x1 (jcol j 0) := by
  unfold k3_pay3
  show k3_pay2 x0 x1 x2 j * broadcastTo S4000x64 (extractStridedSlice S4000x1 ![0, 0] (k3_pay1 x1) slices_S4000x2_o0_0_S4000x1) broadcasts_S4000x1_S4000x64 j = _
  unfold k3_pay1
  simp only [shapeCast_self]
  rw [payH, bcol 0 ![0, 0] rfl]

/-- Both payloads at a block index `j` that sits at the array index `i`, from the three reads at those indices. -/
theorem pointH (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e2 : x2 j = h0 i) :
    k3_pay2 x0 x1 x2 j = combH agg nrm h0 i := by
  rw [payH, e0, e1, e2]; rfl
theorem pointM (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e1' : x1 (jcol j 0) = nrm (rowcol i 0)) (e2 : x2 j = h0 i) :
    k3_pay3 x0 x1 x2 j = combM agg nrm h0 i := by
  rw [payM, e0, e1, e1', e2]; rfl

/-- The printed index maps over the grid: every window's block row is the point, its block column 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The three input blocks at point `t`, read at a block index, are the arrays at the output block's array index. -/
theorem reads (w : Fin 2) (hw : w = 0 ∨ w = 1) (c : Dev nD) (t : Fin cfg3.N) (j : S4000x64.Idx) (i : SN64.Idx)
    (hi0 : (i 0).val = t.val * 4000 + (j 0).val) (hi1 : (i 1).val = (j 1).val) :
    iblk3 V c 0 t j = V c main_v45 i ∧ iblk3 V c 1 t (jcol j w) = V c main_v22 (rowcol i w) ∧ iblk3 V c 2 t j = V c main_v0 i := by
  obtain ⟨a0, a1, b0, b1, d0, d1, -⟩ := idx_facts t
  refine ⟨?_, ?_, ?_⟩
  · show V c main_v45 (((cfg3.win 0).blk t).view.emb j) = V c main_v45 i
    refine congrArg _ (funext fun a => Fin.ext ?_)
    match a with
    | ⟨0, _⟩ => show win3_0.index t (0 : Fin 2) * 4000 + 1 * (j 0).val = (i 0).val; omega
    | ⟨1, _⟩ => show win3_0.index t (1 : Fin 2) * 64 + 1 * (j 1).val = (i 1).val; omega
  · show V c main_v22 (((cfg3.win 1).blk t).view.emb (jcol j w)) = V c main_v22 (rowcol i w)
    refine congrArg _ (funext fun a => Fin.ext ?_)
    match a with
    | ⟨0, _⟩ => show win3_1.index t (0 : Fin 2) * 4000 + 1 * (j 0).val = (i 0).val; omega
    | ⟨1, _⟩ => show win3_1.index t (1 : Fin 2) * 2 + 1 * w.val = w.val; omega
  · show V c main_v0 (((cfg3.win 2).blk t).view.emb j) = V c main_v0 i
    refine congrArg _ (funext fun a => Fin.ext ?_)
    match a with
    | ⟨0, _⟩ => show win3_2.index t (0 : Fin 2) * 4000 + 1 * (j 0).val = (i 0).val; omega
    | ⟨1, _⟩ => show win3_2.index t (1 : Fin 2) * 64 + 1 * (j 1).val = (i 1).val; omega

/-- What point `t` writes back through the new-features window is block `t` of `combH` of the arrays as found. -/
theorem flushed3_eq (c : Dev nD) (t : Fin cfg3.N) :
    (dat3 V c).flushed 3 t = ((cfg3.win 3).blk t).view.read (Elt Ideal) (combH (V c main_v45) (V c main_v22) (V c main_v0)) := by
  show (cfg3.win 3).cut (grid3.coords t) ((dat3 V c).after 3 t) = _
  rw [after3_3]
  unfold out3_3
  rw [View.canon_unit_zero hz]
  simp only [View.ld_unit_zero (S := S4000x64) hz, View.ld_unit_zero (S := S4000x2) hz]
  obtain ⟨-, -, -, -, -, -, f0, f1, -⟩ := idx_facts t
  funext j
  have hi0 : ((((cfg3.win 3).blk t).view.emb j) 0).val = t.val * 4000 + (j 0).val := by
    show win3_3.index t (0 : Fin 2) * 4000 + 1 * (j 0).val = _; omega
  have hi1 : ((((cfg3.win 3).blk t).view.emb j) 1).val = (j 1).val := by
    show win3_3.index t (1 : Fin 2) * 64 + 1 * (j 1).val = _; omega
  obtain ⟨r0, r1, r2⟩ := reads V 1 (Or.inr rfl) c t j _ hi0 hi1
  exact pointH _ _ _ _ _ _ j _ r0 r1 r2

/-- The same through the next-message window: block `t` of `combM`. -/
theorem flushed4_eq (c : Dev nD) (t : Fin cfg3.N) :
    (dat3 V c).flushed 4 t = ((cfg3.win 4).blk t).view.read (Elt Ideal) (combM (V c main_v45) (V c main_v22) (V c main_v0)) := by
  show (cfg3.win 4).cut (grid3.coords t) ((dat3 V c).after 4 t) = _
  rw [after3_4]
  unfold out3_4
  rw [View.canon_unit_zero hz]
  simp only [View.ld_unit_zero (S := S4000x64) hz, View.ld_unit_zero (S := S4000x2) hz]
  obtain ⟨-, -, -, -, -, -, -, -, f0, f1⟩ := idx_facts t
  funext j
  have hi0 : ((((cfg3.win 4).blk t).view.emb j) 0).val = t.val * 4000 + (j 0).val := by
    show win3_4.index t (0 : Fin 2) * 4000 + 1 * (j 0).val = _; omega
  have hi1 : ((((cfg3.win 4).blk t).view.emb j) 1).val = (j 1).val := by
    show win3_4.index t (1 : Fin 2) * 64 + 1 * (j 1).val = _; omega
  obtain ⟨r0, r1, r2⟩ := reads V 1 (Or.inr rfl) c t j _ hi0 hi1
  obtain ⟨-, r1', -⟩ := reads V 0 (Or.inl rfl) c t j _ hi0 hi1
  exact pointM _ _ _ _ _ _ j _ r0 r1 r1' r2

/-- An index of an output array is in point `t`'s block iff its row is among the block's 4000 rows. -/
theorem mem_blk3 (t : Fin cfg3.N) (i : SN64.Idx) :
    i ∈ ((cfg3.win 3).blk t).view.set ↔ ∀ a : Fin 2, win3_3.index t a * S4000x64.size a ≤ (i a).val ∧ (i a).val < win3_3.index t a * S4000x64.size a + S4000x64.size a := by
  show i ∈ ((View.whole main_v46_0).slice (win3_3.rect t)).set ↔ _
  rw [View.set_slice_whole, Rect.mem_set_unit]
  exact Iff.rfl
theorem mem_blk4 (t : Fin cfg3.N) (i : SN64.Idx) :
    i ∈ ((cfg3.win 4).blk t).view.set ↔ ∀ a : Fin 2, win3_4.index t a * S4000x64.size a ≤ (i a).val ∧ (i a).val < win3_4.index t a * S4000x64.size a + S4000x64.size a := by
  show i ∈ ((View.whole main_v46_1).slice (win3_4.rect t)).set ↔ _
  rw [View.set_slice_whole, Rect.mem_set_unit]
  exact Iff.rfl

/-- Every row lies in the block of the point `row / 4000`. -/
theorem cover3 (i : SN64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 25 := N_3
  refine ⟨⟨(i 0).val / 4000, by rw [hN]; omega⟩, flush3_3 _, ?_⟩
  rw [mem_blk3]
  obtain ⟨-, -, -, -, -, -, f0, f1, -⟩ := idx_facts ⟨(i 0).val / 4000, by rw [hN]; omega⟩
  intro a
  match a with
  | ⟨0, _⟩ => show win3_3.index _ (0 : Fin 2) * 4000 ≤ (i 0).val ∧ (i 0).val < win3_3.index _ (0 : Fin 2) * 4000 + 4000; rw [f0]; show (i 0).val / 4000 * 4000 ≤ _ ∧ _ < (i 0).val / 4000 * 4000 + 4000; omega
  | ⟨1, _⟩ => show win3_3.index _ (1 : Fin 2) * 64 ≤ (i 1).val ∧ (i 1).val < win3_3.index _ (1 : Fin 2) * 64 + 64; rw [f1]; omega
theorem cover4 (i : SN64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 25 := N_3
  refine ⟨⟨(i 0).val / 4000, by rw [hN]; omega⟩, flush3_4 _, ?_⟩
  rw [mem_blk4]
  obtain ⟨-, -, -, -, -, -, -, -, f0, f1⟩ := idx_facts ⟨(i 0).val / 4000, by rw [hN]; omega⟩
  intro a
  match a with
  | ⟨0, _⟩ => show win3_4.index _ (0 : Fin 2) * 4000 ≤ (i 0).val ∧ (i 0).val < win3_4.index _ (0 : Fin 2) * 4000 + 4000; rw [f0]; show (i 0).val / 4000 * 4000 ≤ _ ∧ _ < (i 0).val / 4000 * 4000 + 4000; omega
  | ⟨1, _⟩ => show win3_4.index _ (1 : Fin 2) * 64 ≤ (i 1).val ∧ (i 1).val < win3_4.index _ (1 : Fin 2) * 64 + 64; rw [f1]; omega

/-- After the region the new-features array is `combH` of the three input arrays as the region found them. -/
theorem final3 (c : Dev nD) : (dat3 V c).arrAt 3 cfg3.N = combH (V c main_v45) (V c main_v22) (V c main_v0) :=
  (dat3 V c).arrAt_eq_of_cover 3 _ (fun t _ => flushed3_eq V c t) cover3
/-- And the next-message array is `combM` of them. -/
theorem final4 (c : Dev nD) : (dat3 V c).arrAt 4 cfg3.N = combM (V c main_v45) (V c main_v22) (V c main_v0) :=
  (dat3 V c).arrAt_eq_of_cover 4 _ (fun t _ => flushed4_eq V c t) cover4

end Cert.KernelIdeal.Comb3

end
-- ==== Proof.KStep3.lean ====
/-
  The kernel program's buffers across one propagation step: the host operations before region 3 aggregate the current
  message along the edges; region 3 combines the aggregate with the factor table and the projection into the new
  features and the next message. The edge lists, the factor table and the projection pass through unchanged.
-/
import proofs.«144990_j83459804496278_1_alg».proof.Proof.Gen.KernelIdeal.Frame
import proofs.«144990_j83459804496278_1_alg».proof.Proof.Comb3
import proofs.«144990_j83459804496278_1_alg».proof.Proof.KDefs
import Idealize.ShloMosaic.Lib.StableHlo.Run

set_option maxRecDepth 16384

noncomputable section

namespace Cert.KernelIdeal.KStep3

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The host operations before region 3, from any contents: the aggregate of the message along the edges; the edge
    lists, the factor table and the projection kept. -/
theorem host (Wp : Valuation τ sig (Elt Ideal)) :
    StableHlo.after (hostOps3 (F := Ideal)) Wp (Proc.devRef .tc main_arg3) = Wp (Proc.devRef .tc main_arg3)
    ∧ StableHlo.after (hostOps3 (F := Ideal)) Wp (Proc.devRef .tc main_arg4) = Wp (Proc.devRef .tc main_arg4)
    ∧ StableHlo.after (hostOps3 (F := Ideal)) Wp (Proc.devRef .tc main_v22) = Wp (Proc.devRef .tc main_v22)
    ∧ StableHlo.after (hostOps3 (F := Ideal)) Wp (Proc.devRef .tc main_v0) = Wp (Proc.devRef .tc main_v0)
    ∧ StableHlo.after (hostOps3 (F := Ideal)) Wp (Proc.devRef .tc main_v45) = agg (Wp (Proc.devRef .tc main_v35_1)) (Wp (Proc.devRef .tc main_arg3)) (Wp (Proc.devRef .tc main_arg4)) := by
  refine ⟨?_, ?_, ?_, ?_, ?_⟩ <;> (dsimp only [hostOps3]; after_results_simp) <;> rfl

/-- The buffers at the end of region 3, from what they hold at the end of the region before. -/
theorem step (c : Dev nD) (x3 x4 : (⟨S1600000, .i32⟩ : BufTy).Contents (Elt Ideal)) (nrm : SN2.Idx → EReal) (h0 msg : SN64.Idx → EReal)
    (h3 : W9 m ρ c (Proc.devRef .tc main_arg3) = x3) (h4 : W9 m ρ c (Proc.devRef .tc main_arg4) = x4)
    (hn : W9 m ρ c (Proc.devRef .tc main_v22) = nrm) (hh : W9 m ρ c (Proc.devRef .tc main_v0) = h0)
    (hm : W9 m ρ c (Proc.devRef .tc main_v35_1) = msg) :
    W11 m ρ c (Proc.devRef .tc main_arg3) = x3 ∧ W11 m ρ c (Proc.devRef .tc main_arg4) = x4
    ∧ W11 m ρ c (Proc.devRef .tc main_v22) = nrm ∧ W11 m ρ c (Proc.devRef .tc main_v0) = h0
    ∧ W11 m ρ c (Proc.devRef .tc main_v46_0) = combH (agg msg x3 x4) nrm h0
    ∧ W11 m ρ c (Proc.devRef .tc main_v46_1) = combM (agg msg x3 x4) nrm h0 := by
  obtain ⟨g3, g4, gn, gh, ga⟩ := host (W9 m ρ c)
  have e3 : W10 m ρ c (Proc.devRef .tc main_arg3) = x3 := g3.trans h3
  have e4 : W10 m ρ c (Proc.devRef .tc main_arg4) = x4 := g4.trans h4
  have en : W10 m ρ c (Proc.devRef .tc main_v22) = nrm := gn.trans hn
  have eh : W10 m ρ c (Proc.devRef .tc main_v0) = h0 := gh.trans hh
  have ea : W10 m ρ c (Proc.devRef .tc main_v45) = agg msg x3 x4 := by
    rw [← hm, ← h3, ← h4]; exact ga
  refine ⟨(W11_of_ne m ρ c main_arg3 (by decide)).trans e3, (W11_of_ne m ρ c main_arg4 (by decide)).trans e4,
    ((W11_arr m ρ c 1).trans (((dat3 (V10 m ρ) c).arrAt_in 1 rfl _).trans (A_eq3 (V10 m ρ) c 1))).trans en,
    ((W11_arr m ρ c 2).trans (((dat3 (V10 m ρ) c).arrAt_in 2 rfl _).trans (A_eq3 (V10 m ρ) c 2))).trans eh, ?_, ?_⟩
  · refine (W11_arr m ρ c 3).trans ((Comb3.final3 (V10 m ρ) c).trans ?_)
    show combH (W10 m ρ c (Proc.devRef .tc main_v45)) (W10 m ρ c (Proc.devRef .tc main_v22)) (W10 m ρ c (Proc.devRef .tc main_v0)) = _
    rw [ea, en, eh]
  · refine (W11_arr m ρ c 4).trans ((Comb3.final4 (V10 m ρ) c).trans ?_)
    show combM (W10 m ρ c (Proc.devRef .tc main_v45)) (W10 m ρ c (Proc.devRef .tc main_v22)) (W10 m ρ c (Proc.devRef .tc main_v0)) = _
    rw [ea, en, eh]

end Cert.KernelIdeal.KStep3

end
-- ==== Proof.Comb4.lean ====
/-
  Region 4 of the kernel's program is one propagation step's dense half, tiled over the nodes: at grid point `t` it
  reads rows 4000·t … 4000·t + 3999 of the aggregated messages, of the two-column factor table and of the projected
  features, and writes the same rows of the new features `(0.9 · agg) · nd + 0.1 · h0` and of the next message (the new
  features times the source factor). The 25 row blocks tile the 100000 rows, so after the region each output array is one
  function of the three input arrays as the region found them: `Cert.Appnp.combH` and `Cert.Appnp.combM`.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Comb4

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Column `k` of `j`'s row in a block of the factor table. -/
abbrev jcol (j : S4000x64.Idx) (k : Fin 2) : S4000x2.Idx := fun a => match a with
  | ⟨0, _⟩ => ⟨(j 0).val, (j 0).isLt⟩
  | ⟨1, _⟩ => ⟨k.val, k.isLt⟩

/-- The keepdims column of a block's factor table, broadcast along the 64 lanes, read at an index: the column's entry of
    the index's row. -/
theorem bcol (k : Fin 2) (off : Fin 2 → Nat) (hoff : off = ![0, k.val]) (h : S4000x2.Slices off S4000x1) (x1 : Vec Ideal S4000x2 .f32) (j : S4000x64.Idx) :
    broadcastTo S4000x64 (extractStridedSlice S4000x1 off x1 h) broadcasts_S4000x1_S4000x64 j = x1 (jcol j k) := by
  subst hoff
  rw [broadcastTo_apply _ broadcasts_S4000x1_S4000x64 j (fun a => match a with
    | ⟨0, _⟩ => ⟨(j 0).val, (j 0).isLt⟩
    | ⟨1, _⟩ => ⟨0, Nat.one_pos⟩) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]
  exact extractStridedSlice_apply _ x1 h _ (jcol j k) (fun a => match a with
    | ⟨0, _⟩ => by show (j 0).val = 0 + (j 0).val; omega
    | ⟨1, _⟩ => by show k.val = k.val + 0; omega)

/-- The new-features payload at an index of the block. -/
theorem payH (x0 : Vec Ideal S4000x64 .f32) (x1 : Vec Ideal S4000x2 .f32) (x2 : Vec Ideal S4000x64 .f32) (j : S4000x64.Idx) :
    k4_pay2 x0 x1 x2 j = c9 * x0 j * x1 (jcol j 1) + c1 * x2 j := by
  unfold k4_pay2 k4_pay1
  simp only [shapeCast_self]
  show Ideal.ofBits .f32 0x3F666666#32 * x0 j * broadcastTo S4000x64 (extractStridedSlice S4000x1 ![0, 1] x1 slices_S4000x2_o0_1_S4000x1) broadcasts_S4000x1_S4000x64 j + Ideal.ofBits .f32 0x3DCCCCCD#32 * x2 j = _
  rw [bcol 1 ![0, 1] rfl]

/-- The next-message payload at an index of the block. -/
theorem payM (x0 : Vec Ideal S4000x64 .f32) (x1 : Vec Ideal S4000x2 .f32) (x2 : Vec Ideal S4000x64 .f32) (j : S4000x64.Idx) :
    k4_pay3 x0 x1 x2 j = (c9 * x0 j * x1 (jcol j 1) + c1 * x2 j) * x1 (jcol j 0) := by
  unfold k4_pay3
  show k4_pay2 x0 x1 x2 j * broadcastTo S4000x64 (extractStridedSlice S4000x1 ![0, 0] (k4_pay1 x1) slices_S4000x2_o0_0_S4000x1) broadcasts_S4000x1_S4000x64 j = _
  unfold k4_pay1
  simp only [shapeCast_self]
  rw [payH, bcol 0 ![0, 0] rfl]

/-- Both payloads at a block index `j` that sits at the array index `i`, from the three reads at those indices. -/
theorem pointH (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e2 : x2 j = h0 i) :
    k4_pay2 x0 x1 x2 j = combH agg nrm h0 i := by
  rw [payH, e0, e1, e2]; rfl
theorem pointM (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e1' : x1 (jcol j 0) = nrm (rowcol i 0)) (e2 : x2 j = h0 i) :
    k4_pay3 x0 x1 x2 j = combM agg nrm h0 i := by
  rw [payM, e0, e1, e1', e2]; rfl

/-- The printed index maps over the grid: every window's block row is the point, its block column 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The three input blocks at point `t`, read at a block index, are the arrays at the output block's array index. -/
theorem reads (w : Fin 2) (hw : w = 0 ∨ w = 1) (c : Dev nD) (t : Fin cfg4.N) (j : S4000x64.Idx) (i : SN64.Idx)
    (hi0 : (i 0).val = t.val * 4000 + (j 0).val) (hi1 : (i 1).val = (j 1).val) :
    iblk4 V c 0 t j = V c main_v56 i ∧ iblk4 V c 1 t (jcol j w) = V c main_v22 (rowcol i w) ∧ iblk4 V c 2 t j = V c main_v0 i := by
  obtain ⟨a0, a1, b0, b1, d0, d1, -⟩ := idx_facts t
  refine ⟨?_, ?_, ?_⟩
  · show V c main_v56 (((cfg4.win 0).blk t).view.emb j) = V c main_v56 i
    refine congrArg _ (funext fun a => Fin.ext ?_)
    match a with
    | ⟨0, _⟩ => show win4_0.index t (0 : Fin 2) * 4000 + 1 * (j 0).val = (i 0).val; omega
    | ⟨1, _⟩ => show win4_0.index t (1 : Fin 2) * 64 + 1 * (j 1).val = (i 1).val; omega
  · show V c main_v22 (((cfg4.win 1).blk t).view.emb (jcol j w)) = V c main_v22 (rowcol i w)
    refine congrArg _ (funext fun a => Fin.ext ?_)
    match a with
    | ⟨0, _⟩ => show win4_1.index t (0 : Fin 2) * 4000 + 1 * (j 0).val = (i 0).val; omega
    | ⟨1, _⟩ => show win4_1.index t (1 : Fin 2) * 2 + 1 * w.val = w.val; omega
  · show V c main_v0 (((cfg4.win 2).blk t).view.emb j) = V c main_v0 i
    refine congrArg _ (funext fun a => Fin.ext ?_)
    match a with
    | ⟨0, _⟩ => show win4_2.index t (0 : Fin 2) * 4000 + 1 * (j 0).val = (i 0).val; omega
    | ⟨1, _⟩ => show win4_2.index t (1 : Fin 2) * 64 + 1 * (j 1).val = (i 1).val; omega

/-- What point `t` writes back through the new-features window is block `t` of `combH` of the arrays as found. -/
theorem flushed3_eq (c : Dev nD) (t : Fin cfg4.N) :
    (dat4 V c).flushed 3 t = ((cfg4.win 3).blk t).view.read (Elt Ideal) (combH (V c main_v56) (V c main_v22) (V c main_v0)) := by
  show (cfg4.win 3).cut (grid4.coords t) ((dat4 V c).after 3 t) = _
  rw [after4_3]
  unfold out4_3
  rw [View.canon_unit_zero hz]
  simp only [View.ld_unit_zero (S := S4000x64) hz, View.ld_unit_zero (S := S4000x2) hz]
  obtain ⟨-, -, -, -, -, -, f0, f1, -⟩ := idx_facts t
  funext j
  have hi0 : ((((cfg4.win 3).blk t).view.emb j) 0).val = t.val * 4000 + (j 0).val := by
    show win4_3.index t (0 : Fin 2) * 4000 + 1 * (j 0).val = _; omega
  have hi1 : ((((cfg4.win 3).blk t).view.emb j) 1).val = (j 1).val := by
    show win4_3.index t (1 : Fin 2) * 64 + 1 * (j 1).val = _; omega
  obtain ⟨r0, r1, r2⟩ := reads V 1 (Or.inr rfl) c t j _ hi0 hi1
  exact pointH _ _ _ _ _ _ j _ r0 r1 r2

/-- The same through the next-message window: block `t` of `combM`. -/
theorem flushed4_eq (c : Dev nD) (t : Fin cfg4.N) :
    (dat4 V c).flushed 4 t = ((cfg4.win 4).blk t).view.read (Elt Ideal) (combM (V c main_v56) (V c main_v22) (V c main_v0)) := by
  show (cfg4.win 4).cut (grid4.coords t) ((dat4 V c).after 4 t) = _
  rw [after4_4]
  unfold out4_4
  rw [View.canon_unit_zero hz]
  simp only [View.ld_unit_zero (S := S4000x64) hz, View.ld_unit_zero (S := S4000x2) hz]
  obtain ⟨-, -, -, -, -, -, -, -, f0, f1⟩ := idx_facts t
  funext j
  have hi0 : ((((cfg4.win 4).blk t).view.emb j) 0).val = t.val * 4000 + (j 0).val := by
    show win4_4.index t (0 : Fin 2) * 4000 + 1 * (j 0).val = _; omega
  have hi1 : ((((cfg4.win 4).blk t).view.emb j) 1).val = (j 1).val := by
    show win4_4.index t (1 : Fin 2) * 64 + 1 * (j 1).val = _; omega
  obtain ⟨r0, r1, r2⟩ := reads V 1 (Or.inr rfl) c t j _ hi0 hi1
  obtain ⟨-, r1', -⟩ := reads V 0 (Or.inl rfl) c t j _ hi0 hi1
  exact pointM _ _ _ _ _ _ j _ r0 r1 r1' r2

/-- An index of an output array is in point `t`'s block iff its row is among the block's 4000 rows. -/
theorem mem_blk3 (t : Fin cfg4.N) (i : SN64.Idx) :
    i ∈ ((cfg4.win 3).blk t).view.set ↔ ∀ a : Fin 2, win4_3.index t a * S4000x64.size a ≤ (i a).val ∧ (i a).val < win4_3.index t a * S4000x64.size a + S4000x64.size a := by
  show i ∈ ((View.whole main_v57_0).slice (win4_3.rect t)).set ↔ _
  rw [View.set_slice_whole, Rect.mem_set_unit]
  exact Iff.rfl
theorem mem_blk4 (t : Fin cfg4.N) (i : SN64.Idx) :
    i ∈ ((cfg4.win 4).blk t).view.set ↔ ∀ a : Fin 2, win4_4.index t a * S4000x64.size a ≤ (i a).val ∧ (i a).val < win4_4.index t a * S4000x64.size a + S4000x64.size a := by
  show i ∈ ((View.whole main_v57_1).slice (win4_4.rect t)).set ↔ _
  rw [View.set_slice_whole, Rect.mem_set_unit]
  exact Iff.rfl

/-- Every row lies in the block of the point `row / 4000`. -/
theorem cover3 (i : SN64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 25 := N_4
  refine ⟨⟨(i 0).val / 4000, by rw [hN]; omega⟩, flush4_3 _, ?_⟩
  rw [mem_blk3]
  obtain ⟨-, -, -, -, -, -, f0, f1, -⟩ := idx_facts ⟨(i 0).val / 4000, by rw [hN]; omega⟩
  intro a
  match a with
  | ⟨0, _⟩ => show win4_3.index _ (0 : Fin 2) * 4000 ≤ (i 0).val ∧ (i 0).val < win4_3.index _ (0 : Fin 2) * 4000 + 4000; rw [f0]; show (i 0).val / 4000 * 4000 ≤ _ ∧ _ < (i 0).val / 4000 * 4000 + 4000; omega
  | ⟨1, _⟩ => show win4_3.index _ (1 : Fin 2) * 64 ≤ (i 1).val ∧ (i 1).val < win4_3.index _ (1 : Fin 2) * 64 + 64; rw [f1]; omega
theorem cover4 (i : SN64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 25 := N_4
  refine ⟨⟨(i 0).val / 4000, by rw [hN]; omega⟩, flush4_4 _, ?_⟩
  rw [mem_blk4]
  obtain ⟨-, -, -, -, -, -, -, -, f0, f1⟩ := idx_facts ⟨(i 0).val / 4000, by rw [hN]; omega⟩
  intro a
  match a with
  | ⟨0, _⟩ => show win4_4.index _ (0 : Fin 2) * 4000 ≤ (i 0).val ∧ (i 0).val < win4_4.index _ (0 : Fin 2) * 4000 + 4000; rw [f0]; show (i 0).val / 4000 * 4000 ≤ _ ∧ _ < (i 0).val / 4000 * 4000 + 4000; omega
  | ⟨1, _⟩ => show win4_4.index _ (1 : Fin 2) * 64 ≤ (i 1).val ∧ (i 1).val < win4_4.index _ (1 : Fin 2) * 64 + 64; rw [f1]; omega

/-- After the region the new-features array is `combH` of the three input arrays as the region found them. -/
theorem final3 (c : Dev nD) : (dat4 V c).arrAt 3 cfg4.N = combH (V c main_v56) (V c main_v22) (V c main_v0) :=
  (dat4 V c).arrAt_eq_of_cover 3 _ (fun t _ => flushed3_eq V c t) cover3
/-- And the next-message array is `combM` of them. -/
theorem final4 (c : Dev nD) : (dat4 V c).arrAt 4 cfg4.N = combM (V c main_v56) (V c main_v22) (V c main_v0) :=
  (dat4 V c).arrAt_eq_of_cover 4 _ (fun t _ => flushed4_eq V c t) cover4

end Cert.KernelIdeal.Comb4

end
-- ==== Proof.KStep4.lean ====
/-
  The kernel program's buffers across one propagation step: the host operations before region 4 aggregate the current
  message along the edges; region 4 combines the aggregate with the factor table and the projection into the new
  features and the next message. The edge lists, the factor table and the projection pass through unchanged.
-/
import proofs.«144990_j83459804496278_1_alg».proof.Proof.Gen.KernelIdeal.Frame
import proofs.«144990_j83459804496278_1_alg».proof.Proof.Comb4
import proofs.«144990_j83459804496278_1_alg».proof.Proof.KDefs
import Idealize.ShloMosaic.Lib.StableHlo.Run

set_option maxRecDepth 16384

noncomputable section

namespace Cert.KernelIdeal.KStep4

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The host operations before region 4, from any contents: the aggregate of the message along the edges; the edge
    lists, the factor table and the projection kept. -/
theorem host (Wp : Valuation τ sig (Elt Ideal)) :
    StableHlo.after (hostOps4 (F := Ideal)) Wp (Proc.devRef .tc main_arg3) = Wp (Proc.devRef .tc main_arg3)
    ∧ StableHlo.after (hostOps4 (F := Ideal)) Wp (Proc.devRef .tc main_arg4) = Wp (Proc.devRef .tc main_arg4)
    ∧ StableHlo.after (hostOps4 (F := Ideal)) Wp (Proc.devRef .tc main_v22) = Wp (Proc.devRef .tc main_v22)
    ∧ StableHlo.after (hostOps4 (F := Ideal)) Wp (Proc.devRef .tc main_v0) = Wp (Proc.devRef .tc main_v0)
    ∧ StableHlo.after (hostOps4 (F := Ideal)) Wp (Proc.devRef .tc main_v56) = agg (Wp (Proc.devRef .tc main_v46_1)) (Wp (Proc.devRef .tc main_arg3)) (Wp (Proc.devRef .tc main_arg4)) := by
  refine ⟨?_, ?_, ?_, ?_, ?_⟩ <;> (dsimp only [hostOps4]; after_results_simp) <;> rfl

/-- The buffers at the end of region 4, from what they hold at the end of the region before. -/
theorem step (c : Dev nD) (x3 x4 : (⟨S1600000, .i32⟩ : BufTy).Contents (Elt Ideal)) (nrm : SN2.Idx → EReal) (h0 msg : SN64.Idx → EReal)
    (h3 : W11 m ρ c (Proc.devRef .tc main_arg3) = x3) (h4 : W11 m ρ c (Proc.devRef .tc main_arg4) = x4)
    (hn : W11 m ρ c (Proc.devRef .tc main_v22) = nrm) (hh : W11 m ρ c (Proc.devRef .tc main_v0) = h0)
    (hm : W11 m ρ c (Proc.devRef .tc main_v46_1) = msg) :
    W13 m ρ c (Proc.devRef .tc main_arg3) = x3 ∧ W13 m ρ c (Proc.devRef .tc main_arg4) = x4
    ∧ W13 m ρ c (Proc.devRef .tc main_v22) = nrm ∧ W13 m ρ c (Proc.devRef .tc main_v0) = h0
    ∧ W13 m ρ c (Proc.devRef .tc main_v57_0) = combH (agg msg x3 x4) nrm h0
    ∧ W13 m ρ c (Proc.devRef .tc main_v57_1) = combM (agg msg x3 x4) nrm h0 := by
  obtain ⟨g3, g4, gn, gh, ga⟩ := host (W11 m ρ c)
  have e3 : W12 m ρ c (Proc.devRef .tc main_arg3) = x3 := g3.trans h3
  have e4 : W12 m ρ c (Proc.devRef .tc main_arg4) = x4 := g4.trans h4
  have en : W12 m ρ c (Proc.devRef .tc main_v22) = nrm := gn.trans hn
  have eh : W12 m ρ c (Proc.devRef .tc main_v0) = h0 := gh.trans hh
  have ea : W12 m ρ c (Proc.devRef .tc main_v56) = agg msg x3 x4 := by
    rw [← hm, ← h3, ← h4]; exact ga
  refine ⟨(W13_of_ne m ρ c main_arg3 (by decide)).trans e3, (W13_of_ne m ρ c main_arg4 (by decide)).trans e4,
    ((W13_arr m ρ c 1).trans (((dat4 (V12 m ρ) c).arrAt_in 1 rfl _).trans (A_eq4 (V12 m ρ) c 1))).trans en,
    ((W13_arr m ρ c 2).trans (((dat4 (V12 m ρ) c).arrAt_in 2 rfl _).trans (A_eq4 (V12 m ρ) c 2))).trans eh, ?_, ?_⟩
  · refine (W13_arr m ρ c 3).trans ((Comb4.final3 (V12 m ρ) c).trans ?_)
    show combH (W12 m ρ c (Proc.devRef .tc main_v56)) (W12 m ρ c (Proc.devRef .tc main_v22)) (W12 m ρ c (Proc.devRef .tc main_v0)) = _
    rw [ea, en, eh]
  · refine (W13_arr m ρ c 4).trans ((Comb4.final4 (V12 m ρ) c).trans ?_)
    show combM (W12 m ρ c (Proc.devRef .tc main_v56)) (W12 m ρ c (Proc.devRef .tc main_v22)) (W12 m ρ c (Proc.devRef .tc main_v0)) = _
    rw [ea, en, eh]

end Cert.KernelIdeal.KStep4

end
-- ==== Proof.Comb5.lean ====
/-
  Region 5 of the kernel's program is one propagation step's dense half, tiled over the nodes: at grid point `t` it
  reads rows 4000·t … 4000·t + 3999 of the aggregated messages, of the two-column factor table and of the projected
  features, and writes the same rows of the new features `(0.9 · agg) · nd + 0.1 · h0` and of the next message (the new
  features times the source factor). The 25 row blocks tile the 100000 rows, so after the region each output array is one
  function of the three input arrays as the region found them: `Cert.Appnp.combH` and `Cert.Appnp.combM`.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Comb5

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Column `k` of `j`'s row in a block of the factor table. -/
abbrev jcol (j : S4000x64.Idx) (k : Fin 2) : S4000x2.Idx := fun a => match a with
  | ⟨0, _⟩ => ⟨(j 0).val, (j 0).isLt⟩
  | ⟨1, _⟩ => ⟨k.val, k.isLt⟩

/-- The keepdims column of a block's factor table, broadcast along the 64 lanes, read at an index: the column's entry of
    the index's row. -/
theorem bcol (k : Fin 2) (off : Fin 2 → Nat) (hoff : off = ![0, k.val]) (h : S4000x2.Slices off S4000x1) (x1 : Vec Ideal S4000x2 .f32) (j : S4000x64.Idx) :
    broadcastTo S4000x64 (extractStridedSlice S4000x1 off x1 h) broadcasts_S4000x1_S4000x64 j = x1 (jcol j k) := by
  subst hoff
  rw [broadcastTo_apply _ broadcasts_S4000x1_S4000x64 j (fun a => match a with
    | ⟨0, _⟩ => ⟨(j 0).val, (j 0).isLt⟩
    | ⟨1, _⟩ => ⟨0, Nat.one_pos⟩) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]
  exact extractStridedSlice_apply _ x1 h _ (jcol j k) (fun a => match a with
    | ⟨0, _⟩ => by show (j 0).val = 0 + (j 0).val; omega
    | ⟨1, _⟩ => by show k.val = k.val + 0; omega)

/-- The new-features payload at an index of the block. -/
theorem payH (x0 : Vec Ideal S4000x64 .f32) (x1 : Vec Ideal S4000x2 .f32) (x2 : Vec Ideal S4000x64 .f32) (j : S4000x64.Idx) :
    k5_pay2 x0 x1 x2 j = c9 * x0 j * x1 (jcol j 1) + c1 * x2 j := by
  unfold k5_pay2 k5_pay1
  simp only [shapeCast_self]
  show Ideal.ofBits .f32 0x3F666666#32 * x0 j * broadcastTo S4000x64 (extractStridedSlice S4000x1 ![0, 1] x1 slices_S4000x2_o0_1_S4000x1) broadcasts_S4000x1_S4000x64 j + Ideal.ofBits .f32 0x3DCCCCCD#32 * x2 j = _
  rw [bcol 1 ![0, 1] rfl]

/-- The next-message payload at an index of the block. -/
theorem payM (x0 : Vec Ideal S4000x64 .f32) (x1 : Vec Ideal S4000x2 .f32) (x2 : Vec Ideal S4000x64 .f32) (j : S4000x64.Idx) :
    k5_pay3 x0 x1 x2 j = (c9 * x0 j * x1 (jcol j 1) + c1 * x2 j) * x1 (jcol j 0) := by
  unfold k5_pay3
  show k5_pay2 x0 x1 x2 j * broadcastTo S4000x64 (extractStridedSlice S4000x1 ![0, 0] (k5_pay1 x1) slices_S4000x2_o0_0_S4000x1) broadcasts_S4000x1_S4000x64 j = _
  unfold k5_pay1
  simp only [shapeCast_self]
  rw [payH, bcol 0 ![0, 0] rfl]

/-- Both payloads at a block index `j` that sits at the array index `i`, from the three reads at those indices. -/
theorem pointH (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e2 : x2 j = h0 i) :
    k5_pay2 x0 x1 x2 j = combH agg nrm h0 i := by
  rw [payH, e0, e1, e2]; rfl
theorem pointM (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e1' : x1 (jcol j 0) = nrm (rowcol i 0)) (e2 : x2 j = h0 i) :
    k5_pay3 x0 x1 x2 j = combM agg nrm h0 i := by
  rw [payM, e0, e1, e1', e2]; rfl

/-- The printed index maps over the grid: every window's block row is the point, its block column 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- The three input blocks at point `t`, read at a block index, are the arrays at the output block's array index. -/
theorem reads (w : Fin 2) (hw : w = 0 ∨ w = 1) (c : Dev nD) (t : Fin cfg5.N) (j : S4000x64.Idx) (i : SN64.Idx)
    (hi0 : (i 0).val = t.val * 4000 + (j 0).val) (hi1 : (i 1).val = (j 1).val) :
    iblk5 V c 0 t j = V c main_v67 i ∧ iblk5 V c 1 t (jcol j w) = V c main_v22 (rowcol i w) ∧ iblk5 V c 2 t j = V c main_v0 i := by
  obtain ⟨a0, a1, b0, b1, d0, d1, -⟩ := idx_facts t
  refine ⟨?_, ?_, ?_⟩
  · show V c main_v67 (((cfg5.win 0).blk t).view.emb j) = V c main_v67 i
    refine congrArg _ (funext fun a => Fin.ext ?_)
    match a with
    | ⟨0, _⟩ => show win5_0.index t (0 : Fin 2) * 4000 + 1 * (j 0).val = (i 0).val; omega
    | ⟨1, _⟩ => show win5_0.index t (1 : Fin 2) * 64 + 1 * (j 1).val = (i 1).val; omega
  · show V c main_v22 (((cfg5.win 1).blk t).view.emb (jcol j w)) = V c main_v22 (rowcol i w)
    refine congrArg _ (funext fun a => Fin.ext ?_)
    match a with
    | ⟨0, _⟩ => show win5_1.index t (0 : Fin 2) * 4000 + 1 * (j 0).val = (i 0).val; omega
    | ⟨1, _⟩ => show win5_1.index t (1 : Fin 2) * 2 + 1 * w.val = w.val; omega
  · show V c main_v0 (((cfg5.win 2).blk t).view.emb j) = V c main_v0 i
    refine congrArg _ (funext fun a => Fin.ext ?_)
    match a with
    | ⟨0, _⟩ => show win5_2.index t (0 : Fin 2) * 4000 + 1 * (j 0).val = (i 0).val; omega
    | ⟨1, _⟩ => show win5_2.index t (1 : Fin 2) * 64 + 1 * (j 1).val = (i 1).val; omega

/-- What point `t` writes back through the new-features window is block `t` of `combH` of the arrays as found. -/
theorem flushed3_eq (c : Dev nD) (t : Fin cfg5.N) :
    (dat5 V c).flushed 3 t = ((cfg5.win 3).blk t).view.read (Elt Ideal) (combH (V c main_v67) (V c main_v22) (V c main_v0)) := by
  show (cfg5.win 3).cut (grid5.coords t) ((dat5 V c).after 3 t) = _
  rw [after5_3]
  unfold out5_3
  rw [View.canon_unit_zero hz]
  simp only [View.ld_unit_zero (S := S4000x64) hz, View.ld_unit_zero (S := S4000x2) hz]
  obtain ⟨-, -, -, -, -, -, f0, f1, -⟩ := idx_facts t
  funext j
  have hi0 : ((((cfg5.win 3).blk t).view.emb j) 0).val = t.val * 4000 + (j 0).val := by
    show win5_3.index t (0 : Fin 2) * 4000 + 1 * (j 0).val = _; omega
  have hi1 : ((((cfg5.win 3).blk t).view.emb j) 1).val = (j 1).val := by
    show win5_3.index t (1 : Fin 2) * 64 + 1 * (j 1).val = _; omega
  obtain ⟨r0, r1, r2⟩ := reads V 1 (Or.inr rfl) c t j _ hi0 hi1
  exact pointH _ _ _ _ _ _ j _ r0 r1 r2

/-- The same through the next-message window: block `t` of `combM`. -/
theorem flushed4_eq (c : Dev nD) (t : Fin cfg5.N) :
    (dat5 V c).flushed 4 t = ((cfg5.win 4).blk t).view.read (Elt Ideal) (combM (V c main_v67) (V c main_v22) (V c main_v0)) := by
  show (cfg5.win 4).cut (grid5.coords t) ((dat5 V c).after 4 t) = _
  rw [after5_4]
  unfold out5_4
  rw [View.canon_unit_zero hz]
  simp only [View.ld_unit_zero (S := S4000x64) hz, View.ld_unit_zero (S := S4000x2) hz]
  obtain ⟨-, -, -, -, -, -, -, -, f0, f1⟩ := idx_facts t
  funext j
  have hi0 : ((((cfg5.win 4).blk t).view.emb j) 0).val = t.val * 4000 + (j 0).val := by
    show win5_4.index t (0 : Fin 2) * 4000 + 1 * (j 0).val = _; omega
  have hi1 : ((((cfg5.win 4).blk t).view.emb j) 1).val = (j 1).val := by
    show win5_4.index t (1 : Fin 2) * 64 + 1 * (j 1).val = _; omega
  obtain ⟨r0, r1, r2⟩ := reads V 1 (Or.inr rfl) c t j _ hi0 hi1
  obtain ⟨-, r1', -⟩ := reads V 0 (Or.inl rfl) c t j _ hi0 hi1
  exact pointM _ _ _ _ _ _ j _ r0 r1 r1' r2

/-- An index of an output array is in point `t`'s block iff its row is among the block's 4000 rows. -/
theorem mem_blk3 (t : Fin cfg5.N) (i : SN64.Idx) :
    i ∈ ((cfg5.win 3).blk t).view.set ↔ ∀ a : Fin 2, win5_3.index t a * S4000x64.size a ≤ (i a).val ∧ (i a).val < win5_3.index t a * S4000x64.size a + S4000x64.size a := by
  show i ∈ ((View.whole main_v68_0).slice (win5_3.rect t)).set ↔ _
  rw [View.set_slice_whole, Rect.mem_set_unit]
  exact Iff.rfl
theorem mem_blk4 (t : Fin cfg5.N) (i : SN64.Idx) :
    i ∈ ((cfg5.win 4).blk t).view.set ↔ ∀ a : Fin 2, win5_4.index t a * S4000x64.size a ≤ (i a).val ∧ (i a).val < win5_4.index t a * S4000x64.size a + S4000x64.size a := by
  show i ∈ ((View.whole main_v68_1).slice (win5_4.rect t)).set ↔ _
  rw [View.set_slice_whole, Rect.mem_set_unit]
  exact Iff.rfl

/-- Every row lies in the block of the point `row / 4000`. -/
theorem cover3 (i : SN64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 25 := N_5
  refine ⟨⟨(i 0).val / 4000, by rw [hN]; omega⟩, flush5_3 _, ?_⟩
  rw [mem_blk3]
  obtain ⟨-, -, -, -, -, -, f0, f1, -⟩ := idx_facts ⟨(i 0).val / 4000, by rw [hN]; omega⟩
  intro a
  match a with
  | ⟨0, _⟩ => show win5_3.index _ (0 : Fin 2) * 4000 ≤ (i 0).val ∧ (i 0).val < win5_3.index _ (0 : Fin 2) * 4000 + 4000; rw [f0]; show (i 0).val / 4000 * 4000 ≤ _ ∧ _ < (i 0).val / 4000 * 4000 + 4000; omega
  | ⟨1, _⟩ => show win5_3.index _ (1 : Fin 2) * 64 ≤ (i 1).val ∧ (i 1).val < win5_3.index _ (1 : Fin 2) * 64 + 64; rw [f1]; omega
theorem cover4 (i : SN64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 25 := N_5
  refine ⟨⟨(i 0).val / 4000, by rw [hN]; omega⟩, flush5_4 _, ?_⟩
  rw [mem_blk4]
  obtain ⟨-, -, -, -, -, -, -, -, f0, f1⟩ := idx_facts ⟨(i 0).val / 4000, by rw [hN]; omega⟩
  intro a
  match a with
  | ⟨0, _⟩ => show win5_4.index _ (0 : Fin 2) * 4000 ≤ (i 0).val ∧ (i 0).val < win5_4.index _ (0 : Fin 2) * 4000 + 4000; rw [f0]; show (i 0).val / 4000 * 4000 ≤ _ ∧ _ < (i 0).val / 4000 * 4000 + 4000; omega
  | ⟨1, _⟩ => show win5_4.index _ (1 : Fin 2) * 64 ≤ (i 1).val ∧ (i 1).val < win5_4.index _ (1 : Fin 2) * 64 + 64; rw [f1]; omega

/-- After the region the new-features array is `combH` of the three input arrays as the region found them. -/
theorem final3 (c : Dev nD) : (dat5 V c).arrAt 3 cfg5.N = combH (V c main_v67) (V c main_v22) (V c main_v0) :=
  (dat5 V c).arrAt_eq_of_cover 3 _ (fun t _ => flushed3_eq V c t) cover3
/-- And the next-message array is `combM` of them. -/
theorem final4 (c : Dev nD) : (dat5 V c).arrAt 4 cfg5.N = combM (V c main_v67) (V c main_v22) (V c main_v0) :=
  (dat5 V c).arrAt_eq_of_cover 4 _ (fun t _ => flushed4_eq V c t) cover4

end Cert.KernelIdeal.Comb5

end
-- ==== Proof.KStep5.lean ====
/-
  The kernel program's buffers across one propagation step: the host operations before region 5 aggregate the current
  message along the edges; region 5 combines the aggregate with the factor table and the projection into the new
  features and the next message. The edge lists, the factor table and the projection pass through unchanged.
-/
import proofs.«144990_j83459804496278_1_alg».proof.Proof.Gen.KernelIdeal.Frame
import proofs.«144990_j83459804496278_1_alg».proof.Proof.Comb5
import proofs.«144990_j83459804496278_1_alg».proof.Proof.KDefs
import Idealize.ShloMosaic.Lib.StableHlo.Run

set_option maxRecDepth 16384

noncomputable section

namespace Cert.KernelIdeal.KStep5

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The host operations before region 5, from any contents: the aggregate of the message along the edges; the edge
    lists, the factor table and the projection kept. -/
theorem host (Wp : Valuation τ sig (Elt Ideal)) :
    StableHlo.after (hostOps5 (F := Ideal)) Wp (Proc.devRef .tc main_arg3) = Wp (Proc.devRef .tc main_arg3)
    ∧ StableHlo.after (hostOps5 (F := Ideal)) Wp (Proc.devRef .tc main_arg4) = Wp (Proc.devRef .tc main_arg4)
    ∧ StableHlo.after (hostOps5 (F := Ideal)) Wp (Proc.devRef .tc main_v22) = Wp (Proc.devRef .tc main_v22)
    ∧ StableHlo.after (hostOps5 (F := Ideal)) Wp (Proc.devRef .tc main_v0) = Wp (Proc.devRef .tc main_v0)
    ∧ StableHlo.after (hostOps5 (F := Ideal)) Wp (Proc.devRef .tc main_v67) = agg (Wp (Proc.devRef .tc main_v57_1)) (Wp (Proc.devRef .tc main_arg3)) (Wp (Proc.devRef .tc main_arg4)) := by
  refine ⟨?_, ?_, ?_, ?_, ?_⟩ <;> (dsimp only [hostOps5]; after_results_simp) <;> rfl

/-- The buffers at the end of region 5, from what they hold at the end of the region before. -/
theorem step (c : Dev nD) (x3 x4 : (⟨S1600000, .i32⟩ : BufTy).Contents (Elt Ideal)) (nrm : SN2.Idx → EReal) (h0 msg : SN64.Idx → EReal)
    (h3 : W13 m ρ c (Proc.devRef .tc main_arg3) = x3) (h4 : W13 m ρ c (Proc.devRef .tc main_arg4) = x4)
    (hn : W13 m ρ c (Proc.devRef .tc main_v22) = nrm) (hh : W13 m ρ c (Proc.devRef .tc main_v0) = h0)
    (hm : W13 m ρ c (Proc.devRef .tc main_v57_1) = msg) :
    W15 m ρ c (Proc.devRef .tc main_arg3) = x3 ∧ W15 m ρ c (Proc.devRef .tc main_arg4) = x4
    ∧ W15 m ρ c (Proc.devRef .tc main_v22) = nrm ∧ W15 m ρ c (Proc.devRef .tc main_v0) = h0
    ∧ W15 m ρ c (Proc.devRef .tc main_v68_0) = combH (agg msg x3 x4) nrm h0
    ∧ W15 m ρ c (Proc.devRef .tc main_v68_1) = combM (agg msg x3 x4) nrm h0 := by
  obtain ⟨g3, g4, gn, gh, ga⟩ := host (W13 m ρ c)
  have e3 : W14 m ρ c (Proc.devRef .tc main_arg3) = x3 := g3.trans h3
  have e4 : W14 m ρ c (Proc.devRef .tc main_arg4) = x4 := g4.trans h4
  have en : W14 m ρ c (Proc.devRef .tc main_v22) = nrm := gn.trans hn
  have eh : W14 m ρ c (Proc.devRef .tc main_v0) = h0 := gh.trans hh
  have ea : W14 m ρ c (Proc.devRef .tc main_v67) = agg msg x3 x4 := by
    rw [← hm, ← h3, ← h4]; exact ga
  refine ⟨(W15_of_ne m ρ c main_arg3 (by decide)).trans e3, (W15_of_ne m ρ c main_arg4 (by decide)).trans e4,
    ((W15_arr m ρ c 1).trans (((dat5 (V14 m ρ) c).arrAt_in 1 rfl _).trans (A_eq5 (V14 m ρ) c 1))).trans en,
    ((W15_arr m ρ c 2).trans (((dat5 (V14 m ρ) c).arrAt_in 2 rfl _).trans (A_eq5 (V14 m ρ) c 2))).trans eh, ?_, ?_⟩
  · refine (W15_arr m ρ c 3).trans ((Comb5.final3 (V14 m ρ) c).trans ?_)
    show combH (W14 m ρ c (Proc.devRef .tc main_v67)) (W14 m ρ c (Proc.devRef .tc main_v22)) (W14 m ρ c (Proc.devRef .tc main_v0)) = _
    rw [ea, en, eh]
  · refine (W15_arr m ρ c 4).trans ((Comb5.final4 (V14 m ρ) c).trans ?_)
    show combM (W14 m ρ c (Proc.devRef .tc main_v67)) (W14 m ρ c (Proc.devRef .tc main_v22)) (W14 m ρ c (Proc.devRef .tc main_v0)) = _
    rw [ea, en, eh]

end Cert.KernelIdeal.KStep5

end
-- ==== Proof.Comb6.lean ====
/-
  Region 6 of the kernel's program is one propagation step's dense half, tiled over the nodes: at grid point `t` it
  reads rows 4000·t … 4000·t + 3999 of the aggregated messages, of the two-column factor table and of the projected
  features, and writes the same rows of the new features `(0.9 · agg) · nd + 0.1 · h0` and of the next message (the new
  features times the source factor). The 25 row blocks tile the 100000 rows, so after the region each output array is one
  function of the three input arrays as the region found them: `Cert.Appnp.combH` and `Cert.Appnp.combM`.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Comb6

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Column `k` of `j`'s row in a block of the factor table. -/
abbrev jcol (j : S4000x64.Idx) (k : Fin 2) : S4000x2.Idx := fun a => match a with
  | ⟨0, _⟩ => ⟨(j 0).val, (j 0).isLt⟩
  | ⟨1, _⟩ => ⟨k.val, k.isLt⟩

/-- The keepdims column of a block's factor table, broadcast along the 64 lanes, read at an index: the column's entry of
    the index's row. -/
theorem bcol (k : Fin 2) (off : Fin 2 → Nat) (hoff : off = ![0, k.val]) (h : S4000x2.Slices off S4000x1) (x1 : Vec Ideal S4000x2 .f32) (j : S4000x64.Idx) :
    broadcastTo S4000x64 (extractStridedSlice S4000x1 off x1 h) broadcasts_S4000x1_S4000x64 j = x1 (jcol j k) := by
  subst hoff
  rw [broadcastTo_apply _ broadcasts_S4000x1_S4000x64 j (fun a => match a with
    | ⟨0, _⟩ => ⟨(j 0).val, (j 0).isLt⟩
    | ⟨1, _⟩ => ⟨0, Nat.one_pos⟩) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]
  exact extractStridedSlice_apply _ x1 h _ (jcol j k) (fun a => match a with
    | ⟨0, _⟩ => by show (j 0).val = 0 + (j 0).val; omega
    | ⟨1, _⟩ => by show k.val = k.val + 0; omega)

/-- The new-features payload at an index of the block. -/
theorem payH (x0 : Vec Ideal S4000x64 .f32) (x1 : Vec Ideal S4000x2 .f32) (x2 : Vec Ideal S4000x64 .f32) (j : S4000x64.Idx) :
    k6_pay2 x0 x1 x2 j = c9 * x0 j * x1 (jcol j 1) + c1 * x2 j := by
  unfold k6_pay2 k6_pay1
  simp only [shapeCast_self]
  show Ideal.ofBits .f32 0x3F666666#32 * x0 j * broadcastTo S4000x64 (extractStridedSlice S4000x1 ![0, 1] x1 slices_S4000x2_o0_1_S4000x1) broadcasts_S4000x1_S4000x64 j + Ideal.ofBits .f32 0x3DCCCCCD#32 * x2 j = _
  rw [bcol 1 ![0, 1] rfl]

/-- The next-message payload at an index of the block. -/
theorem payM (x0 : Vec Ideal S4000x64 .f32) (x1 : Vec Ideal S4000x2 .f32) (x2 : Vec Ideal S4000x64 .f32) (j : S4000x64.Idx) :
    k6_pay3 x0 x1 x2 j = (c9 * x0 j * x1 (jcol j 1) + c1 * x2 j) * x1 (jcol j 0) := by
  unfold k6_pay3
  show k6_pay2 x0 x1 x2 j * broadcastTo S4000x64 (extractStridedSlice S4000x1 ![0, 0] (k6_pay1 x1) slices_S4000x2_o0_0_S4000x1) broadcasts_S4000x1_S4000x64 j = _
  unfold k6_pay1
  simp only [shapeCast_self]
  rw [payH, bcol 0 ![0, 0] rfl]

/-- Both payloads at a block index `j` that sits at the array index `i`, from the three reads at those indices. -/
theorem pointH (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e2 : x2 j = h0 i) :
    k6_pay2 x0 x1 x2 j = combH agg nrm h0 i := by
  rw [payH, e0, e1, e2]; rfl
theorem pointM (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e1' : x1 (jcol j 0) = nrm (rowcol i 0)) (e2 : x2 j = h0 i) :
    k6_pay3 x0 x1 x2 j = combM agg nrm h0 i := by
  rw [payM, e0, e1, e1', e2]; rfl

/-- The printed index maps over the grid: every window's block row is the point, its block column 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The three input blocks at point `t`, read at a block index, are the arrays at the output block's array index. -/
theorem reads (w : Fin 2) (hw : w = 0 ∨ w = 1) (c : Dev nD) (t : Fin cfg6.N) (j : S4000x64.Idx) (i : SN64.Idx)
    (hi0 : (i 0).val = t.val * 4000 + (j 0).val) (hi1 : (i 1).val = (j 1).val) :
    iblk6 V c 0 t j = V c main_v78 i ∧ iblk6 V c 1 t (jcol j w) = V c main_v22 (rowcol i w) ∧ iblk6 V c 2 t j = V c main_v0 i := by
  obtain ⟨a0, a1, b0, b1, d0, d1, -⟩ := idx_facts t
  refine ⟨?_, ?_, ?_⟩
  · show V c main_v78 (((cfg6.win 0).blk t).view.emb j) = V c main_v78 i
    refine congrArg _ (funext fun a => Fin.ext ?_)
    match a with
    | ⟨0, _⟩ => show win6_0.index t (0 : Fin 2) * 4000 + 1 * (j 0).val = (i 0).val; omega
    | ⟨1, _⟩ => show win6_0.index t (1 : Fin 2) * 64 + 1 * (j 1).val = (i 1).val; omega
  · show V c main_v22 (((cfg6.win 1).blk t).view.emb (jcol j w)) = V c main_v22 (rowcol i w)
    refine congrArg _ (funext fun a => Fin.ext ?_)
    match a with
    | ⟨0, _⟩ => show win6_1.index t (0 : Fin 2) * 4000 + 1 * (j 0).val = (i 0).val; omega
    | ⟨1, _⟩ => show win6_1.index t (1 : Fin 2) * 2 + 1 * w.val = w.val; omega
  · show V c main_v0 (((cfg6.win 2).blk t).view.emb j) = V c main_v0 i
    refine congrArg _ (funext fun a => Fin.ext ?_)
    match a with
    | ⟨0, _⟩ => show win6_2.index t (0 : Fin 2) * 4000 + 1 * (j 0).val = (i 0).val; omega
    | ⟨1, _⟩ => show win6_2.index t (1 : Fin 2) * 64 + 1 * (j 1).val = (i 1).val; omega

/-- What point `t` writes back through the new-features window is block `t` of `combH` of the arrays as found. -/
theorem flushed3_eq (c : Dev nD) (t : Fin cfg6.N) :
    (dat6 V c).flushed 3 t = ((cfg6.win 3).blk t).view.read (Elt Ideal) (combH (V c main_v78) (V c main_v22) (V c main_v0)) := by
  show (cfg6.win 3).cut (grid6.coords t) ((dat6 V c).after 3 t) = _
  rw [after6_3]
  unfold out6_3
  rw [View.canon_unit_zero hz]
  simp only [View.ld_unit_zero (S := S4000x64) hz, View.ld_unit_zero (S := S4000x2) hz]
  obtain ⟨-, -, -, -, -, -, f0, f1, -⟩ := idx_facts t
  funext j
  have hi0 : ((((cfg6.win 3).blk t).view.emb j) 0).val = t.val * 4000 + (j 0).val := by
    show win6_3.index t (0 : Fin 2) * 4000 + 1 * (j 0).val = _; omega
  have hi1 : ((((cfg6.win 3).blk t).view.emb j) 1).val = (j 1).val := by
    show win6_3.index t (1 : Fin 2) * 64 + 1 * (j 1).val = _; omega
  obtain ⟨r0, r1, r2⟩ := reads V 1 (Or.inr rfl) c t j _ hi0 hi1
  exact pointH _ _ _ _ _ _ j _ r0 r1 r2

/-- The same through the next-message window: block `t` of `combM`. -/
theorem flushed4_eq (c : Dev nD) (t : Fin cfg6.N) :
    (dat6 V c).flushed 4 t = ((cfg6.win 4).blk t).view.read (Elt Ideal) (combM (V c main_v78) (V c main_v22) (V c main_v0)) := by
  show (cfg6.win 4).cut (grid6.coords t) ((dat6 V c).after 4 t) = _
  rw [after6_4]
  unfold out6_4
  rw [View.canon_unit_zero hz]
  simp only [View.ld_unit_zero (S := S4000x64) hz, View.ld_unit_zero (S := S4000x2) hz]
  obtain ⟨-, -, -, -, -, -, -, -, f0, f1⟩ := idx_facts t
  funext j
  have hi0 : ((((cfg6.win 4).blk t).view.emb j) 0).val = t.val * 4000 + (j 0).val := by
    show win6_4.index t (0 : Fin 2) * 4000 + 1 * (j 0).val = _; omega
  have hi1 : ((((cfg6.win 4).blk t).view.emb j) 1).val = (j 1).val := by
    show win6_4.index t (1 : Fin 2) * 64 + 1 * (j 1).val = _; omega
  obtain ⟨r0, r1, r2⟩ := reads V 1 (Or.inr rfl) c t j _ hi0 hi1
  obtain ⟨-, r1', -⟩ := reads V 0 (Or.inl rfl) c t j _ hi0 hi1
  exact pointM _ _ _ _ _ _ j _ r0 r1 r1' r2

/-- An index of an output array is in point `t`'s block iff its row is among the block's 4000 rows. -/
theorem mem_blk3 (t : Fin cfg6.N) (i : SN64.Idx) :
    i ∈ ((cfg6.win 3).blk t).view.set ↔ ∀ a : Fin 2, win6_3.index t a * S4000x64.size a ≤ (i a).val ∧ (i a).val < win6_3.index t a * S4000x64.size a + S4000x64.size a := by
  show i ∈ ((View.whole main_v79_0).slice (win6_3.rect t)).set ↔ _
  rw [View.set_slice_whole, Rect.mem_set_unit]
  exact Iff.rfl
theorem mem_blk4 (t : Fin cfg6.N) (i : SN64.Idx) :
    i ∈ ((cfg6.win 4).blk t).view.set ↔ ∀ a : Fin 2, win6_4.index t a * S4000x64.size a ≤ (i a).val ∧ (i a).val < win6_4.index t a * S4000x64.size a + S4000x64.size a := by
  show i ∈ ((View.whole main_v79_1).slice (win6_4.rect t)).set ↔ _
  rw [View.set_slice_whole, Rect.mem_set_unit]
  exact Iff.rfl

/-- Every row lies in the block of the point `row / 4000`. -/
theorem cover3 (i : SN64.Idx) : ∃ t : Fin cfg6.N, (cfg6.win 3).flush t = true ∧ i ∈ ((cfg6.win 3).blk t).view.set := by
  have hi0 : (i 0).val < 100000 := (i 0).isLt
  have hi1 : (i 1).val < 64 := (i 1).isLt
  have hN : cfg6.N = 25 := N_6
  refine ⟨⟨(i 0).val / 4000, by rw [hN]; omega⟩, flush6_3 _, ?_⟩
  rw [mem_blk3]
  obtain ⟨-, -, -, -, -, -, f0, f1, -⟩ := idx_facts ⟨(i 0).val / 4000, by rw [hN]; omega⟩
  intro a
  match a with
  | ⟨0, _⟩ => show win6_3.index _ (0 : Fin 2) * 4000 ≤ (i 0).val ∧ (i 0).val < win6_3.index _ (0 : Fin 2) * 4000 + 4000; rw [f0]; show (i 0).val / 4000 * 4000 ≤ _ ∧ _ < (i 0).val / 4000 * 4000 + 4000; omega
  | ⟨1, _⟩ => show win6_3.index _ (1 : Fin 2) * 64 ≤ (i 1).val ∧ (i 1).val < win6_3.index _ (1 : Fin 2) * 64 + 64; rw [f1]; omega
theorem cover4 (i : SN64.Idx) : ∃ t : Fin cfg6.N, (cfg6.win 4).flush t = true ∧ i ∈ ((cfg6.win 4).blk t).view.set := by
  have hi0 : (i 0).val < 100000 := (i 0).isLt
  have hi1 : (i 1).val < 64 := (i 1).isLt
  have hN : cfg6.N = 25 := N_6
  refine ⟨⟨(i 0).val / 4000, by rw [hN]; omega⟩, flush6_4 _, ?_⟩
  rw [mem_blk4]
  obtain ⟨-, -, -, -, -, -, -, -, f0, f1⟩ := idx_facts ⟨(i 0).val / 4000, by rw [hN]; omega⟩
  intro a
  match a with
  | ⟨0, _⟩ => show win6_4.index _ (0 : Fin 2) * 4000 ≤ (i 0).val ∧ (i 0).val < win6_4.index _ (0 : Fin 2) * 4000 + 4000; rw [f0]; show (i 0).val / 4000 * 4000 ≤ _ ∧ _ < (i 0).val / 4000 * 4000 + 4000; omega
  | ⟨1, _⟩ => show win6_4.index _ (1 : Fin 2) * 64 ≤ (i 1).val ∧ (i 1).val < win6_4.index _ (1 : Fin 2) * 64 + 64; rw [f1]; omega

/-- After the region the new-features array is `combH` of the three input arrays as the region found them. -/
theorem final3 (c : Dev nD) : (dat6 V c).arrAt 3 cfg6.N = combH (V c main_v78) (V c main_v22) (V c main_v0) :=
  (dat6 V c).arrAt_eq_of_cover 3 _ (fun t _ => flushed3_eq V c t) cover3
/-- And the next-message array is `combM` of them. -/
theorem final4 (c : Dev nD) : (dat6 V c).arrAt 4 cfg6.N = combM (V c main_v78) (V c main_v22) (V c main_v0) :=
  (dat6 V c).arrAt_eq_of_cover 4 _ (fun t _ => flushed4_eq V c t) cover4

end Cert.KernelIdeal.Comb6

end
-- ==== Proof.KStep6.lean ====
/-
  The kernel program's buffers across one propagation step: the host operations before region 6 aggregate the current
  message along the edges; region 6 combines the aggregate with the factor table and the projection into the new
  features and the next message. The edge lists, the factor table and the projection pass through unchanged.
-/
import proofs.«144990_j83459804496278_1_alg».proof.Proof.Gen.KernelIdeal.Frame
import proofs.«144990_j83459804496278_1_alg».proof.Proof.Comb6
import proofs.«144990_j83459804496278_1_alg».proof.Proof.KDefs
import Idealize.ShloMosaic.Lib.StableHlo.Run

set_option maxRecDepth 16384

noncomputable section

namespace Cert.KernelIdeal.KStep6

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The host operations before region 6, from any contents: the aggregate of the message along the edges; the edge
    lists, the factor table and the projection kept. -/
theorem host (Wp : Valuation τ sig (Elt Ideal)) :
    StableHlo.after (hostOps6 (F := Ideal)) Wp (Proc.devRef .tc main_arg3) = Wp (Proc.devRef .tc main_arg3)
    ∧ StableHlo.after (hostOps6 (F := Ideal)) Wp (Proc.devRef .tc main_arg4) = Wp (Proc.devRef .tc main_arg4)
    ∧ StableHlo.after (hostOps6 (F := Ideal)) Wp (Proc.devRef .tc main_v22) = Wp (Proc.devRef .tc main_v22)
    ∧ StableHlo.after (hostOps6 (F := Ideal)) Wp (Proc.devRef .tc main_v0) = Wp (Proc.devRef .tc main_v0)
    ∧ StableHlo.after (hostOps6 (F := Ideal)) Wp (Proc.devRef .tc main_v78) = agg (Wp (Proc.devRef .tc main_v68_1)) (Wp (Proc.devRef .tc main_arg3)) (Wp (Proc.devRef .tc main_arg4)) := by
  refine ⟨?_, ?_, ?_, ?_, ?_⟩ <;> (dsimp only [hostOps6]; after_results_simp) <;> rfl

/-- The buffers at the end of region 6, from what they hold at the end of the region before. -/
theorem step (c : Dev nD) (x3 x4 : (⟨S1600000, .i32⟩ : BufTy).Contents (Elt Ideal)) (nrm : SN2.Idx → EReal) (h0 msg : SN64.Idx → EReal)
    (h3 : W15 m ρ c (Proc.devRef .tc main_arg3) = x3) (h4 : W15 m ρ c (Proc.devRef .tc main_arg4) = x4)
    (hn : W15 m ρ c (Proc.devRef .tc main_v22) = nrm) (hh : W15 m ρ c (Proc.devRef .tc main_v0) = h0)
    (hm : W15 m ρ c (Proc.devRef .tc main_v68_1) = msg) :
    W17 m ρ c (Proc.devRef .tc main_arg3) = x3 ∧ W17 m ρ c (Proc.devRef .tc main_arg4) = x4
    ∧ W17 m ρ c (Proc.devRef .tc main_v22) = nrm ∧ W17 m ρ c (Proc.devRef .tc main_v0) = h0
    ∧ W17 m ρ c (Proc.devRef .tc main_v79_0) = combH (agg msg x3 x4) nrm h0
    ∧ W17 m ρ c (Proc.devRef .tc main_v79_1) = combM (agg msg x3 x4) nrm h0 := by
  obtain ⟨g3, g4, gn, gh, ga⟩ := host (W15 m ρ c)
  have e3 : W16 m ρ c (Proc.devRef .tc main_arg3) = x3 := g3.trans h3
  have e4 : W16 m ρ c (Proc.devRef .tc main_arg4) = x4 := g4.trans h4
  have en : W16 m ρ c (Proc.devRef .tc main_v22) = nrm := gn.trans hn
  have eh : W16 m ρ c (Proc.devRef .tc main_v0) = h0 := gh.trans hh
  have ea : W16 m ρ c (Proc.devRef .tc main_v78) = agg msg x3 x4 := by
    rw [← hm, ← h3, ← h4]; exact ga
  refine ⟨(W17_of_ne m ρ c main_arg3 (by decide)).trans e3, (W17_of_ne m ρ c main_arg4 (by decide)).trans e4,
    ((W17_arr m ρ c 1).trans (((dat6 (V16 m ρ) c).arrAt_in 1 rfl _).trans (A_eq6 (V16 m ρ) c 1))).trans en,
    ((W17_arr m ρ c 2).trans (((dat6 (V16 m ρ) c).arrAt_in 2 rfl _).trans (A_eq6 (V16 m ρ) c 2))).trans eh, ?_, ?_⟩
  · refine (W17_arr m ρ c 3).trans ((Comb6.final3 (V16 m ρ) c).trans ?_)
    show combH (W16 m ρ c (Proc.devRef .tc main_v78)) (W16 m ρ c (Proc.devRef .tc main_v22)) (W16 m ρ c (Proc.devRef .tc main_v0)) = _
    rw [ea, en, eh]
  · refine (W17_arr m ρ c 4).trans ((Comb6.final4 (V16 m ρ) c).trans ?_)
    show combM (W16 m ρ c (Proc.devRef .tc main_v78)) (W16 m ρ c (Proc.devRef .tc main_v22)) (W16 m ρ c (Proc.devRef .tc main_v0)) = _
    rw [ea, en, eh]

end Cert.KernelIdeal.KStep6

end
-- ==== Proof.Comb7.lean ====
/-
  Region 7 of the kernel's program is one propagation step's dense half, tiled over the nodes: at grid point `t` it
  reads rows 4000·t … 4000·t + 3999 of the aggregated messages, of the two-column factor table and of the projected
  features, and writes the same rows of the new features `(0.9 · agg) · nd + 0.1 · h0` and of the next message (the new
  features times the source factor). The 25 row blocks tile the 100000 rows, so after the region each output array is one
  function of the three input arrays as the region found them: `Cert.Appnp.combH` and `Cert.Appnp.combM`.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Comb7

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Column `k` of `j`'s row in a block of the factor table. -/
abbrev jcol (j : S4000x64.Idx) (k : Fin 2) : S4000x2.Idx := fun a => match a with
  | ⟨0, _⟩ => ⟨(j 0).val, (j 0).isLt⟩
  | ⟨1, _⟩ => ⟨k.val, k.isLt⟩

/-- The keepdims column of a block's factor table, broadcast along the 64 lanes, read at an index: the column's entry of
    the index's row. -/
theorem bcol (k : Fin 2) (off : Fin 2 → Nat) (hoff : off = ![0, k.val]) (h : S4000x2.Slices off S4000x1) (x1 : Vec Ideal S4000x2 .f32) (j : S4000x64.Idx) :
    broadcastTo S4000x64 (extractStridedSlice S4000x1 off x1 h) broadcasts_S4000x1_S4000x64 j = x1 (jcol j k) := by
  subst hoff
  rw [broadcastTo_apply _ broadcasts_S4000x1_S4000x64 j (fun a => match a with
    | ⟨0, _⟩ => ⟨(j 0).val, (j 0).isLt⟩
    | ⟨1, _⟩ => ⟨0, Nat.one_pos⟩) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]
  exact extractStridedSlice_apply _ x1 h _ (jcol j k) (fun a => match a with
    | ⟨0, _⟩ => by show (j 0).val = 0 + (j 0).val; omega
    | ⟨1, _⟩ => by show k.val = k.val + 0; omega)

/-- The new-features payload at an index of the block. -/
theorem payH (x0 : Vec Ideal S4000x64 .f32) (x1 : Vec Ideal S4000x2 .f32) (x2 : Vec Ideal S4000x64 .f32) (j : S4000x64.Idx) :
    k7_pay2 x0 x1 x2 j = c9 * x0 j * x1 (jcol j 1) + c1 * x2 j := by
  unfold k7_pay2 k7_pay1
  simp only [shapeCast_self]
  show Ideal.ofBits .f32 0x3F666666#32 * x0 j * broadcastTo S4000x64 (extractStridedSlice S4000x1 ![0, 1] x1 slices_S4000x2_o0_1_S4000x1) broadcasts_S4000x1_S4000x64 j + Ideal.ofBits .f32 0x3DCCCCCD#32 * x2 j = _
  rw [bcol 1 ![0, 1] rfl]

/-- The next-message payload at an index of the block. -/
theorem payM (x0 : Vec Ideal S4000x64 .f32) (x1 : Vec Ideal S4000x2 .f32) (x2 : Vec Ideal S4000x64 .f32) (j : S4000x64.Idx) :
    k7_pay3 x0 x1 x2 j = (c9 * x0 j * x1 (jcol j 1) + c1 * x2 j) * x1 (jcol j 0) := by
  unfold k7_pay3
  show k7_pay2 x0 x1 x2 j * broadcastTo S4000x64 (extractStridedSlice S4000x1 ![0, 0] (k7_pay1 x1) slices_S4000x2_o0_0_S4000x1) broadcasts_S4000x1_S4000x64 j = _
  unfold k7_pay1
  simp only [shapeCast_self]
  rw [payH, bcol 0 ![0, 0] rfl]

/-- Both payloads at a block index `j` that sits at the array index `i`, from the three reads at those indices. -/
theorem pointH (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e2 : x2 j = h0 i) :
    k7_pay2 x0 x1 x2 j = combH agg nrm h0 i := by
  rw [payH, e0, e1, e2]; rfl
theorem pointM (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e1' : x1 (jcol j 0) = nrm (rowcol i 0)) (e2 : x2 j = h0 i) :
    k7_pay3 x0 x1 x2 j = combM agg nrm h0 i := by
  rw [payM, e0, e1, e1', e2]; rfl

/-- The printed index maps over the grid: every window's block row is the point, its block column 0. -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- The three input blocks at point `t`, read at a block index, are the arrays at the output block's array index. -/
theorem reads (w : Fin 2) (hw : w = 0 ∨ w = 1) (c : Dev nD) (t : Fin cfg7.N) (j : S4000x64.Idx) (i : SN64.Idx)
    (hi0 : (i 0).val = t.val * 4000 + (j 0).val) (hi1 : (i 1).val = (j 1).val) :
    iblk7 V c 0 t j = V c main_v89 i ∧ iblk7 V c 1 t (jcol j w) = V c main_v22 (rowcol i w) ∧ iblk7 V c 2 t j = V c main_v0 i := by
  obtain ⟨a0, a1, b0, b1, d0, d1, -⟩ := idx_facts t
  refine ⟨?_, ?_, ?_⟩
  · show V c main_v89 (((cfg7.win 0).blk t).view.emb j) = V c main_v89 i
    refine congrArg _ (funext fun a => Fin.ext ?_)
    match a with
    | ⟨0, _⟩ => show win7_0.index t (0 : Fin 2) * 4000 + 1 * (j 0).val = (i 0).val; omega
    | ⟨1, _⟩ => show win7_0.index t (1 : Fin 2) * 64 + 1 * (j 1).val = (i 1).val; omega
  · show V c main_v22 (((cfg7.win 1).blk t).view.emb (jcol j w)) = V c main_v22 (rowcol i w)
    refine congrArg _ (funext fun a => Fin.ext ?_)
    match a with
    | ⟨0, _⟩ => show win7_1.index t (0 : Fin 2) * 4000 + 1 * (j 0).val = (i 0).val; omega
    | ⟨1, _⟩ => show win7_1.index t (1 : Fin 2) * 2 + 1 * w.val = w.val; omega
  · show V c main_v0 (((cfg7.win 2).blk t).view.emb j) = V c main_v0 i
    refine congrArg _ (funext fun a => Fin.ext ?_)
    match a with
    | ⟨0, _⟩ => show win7_2.index t (0 : Fin 2) * 4000 + 1 * (j 0).val = (i 0).val; omega
    | ⟨1, _⟩ => show win7_2.index t (1 : Fin 2) * 64 + 1 * (j 1).val = (i 1).val; omega

/-- What point `t` writes back through the new-features window is block `t` of `combH` of the arrays as found. -/
theorem flushed3_eq (c : Dev nD) (t : Fin cfg7.N) :
    (dat7 V c).flushed 3 t = ((cfg7.win 3).blk t).view.read (Elt Ideal) (combH (V c main_v89) (V c main_v22) (V c main_v0)) := by
  show (cfg7.win 3).cut (grid7.coords t) ((dat7 V c).after 3 t) = _
  rw [after7_3]
  unfold out7_3
  rw [View.canon_unit_zero hz]
  simp only [View.ld_unit_zero (S := S4000x64) hz, View.ld_unit_zero (S := S4000x2) hz]
  obtain ⟨-, -, -, -, -, -, f0, f1, -⟩ := idx_facts t
  funext j
  have hi0 : ((((cfg7.win 3).blk t).view.emb j) 0).val = t.val * 4000 + (j 0).val := by
    show win7_3.index t (0 : Fin 2) * 4000 + 1 * (j 0).val = _; omega
  have hi1 : ((((cfg7.win 3).blk t).view.emb j) 1).val = (j 1).val := by
    show win7_3.index t (1 : Fin 2) * 64 + 1 * (j 1).val = _; omega
  obtain ⟨r0, r1, r2⟩ := reads V 1 (Or.inr rfl) c t j _ hi0 hi1
  exact pointH _ _ _ _ _ _ j _ r0 r1 r2

/-- The same through the next-message window: block `t` of `combM`. -/
theorem flushed4_eq (c : Dev nD) (t : Fin cfg7.N) :
    (dat7 V c).flushed 4 t = ((cfg7.win 4).blk t).view.read (Elt Ideal) (combM (V c main_v89) (V c main_v22) (V c main_v0)) := by
  show (cfg7.win 4).cut (grid7.coords t) ((dat7 V c).after 4 t) = _
  rw [after7_4]
  unfold out7_4
  rw [View.canon_unit_zero hz]
  simp only [View.ld_unit_zero (S := S4000x64) hz, View.ld_unit_zero (S := S4000x2) hz]
  obtain ⟨-, -, -, -, -, -, -, -, f0, f1⟩ := idx_facts t
  funext j
  have hi0 : ((((cfg7.win 4).blk t).view.emb j) 0).val = t.val * 4000 + (j 0).val := by
    show win7_4.index t (0 : Fin 2) * 4000 + 1 * (j 0).val = _; omega
  have hi1 : ((((cfg7.win 4).blk t).view.emb j) 1).val = (j 1).val := by
    show win7_4.index t (1 : Fin 2) * 64 + 1 * (j 1).val = _; omega
  obtain ⟨r0, r1, r2⟩ := reads V 1 (Or.inr rfl) c t j _ hi0 hi1
  obtain ⟨-, r1', -⟩ := reads V 0 (Or.inl rfl) c t j _ hi0 hi1
  exact pointM _ _ _ _ _ _ j _ r0 r1 r1' r2

/-- An index of an output array is in point `t`'s block iff its row is among the block's 4000 rows. -/
theorem mem_blk3 (t : Fin cfg7.N) (i : SN64.Idx) :
    i ∈ ((cfg7.win 3).blk t).view.set ↔ ∀ a : Fin 2, win7_3.index t a * S4000x64.size a ≤ (i a).val ∧ (i a).val < win7_3.index t a * S4000x64.size a + S4000x64.size a := by
  show i ∈ ((View.whole main_v90_0).slice (win7_3.rect t)).set ↔ _
  rw [View.set_slice_whole, Rect.mem_set_unit]
  exact Iff.rfl
theorem mem_blk4 (t : Fin cfg7.N) (i : SN64.Idx) :
    i ∈ ((cfg7.win 4).blk t).view.set ↔ ∀ a : Fin 2, win7_4.index t a * S4000x64.size a ≤ (i a).val ∧ (i a).val < win7_4.index t a * S4000x64.size a + S4000x64.size a := by
  show i ∈ ((View.whole main_v90_1).slice (win7_4.rect t)).set ↔ _
  rw [View.set_slice_whole, Rect.mem_set_unit]
  exact Iff.rfl

/-- Every row lies in the block of the point `row / 4000`. -/
theorem cover3 (i : SN64.Idx) : ∃ t : Fin cfg7.N, (cfg7.win 3).flush t = true ∧ i ∈ ((cfg7.win 3).blk t).view.set := by
  have hi0 : (i 0).val < 100000 := (i 0).isLt
  have hi1 : (i 1).val < 64 := (i 1).isLt
  have hN : cfg7.N = 25 := N_7
  refine ⟨⟨(i 0).val / 4000, by rw [hN]; omega⟩, flush7_3 _, ?_⟩
  rw [mem_blk3]
  obtain ⟨-, -, -, -, -, -, f0, f1, -⟩ := idx_facts ⟨(i 0).val / 4000, by rw [hN]; omega⟩
  intro a
  match a with
  | ⟨0, _⟩ => show win7_3.index _ (0 : Fin 2) * 4000 ≤ (i 0).val ∧ (i 0).val < win7_3.index _ (0 : Fin 2) * 4000 + 4000; rw [f0]; show (i 0).val / 4000 * 4000 ≤ _ ∧ _ < (i 0).val / 4000 * 4000 + 4000; omega
  | ⟨1, _⟩ => show win7_3.index _ (1 : Fin 2) * 64 ≤ (i 1).val ∧ (i 1).val < win7_3.index _ (1 : Fin 2) * 64 + 64; rw [f1]; omega
theorem cover4 (i : SN64.Idx) : ∃ t : Fin cfg7.N, (cfg7.win 4).flush t = true ∧ i ∈ ((cfg7.win 4).blk t).view.set := by
  have hi0 : (i 0).val < 100000 := (i 0).isLt
  have hi1 : (i 1).val < 64 := (i 1).isLt
  have hN : cfg7.N = 25 := N_7
  refine ⟨⟨(i 0).val / 4000, by rw [hN]; omega⟩, flush7_4 _, ?_⟩
  rw [mem_blk4]
  obtain ⟨-, -, -, -, -, -, -, -, f0, f1⟩ := idx_facts ⟨(i 0).val / 4000, by rw [hN]; omega⟩
  intro a
  match a with
  | ⟨0, _⟩ => show win7_4.index _ (0 : Fin 2) * 4000 ≤ (i 0).val ∧ (i 0).val < win7_4.index _ (0 : Fin 2) * 4000 + 4000; rw [f0]; show (i 0).val / 4000 * 4000 ≤ _ ∧ _ < (i 0).val / 4000 * 4000 + 4000; omega
  | ⟨1, _⟩ => show win7_4.index _ (1 : Fin 2) * 64 ≤ (i 1).val ∧ (i 1).val < win7_4.index _ (1 : Fin 2) * 64 + 64; rw [f1]; omega

/-- After the region the new-features array is `combH` of the three input arrays as the region found them. -/
theorem final3 (c : Dev nD) : (dat7 V c).arrAt 3 cfg7.N = combH (V c main_v89) (V c main_v22) (V c main_v0) :=
  (dat7 V c).arrAt_eq_of_cover 3 _ (fun t _ => flushed3_eq V c t) cover3
/-- And the next-message array is `combM` of them. -/
theorem final4 (c : Dev nD) : (dat7 V c).arrAt 4 cfg7.N = combM (V c main_v89) (V c main_v22) (V c main_v0) :=
  (dat7 V c).arrAt_eq_of_cover 4 _ (fun t _ => flushed4_eq V c t) cover4

end Cert.KernelIdeal.Comb7

end
-- ==== Proof.KStep7.lean ====
/-
  The kernel program's buffers across one propagation step: the host operations before region 7 aggregate the current
  message along the edges; region 7 combines the aggregate with the factor table and the projection into the new
  features and the next message. The edge lists, the factor table and the projection pass through unchanged.
-/
import proofs.«144990_j83459804496278_1_alg».proof.Proof.Gen.KernelIdeal.Frame
import proofs.«144990_j83459804496278_1_alg».proof.Proof.Comb7
import proofs.«144990_j83459804496278_1_alg».proof.Proof.KDefs
import Idealize.ShloMosaic.Lib.StableHlo.Run

set_option maxRecDepth 16384

noncomputable section

namespace Cert.KernelIdeal.KStep7

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The host operations before region 7, from any contents: the aggregate of the message along the edges; the edge
    lists, the factor table and the projection kept. -/
theorem host (Wp : Valuation τ sig (Elt Ideal)) :
    StableHlo.after (hostOps7 (F := Ideal)) Wp (Proc.devRef .tc main_arg3) = Wp (Proc.devRef .tc main_arg3)
    ∧ StableHlo.after (hostOps7 (F := Ideal)) Wp (Proc.devRef .tc main_arg4) = Wp (Proc.devRef .tc main_arg4)
    ∧ StableHlo.after (hostOps7 (F := Ideal)) Wp (Proc.devRef .tc main_v22) = Wp (Proc.devRef .tc main_v22)
    ∧ StableHlo.after (hostOps7 (F := Ideal)) Wp (Proc.devRef .tc main_v0) = Wp (Proc.devRef .tc main_v0)
    ∧ StableHlo.after (hostOps7 (F := Ideal)) Wp (Proc.devRef .tc main_v89) = agg (Wp (Proc.devRef .tc main_v79_1)) (Wp (Proc.devRef .tc main_arg3)) (Wp (Proc.devRef .tc main_arg4)) := by
  refine ⟨?_, ?_, ?_, ?_, ?_⟩ <;> (dsimp only [hostOps7]; after_results_simp) <;> rfl

/-- The buffers at the end of region 7, from what they hold at the end of the region before. -/
theorem step (c : Dev nD) (x3 x4 : (⟨S1600000, .i32⟩ : BufTy).Contents (Elt Ideal)) (nrm : SN2.Idx → EReal) (h0 msg : SN64.Idx → EReal)
    (h3 : W17 m ρ c (Proc.devRef .tc main_arg3) = x3) (h4 : W17 m ρ c (Proc.devRef .tc main_arg4) = x4)
    (hn : W17 m ρ c (Proc.devRef .tc main_v22) = nrm) (hh : W17 m ρ c (Proc.devRef .tc main_v0) = h0)
    (hm : W17 m ρ c (Proc.devRef .tc main_v79_1) = msg) :
    W19 m ρ c (Proc.devRef .tc main_arg3) = x3 ∧ W19 m ρ c (Proc.devRef .tc main_arg4) = x4
    ∧ W19 m ρ c (Proc.devRef .tc main_v22) = nrm ∧ W19 m ρ c (Proc.devRef .tc main_v0) = h0
    ∧ W19 m ρ c (Proc.devRef .tc main_v90_0) = combH (agg msg x3 x4) nrm h0
    ∧ W19 m ρ c (Proc.devRef .tc main_v90_1) = combM (agg msg x3 x4) nrm h0 := by
  obtain ⟨g3, g4, gn, gh, ga⟩ := host (W17 m ρ c)
  have e3 : W18 m ρ c (Proc.devRef .tc main_arg3) = x3 := g3.trans h3
  have e4 : W18 m ρ c (Proc.devRef .tc main_arg4) = x4 := g4.trans h4
  have en : W18 m ρ c (Proc.devRef .tc main_v22) = nrm := gn.trans hn
  have eh : W18 m ρ c (Proc.devRef .tc main_v0) = h0 := gh.trans hh
  have ea : W18 m ρ c (Proc.devRef .tc main_v89) = agg msg x3 x4 := by
    rw [← hm, ← h3, ← h4]; exact ga
  refine ⟨(W19_of_ne m ρ c main_arg3 (by decide)).trans e3, (W19_of_ne m ρ c main_arg4 (by decide)).trans e4,
    ((W19_arr m ρ c 1).trans (((dat7 (V18 m ρ) c).arrAt_in 1 rfl _).trans (A_eq7 (V18 m ρ) c 1))).trans en,
    ((W19_arr m ρ c 2).trans (((dat7 (V18 m ρ) c).arrAt_in 2 rfl _).trans (A_eq7 (V18 m ρ) c 2))).trans eh, ?_, ?_⟩
  · refine (W19_arr m ρ c 3).trans ((Comb7.final3 (V18 m ρ) c).trans ?_)
    show combH (W18 m ρ c (Proc.devRef .tc main_v89)) (W18 m ρ c (Proc.devRef .tc main_v22)) (W18 m ρ c (Proc.devRef .tc main_v0)) = _
    rw [ea, en, eh]
  · refine (W19_arr m ρ c 4).trans ((Comb7.final4 (V18 m ρ) c).trans ?_)
    show combM (W18 m ρ c (Proc.devRef .tc main_v89)) (W18 m ρ c (Proc.devRef .tc main_v22)) (W18 m ρ c (Proc.devRef .tc main_v0)) = _
    rw [ea, en, eh]

end Cert.KernelIdeal.KStep7

end
-- ==== Proof.Comb8.lean ====
/-
  Region 8 of the kernel's program is one propagation step's dense half, tiled over the nodes: at grid point `t` it
  reads rows 4000·t … 4000·t + 3999 of the aggregated messages, of the two-column factor table and of the projected
  features, and writes the same rows of the new features `(0.9 · agg) · nd + 0.1 · h0` and of the next message (the new
  features times the source factor). The 25 row blocks tile the 100000 rows, so after the region each output array is one
  function of the three input arrays as the region found them: `Cert.Appnp.combH` and `Cert.Appnp.combM`.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Comb8

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Column `k` of `j`'s row in a block of the factor table. -/
abbrev jcol (j : S4000x64.Idx) (k : Fin 2) : S4000x2.Idx := fun a => match a with
  | ⟨0, _⟩ => ⟨(j 0).val, (j 0).isLt⟩
  | ⟨1, _⟩ => ⟨k.val, k.isLt⟩

/-- The keepdims column of a block's factor table, broadcast along the 64 lanes, read at an index: the column's entry of
    the index's row. -/
theorem bcol (k : Fin 2) (off : Fin 2 → Nat) (hoff : off = ![0, k.val]) (h : S4000x2.Slices off S4000x1) (x1 : Vec Ideal S4000x2 .f32) (j : S4000x64.Idx) :
    broadcastTo S4000x64 (extractStridedSlice S4000x1 off x1 h) broadcasts_S4000x1_S4000x64 j = x1 (jcol j k) := by
  subst hoff
  rw [broadcastTo_apply _ broadcasts_S4000x1_S4000x64 j (fun a => match a with
    | ⟨0, _⟩ => ⟨(j 0).val, (j 0).isLt⟩
    | ⟨1, _⟩ => ⟨0, Nat.one_pos⟩) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]
  exact extractStridedSlice_apply _ x1 h _ (jcol j k) (fun a => match a with
    | ⟨0, _⟩ => by show (j 0).val = 0 + (j 0).val; omega
    | ⟨1, _⟩ => by show k.val = k.val + 0; omega)

/-- The new-features payload at an index of the block. -/
theorem payH (x0 : Vec Ideal S4000x64 .f32) (x1 : Vec Ideal S4000x2 .f32) (x2 : Vec Ideal S4000x64 .f32) (j : S4000x64.Idx) :
    k8_pay2 x0 x1 x2 j = c9 * x0 j * x1 (jcol j 1) + c1 * x2 j := by
  unfold k8_pay2 k8_pay1
  simp only [shapeCast_self]
  show Ideal.ofBits .f32 0x3F666666#32 * x0 j * broadcastTo S4000x64 (extractStridedSlice S4000x1 ![0, 1] x1 slices_S4000x2_o0_1_S4000x1) broadcasts_S4000x1_S4000x64 j + Ideal.ofBits .f32 0x3DCCCCCD#32 * x2 j = _
  rw [bcol 1 ![0, 1] rfl]

/-- The next-message payload at an index of the block. -/
theorem payM (x0 : Vec Ideal S4000x64 .f32) (x1 : Vec Ideal S4000x2 .f32) (x2 : Vec Ideal S4000x64 .f32) (j : S4000x64.Idx) :
    k8_pay3 x0 x1 x2 j = (c9 * x0 j * x1 (jcol j 1) + c1 * x2 j) * x1 (jcol j 0) := by
  unfold k8_pay3
  show k8_pay2 x0 x1 x2 j * broadcastTo S4000x64 (extractStridedSlice S4000x1 ![0, 0] (k8_pay1 x1) slices_S4000x2_o0_0_S4000x1) broadcasts_S4000x1_S4000x64 j = _
  unfold k8_pay1
  simp only [shapeCast_self]
  rw [payH, bcol 0 ![0, 0] rfl]

/-- Both payloads at a block index `j` that sits at the array index `i`, from the three reads at those indices. -/
theorem pointH (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e2 : x2 j = h0 i) :
    k8_pay2 x0 x1 x2 j = combH agg nrm h0 i := by
  rw [payH, e0, e1, e2]; rfl
theorem pointM (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e1' : x1 (jcol j 0) = nrm (rowcol i 0)) (e2 : x2 j = h0 i) :
    k8_pay3 x0 x1 x2 j = combM agg nrm h0 i := by
  rw [payM, e0, e1, e1', e2]; rfl

/-- The printed index maps over the grid: every window's block row is the point, its block column 0. -/
theorem idx_facts : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- The three input blocks at point `t`, read at a block index, are the arrays at the output block's array index. -/
theorem reads (w : Fin 2) (hw : w = 0 ∨ w = 1) (c : Dev nD) (t : Fin cfg8.N) (j : S4000x64.Idx) (i : SN64.Idx)
    (hi0 : (i 0).val = t.val * 4000 + (j 0).val) (hi1 : (i 1).val = (j 1).val) :
    iblk8 V c 0 t j = V c main_v100 i ∧ iblk8 V c 1 t (jcol j w) = V c main_v22 (rowcol i w) ∧ iblk8 V c 2 t j = V c main_v0 i := by
  obtain ⟨a0, a1, b0, b1, d0, d1, -⟩ := idx_facts t
  refine ⟨?_, ?_, ?_⟩
  · show V c main_v100 (((cfg8.win 0).blk t).view.emb j) = V c main_v100 i
    refine congrArg _ (funext fun a => Fin.ext ?_)
    match a with
    | ⟨0, _⟩ => show win8_0.index t (0 : Fin 2) * 4000 + 1 * (j 0).val = (i 0).val; omega
    | ⟨1, _⟩ => show win8_0.index t (1 : Fin 2) * 64 + 1 * (j 1).val = (i 1).val; omega
  · show V c main_v22 (((cfg8.win 1).blk t).view.emb (jcol j w)) = V c main_v22 (rowcol i w)
    refine congrArg _ (funext fun a => Fin.ext ?_)
    match a with
    | ⟨0, _⟩ => show win8_1.index t (0 : Fin 2) * 4000 + 1 * (j 0).val = (i 0).val; omega
    | ⟨1, _⟩ => show win8_1.index t (1 : Fin 2) * 2 + 1 * w.val = w.val; omega
  · show V c main_v0 (((cfg8.win 2).blk t).view.emb j) = V c main_v0 i
    refine congrArg _ (funext fun a => Fin.ext ?_)
    match a with
    | ⟨0, _⟩ => show win8_2.index t (0 : Fin 2) * 4000 + 1 * (j 0).val = (i 0).val; omega
    | ⟨1, _⟩ => show win8_2.index t (1 : Fin 2) * 64 + 1 * (j 1).val = (i 1).val; omega

/-- What point `t` writes back through the new-features window is block `t` of `combH` of the arrays as found. -/
theorem flushed3_eq (c : Dev nD) (t : Fin cfg8.N) :
    (dat8 V c).flushed 3 t = ((cfg8.win 3).blk t).view.read (Elt Ideal) (combH (V c main_v100) (V c main_v22) (V c main_v0)) := by
  show (cfg8.win 3).cut (grid8.coords t) ((dat8 V c).after 3 t) = _
  rw [after8_3]
  unfold out8_3
  rw [View.canon_unit_zero hz]
  simp only [View.ld_unit_zero (S := S4000x64) hz, View.ld_unit_zero (S := S4000x2) hz]
  obtain ⟨-, -, -, -, -, -, f0, f1, -⟩ := idx_facts t
  funext j
  have hi0 : ((((cfg8.win 3).blk t).view.emb j) 0).val = t.val * 4000 + (j 0).val := by
    show win8_3.index t (0 : Fin 2) * 4000 + 1 * (j 0).val = _; omega
  have hi1 : ((((cfg8.win 3).blk t).view.emb j) 1).val = (j 1).val := by
    show win8_3.index t (1 : Fin 2) * 64 + 1 * (j 1).val = _; omega
  obtain ⟨r0, r1, r2⟩ := reads V 1 (Or.inr rfl) c t j _ hi0 hi1
  exact pointH _ _ _ _ _ _ j _ r0 r1 r2

/-- The same through the next-message window: block `t` of `combM`. -/
theorem flushed4_eq (c : Dev nD) (t : Fin cfg8.N) :
    (dat8 V c).flushed 4 t = ((cfg8.win 4).blk t).view.read (Elt Ideal) (combM (V c main_v100) (V c main_v22) (V c main_v0)) := by
  show (cfg8.win 4).cut (grid8.coords t) ((dat8 V c).after 4 t) = _
  rw [after8_4]
  unfold out8_4
  rw [View.canon_unit_zero hz]
  simp only [View.ld_unit_zero (S := S4000x64) hz, View.ld_unit_zero (S := S4000x2) hz]
  obtain ⟨-, -, -, -, -, -, -, -, f0, f1⟩ := idx_facts t
  funext j
  have hi0 : ((((cfg8.win 4).blk t).view.emb j) 0).val = t.val * 4000 + (j 0).val := by
    show win8_4.index t (0 : Fin 2) * 4000 + 1 * (j 0).val = _; omega
  have hi1 : ((((cfg8.win 4).blk t).view.emb j) 1).val = (j 1).val := by
    show win8_4.index t (1 : Fin 2) * 64 + 1 * (j 1).val = _; omega
  obtain ⟨r0, r1, r2⟩ := reads V 1 (Or.inr rfl) c t j _ hi0 hi1
  obtain ⟨-, r1', -⟩ := reads V 0 (Or.inl rfl) c t j _ hi0 hi1
  exact pointM _ _ _ _ _ _ j _ r0 r1 r1' r2

/-- An index of an output array is in point `t`'s block iff its row is among the block's 4000 rows. -/
theorem mem_blk3 (t : Fin cfg8.N) (i : SN64.Idx) :
    i ∈ ((cfg8.win 3).blk t).view.set ↔ ∀ a : Fin 2, win8_3.index t a * S4000x64.size a ≤ (i a).val ∧ (i a).val < win8_3.index t a * S4000x64.size a + S4000x64.size a := by
  show i ∈ ((View.whole main_v101_0).slice (win8_3.rect t)).set ↔ _
  rw [View.set_slice_whole, Rect.mem_set_unit]
  exact Iff.rfl
theorem mem_blk4 (t : Fin cfg8.N) (i : SN64.Idx) :
    i ∈ ((cfg8.win 4).blk t).view.set ↔ ∀ a : Fin 2, win8_4.index t a * S4000x64.size a ≤ (i a).val ∧ (i a).val < win8_4.index t a * S4000x64.size a + S4000x64.size a := by
  show i ∈ ((View.whole main_v101_1).slice (win8_4.rect t)).set ↔ _
  rw [View.set_slice_whole, Rect.mem_set_unit]
  exact Iff.rfl

/-- Every row lies in the block of the point `row / 4000`. -/
theorem cover3 (i : SN64.Idx) : ∃ t : Fin cfg8.N, (cfg8.win 3).flush t = true ∧ i ∈ ((cfg8.win 3).blk t).view.set := by
  have hi0 : (i 0).val < 100000 := (i 0).isLt
  have hi1 : (i 1).val < 64 := (i 1).isLt
  have hN : cfg8.N = 25 := N_8
  refine ⟨⟨(i 0).val / 4000, by rw [hN]; omega⟩, flush8_3 _, ?_⟩
  rw [mem_blk3]
  obtain ⟨-, -, -, -, -, -, f0, f1, -⟩ := idx_facts ⟨(i 0).val / 4000, by rw [hN]; omega⟩
  intro a
  match a with
  | ⟨0, _⟩ => show win8_3.index _ (0 : Fin 2) * 4000 ≤ (i 0).val ∧ (i 0).val < win8_3.index _ (0 : Fin 2) * 4000 + 4000; rw [f0]; show (i 0).val / 4000 * 4000 ≤ _ ∧ _ < (i 0).val / 4000 * 4000 + 4000; omega
  | ⟨1, _⟩ => show win8_3.index _ (1 : Fin 2) * 64 ≤ (i 1).val ∧ (i 1).val < win8_3.index _ (1 : Fin 2) * 64 + 64; rw [f1]; omega
theorem cover4 (i : SN64.Idx) : ∃ t : Fin cfg8.N, (cfg8.win 4).flush t = true ∧ i ∈ ((cfg8.win 4).blk t).view.set := by
  have hi0 : (i 0).val < 100000 := (i 0).isLt
  have hi1 : (i 1).val < 64 := (i 1).isLt
  have hN : cfg8.N = 25 := N_8
  refine ⟨⟨(i 0).val / 4000, by rw [hN]; omega⟩, flush8_4 _, ?_⟩
  rw [mem_blk4]
  obtain ⟨-, -, -, -, -, -, -, -, f0, f1⟩ := idx_facts ⟨(i 0).val / 4000, by rw [hN]; omega⟩
  intro a
  match a with
  | ⟨0, _⟩ => show win8_4.index _ (0 : Fin 2) * 4000 ≤ (i 0).val ∧ (i 0).val < win8_4.index _ (0 : Fin 2) * 4000 + 4000; rw [f0]; show (i 0).val / 4000 * 4000 ≤ _ ∧ _ < (i 0).val / 4000 * 4000 + 4000; omega
  | ⟨1, _⟩ => show win8_4.index _ (1 : Fin 2) * 64 ≤ (i 1).val ∧ (i 1).val < win8_4.index _ (1 : Fin 2) * 64 + 64; rw [f1]; omega

/-- After the region the new-features array is `combH` of the three input arrays as the region found them. -/
theorem final3 (c : Dev nD) : (dat8 V c).arrAt 3 cfg8.N = combH (V c main_v100) (V c main_v22) (V c main_v0) :=
  (dat8 V c).arrAt_eq_of_cover 3 _ (fun t _ => flushed3_eq V c t) cover3
/-- And the next-message array is `combM` of them. -/
theorem final4 (c : Dev nD) : (dat8 V c).arrAt 4 cfg8.N = combM (V c main_v100) (V c main_v22) (V c main_v0) :=
  (dat8 V c).arrAt_eq_of_cover 4 _ (fun t _ => flushed4_eq V c t) cover4

end Cert.KernelIdeal.Comb8

end
-- ==== Proof.KStep8.lean ====
/-
  The kernel program's buffers across one propagation step: the host operations before region 8 aggregate the current
  message along the edges; region 8 combines the aggregate with the factor table and the projection into the new
  features and the next message. The edge lists, the factor table and the projection pass through unchanged.
-/
import proofs.«144990_j83459804496278_1_alg».proof.Proof.Gen.KernelIdeal.Frame
import proofs.«144990_j83459804496278_1_alg».proof.Proof.Comb8
import proofs.«144990_j83459804496278_1_alg».proof.Proof.KDefs
import Idealize.ShloMosaic.Lib.StableHlo.Run

set_option maxRecDepth 16384

noncomputable section

namespace Cert.KernelIdeal.KStep8

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The host operations before region 8, from any contents: the aggregate of the message along the edges; the edge
    lists, the factor table and the projection kept. -/
theorem host (Wp : Valuation τ sig (Elt Ideal)) :
    StableHlo.after (hostOps8 (F := Ideal)) Wp (Proc.devRef .tc main_arg3) = Wp (Proc.devRef .tc main_arg3)
    ∧ StableHlo.after (hostOps8 (F := Ideal)) Wp (Proc.devRef .tc main_arg4) = Wp (Proc.devRef .tc main_arg4)
    ∧ StableHlo.after (hostOps8 (F := Ideal)) Wp (Proc.devRef .tc main_v22) = Wp (Proc.devRef .tc main_v22)
    ∧ StableHlo.after (hostOps8 (F := Ideal)) Wp (Proc.devRef .tc main_v0) = Wp (Proc.devRef .tc main_v0)
    ∧ StableHlo.after (hostOps8 (F := Ideal)) Wp (Proc.devRef .tc main_v100) = agg (Wp (Proc.devRef .tc main_v90_1)) (Wp (Proc.devRef .tc main_arg3)) (Wp (Proc.devRef .tc main_arg4)) := by
  refine ⟨?_, ?_, ?_, ?_, ?_⟩ <;> (dsimp only [hostOps8]; after_results_simp) <;> rfl

/-- The buffers at the end of region 8, from what they hold at the end of the region before. -/
theorem step (c : Dev nD) (x3 x4 : (⟨S1600000, .i32⟩ : BufTy).Contents (Elt Ideal)) (nrm : SN2.Idx → EReal) (h0 msg : SN64.Idx → EReal)
    (h3 : W19 m ρ c (Proc.devRef .tc main_arg3) = x3) (h4 : W19 m ρ c (Proc.devRef .tc main_arg4) = x4)
    (hn : W19 m ρ c (Proc.devRef .tc main_v22) = nrm) (hh : W19 m ρ c (Proc.devRef .tc main_v0) = h0)
    (hm : W19 m ρ c (Proc.devRef .tc main_v90_1) = msg) :
    W21 m ρ c (Proc.devRef .tc main_arg3) = x3 ∧ W21 m ρ c (Proc.devRef .tc main_arg4) = x4
    ∧ W21 m ρ c (Proc.devRef .tc main_v22) = nrm ∧ W21 m ρ c (Proc.devRef .tc main_v0) = h0
    ∧ W21 m ρ c (Proc.devRef .tc main_v101_0) = combH (agg msg x3 x4) nrm h0
    ∧ W21 m ρ c (Proc.devRef .tc main_v101_1) = combM (agg msg x3 x4) nrm h0 := by
  obtain ⟨g3, g4, gn, gh, ga⟩ := host (W19 m ρ c)
  have e3 : W20 m ρ c (Proc.devRef .tc main_arg3) = x3 := g3.trans h3
  have e4 : W20 m ρ c (Proc.devRef .tc main_arg4) = x4 := g4.trans h4
  have en : W20 m ρ c (Proc.devRef .tc main_v22) = nrm := gn.trans hn
  have eh : W20 m ρ c (Proc.devRef .tc main_v0) = h0 := gh.trans hh
  have ea : W20 m ρ c (Proc.devRef .tc main_v100) = agg msg x3 x4 := by
    rw [← hm, ← h3, ← h4]; exact ga
  refine ⟨(W21_of_ne m ρ c main_arg3 (by decide)).trans e3, (W21_of_ne m ρ c main_arg4 (by decide)).trans e4,
    ((W21_arr m ρ c 1).trans (((dat8 (V20 m ρ) c).arrAt_in 1 rfl _).trans (A_eq8 (V20 m ρ) c 1))).trans en,
    ((W21_arr m ρ c 2).trans (((dat8 (V20 m ρ) c).arrAt_in 2 rfl _).trans (A_eq8 (V20 m ρ) c 2))).trans eh, ?_, ?_⟩
  · refine (W21_arr m ρ c 3).trans ((Comb8.final3 (V20 m ρ) c).trans ?_)
    show combH (W20 m ρ c (Proc.devRef .tc main_v100)) (W20 m ρ c (Proc.devRef .tc main_v22)) (W20 m ρ c (Proc.devRef .tc main_v0)) = _
    rw [ea, en, eh]
  · refine (W21_arr m ρ c 4).trans ((Comb8.final4 (V20 m ρ) c).trans ?_)
    show combM (W20 m ρ c (Proc.devRef .tc main_v100)) (W20 m ρ c (Proc.devRef .tc main_v22)) (W20 m ρ c (Proc.devRef .tc main_v0)) = _
    rw [ea, en, eh]

end Cert.KernelIdeal.KStep8

end
-- ==== Proof.Comb9.lean ====
/-
  Region 9 of the kernel's program is one propagation step's dense half, tiled over the nodes: at grid point `t` it
  reads rows 4000·t … 4000·t + 3999 of the aggregated messages, of the two-column factor table and of the projected
  features, and writes the same rows of the new features `(0.9 · agg) · nd + 0.1 · h0` and of the next message (the new
  features times the source factor). The 25 row blocks tile the 100000 rows, so after the region each output array is one
  function of the three input arrays as the region found them: `Cert.Appnp.combH` and `Cert.Appnp.combM`.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Comb9

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Column `k` of `j`'s row in a block of the factor table. -/
abbrev jcol (j : S4000x64.Idx) (k : Fin 2) : S4000x2.Idx := fun a => match a with
  | ⟨0, _⟩ => ⟨(j 0).val, (j 0).isLt⟩
  | ⟨1, _⟩ => ⟨k.val, k.isLt⟩

/-- The keepdims column of a block's factor table, broadcast along the 64 lanes, read at an index: the column's entry of
    the index's row. -/
theorem bcol (k : Fin 2) (off : Fin 2 → Nat) (hoff : off = ![0, k.val]) (h : S4000x2.Slices off S4000x1) (x1 : Vec Ideal S4000x2 .f32) (j : S4000x64.Idx) :
    broadcastTo S4000x64 (extractStridedSlice S4000x1 off x1 h) broadcasts_S4000x1_S4000x64 j = x1 (jcol j k) := by
  subst hoff
  rw [broadcastTo_apply _ broadcasts_S4000x1_S4000x64 j (fun a => match a with
    | ⟨0, _⟩ => ⟨(j 0).val, (j 0).isLt⟩
    | ⟨1, _⟩ => ⟨0, Nat.one_pos⟩) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]
  exact extractStridedSlice_apply _ x1 h _ (jcol j k) (fun a => match a with
    | ⟨0, _⟩ => by show (j 0).val = 0 + (j 0).val; omega
    | ⟨1, _⟩ => by show k.val = k.val + 0; omega)

/-- The new-features payload at an index of the block. -/
theorem payH (x0 : Vec Ideal S4000x64 .f32) (x1 : Vec Ideal S4000x2 .f32) (x2 : Vec Ideal S4000x64 .f32) (j : S4000x64.Idx) :
    k9_pay2 x0 x1 x2 j = c9 * x0 j * x1 (jcol j 1) + c1 * x2 j := by
  unfold k9_pay2 k9_pay1
  simp only [shapeCast_self]
  show Ideal.ofBits .f32 0x3F666666#32 * x0 j * broadcastTo S4000x64 (extractStridedSlice S4000x1 ![0, 1] x1 slices_S4000x2_o0_1_S4000x1) broadcasts_S4000x1_S4000x64 j + Ideal.ofBits .f32 0x3DCCCCCD#32 * x2 j = _
  rw [bcol 1 ![0, 1] rfl]

/-- The next-message payload at an index of the block. -/
theorem payM (x0 : Vec Ideal S4000x64 .f32) (x1 : Vec Ideal S4000x2 .f32) (x2 : Vec Ideal S4000x64 .f32) (j : S4000x64.Idx) :
    k9_pay3 x0 x1 x2 j = (c9 * x0 j * x1 (jcol j 1) + c1 * x2 j) * x1 (jcol j 0) := by
  unfold k9_pay3
  show k9_pay2 x0 x1 x2 j * broadcastTo S4000x64 (extractStridedSlice S4000x1 ![0, 0] (k9_pay1 x1) slices_S4000x2_o0_0_S4000x1) broadcasts_S4000x1_S4000x64 j = _
  unfold k9_pay1
  simp only [shapeCast_self]
  rw [payH, bcol 0 ![0, 0] rfl]

/-- Both payloads at a block index `j` that sits at the array index `i`, from the three reads at those indices. -/
theorem pointH (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e2 : x2 j = h0 i) :
    k9_pay2 x0 x1 x2 j = combH agg nrm h0 i := by
  rw [payH, e0, e1, e2]; rfl
theorem pointM (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e1' : x1 (jcol j 0) = nrm (rowcol i 0)) (e2 : x2 j = h0 i) :
    k9_pay3 x0 x1 x2 j = combM agg nrm h0 i := by
  rw [payM, e0, e1, e1', e2]; rfl

/-- The printed index maps over the grid: every window's block row is the point, its block column 0. -/
theorem idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

/-- The three input blocks at point `t`, read at a block index, are the arrays at the output block's array index. -/
theorem reads (w : Fin 2) (hw : w = 0 ∨ w = 1) (c : Dev nD) (t : Fin cfg9.N) (j : S4000x64.Idx) (i : SN64.Idx)
    (hi0 : (i 0).val = t.val * 4000 + (j 0).val) (hi1 : (i 1).val = (j 1).val) :
    iblk9 V c 0 t j = V c main_v111 i ∧ iblk9 V c 1 t (jcol j w) = V c main_v22 (rowcol i w) ∧ iblk9 V c 2 t j = V c main_v0 i := by
  obtain ⟨a0, a1, b0, b1, d0, d1, -⟩ := idx_facts t
  refine ⟨?_, ?_, ?_⟩
  · show V c main_v111 (((cfg9.win 0).blk t).view.emb j) = V c main_v111 i
    refine congrArg _ (funext fun a => Fin.ext ?_)
    match a with
    | ⟨0, _⟩ => show win9_0.index t (0 : Fin 2) * 4000 + 1 * (j 0).val = (i 0).val; omega
    | ⟨1, _⟩ => show win9_0.index t (1 : Fin 2) * 64 + 1 * (j 1).val = (i 1).val; omega
  · show V c main_v22 (((cfg9.win 1).blk t).view.emb (jcol j w)) = V c main_v22 (rowcol i w)
    refine congrArg _ (funext fun a => Fin.ext ?_)
    match a with
    | ⟨0, _⟩ => show win9_1.index t (0 : Fin 2) * 4000 + 1 * (j 0).val = (i 0).val; omega
    | ⟨1, _⟩ => show win9_1.index t (1 : Fin 2) * 2 + 1 * w.val = w.val; omega
  · show V c main_v0 (((cfg9.win 2).blk t).view.emb j) = V c main_v0 i
    refine congrArg _ (funext fun a => Fin.ext ?_)
    match a with
    | ⟨0, _⟩ => show win9_2.index t (0 : Fin 2) * 4000 + 1 * (j 0).val = (i 0).val; omega
    | ⟨1, _⟩ => show win9_2.index t (1 : Fin 2) * 64 + 1 * (j 1).val = (i 1).val; omega

/-- What point `t` writes back through the new-features window is block `t` of `combH` of the arrays as found. -/
theorem flushed3_eq (c : Dev nD) (t : Fin cfg9.N) :
    (dat9 V c).flushed 3 t = ((cfg9.win 3).blk t).view.read (Elt Ideal) (combH (V c main_v111) (V c main_v22) (V c main_v0)) := by
  show (cfg9.win 3).cut (grid9.coords t) ((dat9 V c).after 3 t) = _
  rw [after9_3]
  unfold out9_3
  rw [View.canon_unit_zero hz]
  simp only [View.ld_unit_zero (S := S4000x64) hz, View.ld_unit_zero (S := S4000x2) hz]
  obtain ⟨-, -, -, -, -, -, f0, f1, -⟩ := idx_facts t
  funext j
  have hi0 : ((((cfg9.win 3).blk t).view.emb j) 0).val = t.val * 4000 + (j 0).val := by
    show win9_3.index t (0 : Fin 2) * 4000 + 1 * (j 0).val = _; omega
  have hi1 : ((((cfg9.win 3).blk t).view.emb j) 1).val = (j 1).val := by
    show win9_3.index t (1 : Fin 2) * 64 + 1 * (j 1).val = _; omega
  obtain ⟨r0, r1, r2⟩ := reads V 1 (Or.inr rfl) c t j _ hi0 hi1
  exact pointH _ _ _ _ _ _ j _ r0 r1 r2

/-- The same through the next-message window: block `t` of `combM`. -/
theorem flushed4_eq (c : Dev nD) (t : Fin cfg9.N) :
    (dat9 V c).flushed 4 t = ((cfg9.win 4).blk t).view.read (Elt Ideal) (combM (V c main_v111) (V c main_v22) (V c main_v0)) := by
  show (cfg9.win 4).cut (grid9.coords t) ((dat9 V c).after 4 t) = _
  rw [after9_4]
  unfold out9_4
  rw [View.canon_unit_zero hz]
  simp only [View.ld_unit_zero (S := S4000x64) hz, View.ld_unit_zero (S := S4000x2) hz]
  obtain ⟨-, -, -, -, -, -, -, -, f0, f1⟩ := idx_facts t
  funext j
  have hi0 : ((((cfg9.win 4).blk t).view.emb j) 0).val = t.val * 4000 + (j 0).val := by
    show win9_4.index t (0 : Fin 2) * 4000 + 1 * (j 0).val = _; omega
  have hi1 : ((((cfg9.win 4).blk t).view.emb j) 1).val = (j 1).val := by
    show win9_4.index t (1 : Fin 2) * 64 + 1 * (j 1).val = _; omega
  obtain ⟨r0, r1, r2⟩ := reads V 1 (Or.inr rfl) c t j _ hi0 hi1
  obtain ⟨-, r1', -⟩ := reads V 0 (Or.inl rfl) c t j _ hi0 hi1
  exact pointM _ _ _ _ _ _ j _ r0 r1 r1' r2

/-- An index of an output array is in point `t`'s block iff its row is among the block's 4000 rows. -/
theorem mem_blk3 (t : Fin cfg9.N) (i : SN64.Idx) :
    i ∈ ((cfg9.win 3).blk t).view.set ↔ ∀ a : Fin 2, win9_3.index t a * S4000x64.size a ≤ (i a).val ∧ (i a).val < win9_3.index t a * S4000x64.size a + S4000x64.size a := by
  show i ∈ ((View.whole main_v112_0).slice (win9_3.rect t)).set ↔ _
  rw [View.set_slice_whole, Rect.mem_set_unit]
  exact Iff.rfl
theorem mem_blk4 (t : Fin cfg9.N) (i : SN64.Idx) :
    i ∈ ((cfg9.win 4).blk t).view.set ↔ ∀ a : Fin 2, win9_4.index t a * S4000x64.size a ≤ (i a).val ∧ (i a).val < win9_4.index t a * S4000x64.size a + S4000x64.size a := by
  show i ∈ ((View.whole main_v112_1).slice (win9_4.rect t)).set ↔ _
  rw [View.set_slice_whole, Rect.mem_set_unit]
  exact Iff.rfl

/-- Every row lies in the block of the point `row / 4000`. -/
theorem cover3 (i : SN64.Idx) : ∃ t : Fin cfg9.N, (cfg9.win 3).flush t = true ∧ i ∈ ((cfg9.win 3).blk t).view.set := by
  have hi0 : (i 0).val < 100000 := (i 0).isLt
  have hi1 : (i 1).val < 64 := (i 1).isLt
  have hN : cfg9.N = 25 := N_9
  refine ⟨⟨(i 0).val / 4000, by rw [hN]; omega⟩, flush9_3 _, ?_⟩
  rw [mem_blk3]
  obtain ⟨-, -, -, -, -, -, f0, f1, -⟩ := idx_facts ⟨(i 0).val / 4000, by rw [hN]; omega⟩
  intro a
  match a with
  | ⟨0, _⟩ => show win9_3.index _ (0 : Fin 2) * 4000 ≤ (i 0).val ∧ (i 0).val < win9_3.index _ (0 : Fin 2) * 4000 + 4000; rw [f0]; show (i 0).val / 4000 * 4000 ≤ _ ∧ _ < (i 0).val / 4000 * 4000 + 4000; omega
  | ⟨1, _⟩ => show win9_3.index _ (1 : Fin 2) * 64 ≤ (i 1).val ∧ (i 1).val < win9_3.index _ (1 : Fin 2) * 64 + 64; rw [f1]; omega
theorem cover4 (i : SN64.Idx) : ∃ t : Fin cfg9.N, (cfg9.win 4).flush t = true ∧ i ∈ ((cfg9.win 4).blk t).view.set := by
  have hi0 : (i 0).val < 100000 := (i 0).isLt
  have hi1 : (i 1).val < 64 := (i 1).isLt
  have hN : cfg9.N = 25 := N_9
  refine ⟨⟨(i 0).val / 4000, by rw [hN]; omega⟩, flush9_4 _, ?_⟩
  rw [mem_blk4]
  obtain ⟨-, -, -, -, -, -, -, -, f0, f1⟩ := idx_facts ⟨(i 0).val / 4000, by rw [hN]; omega⟩
  intro a
  match a with
  | ⟨0, _⟩ => show win9_4.index _ (0 : Fin 2) * 4000 ≤ (i 0).val ∧ (i 0).val < win9_4.index _ (0 : Fin 2) * 4000 + 4000; rw [f0]; show (i 0).val / 4000 * 4000 ≤ _ ∧ _ < (i 0).val / 4000 * 4000 + 4000; omega
  | ⟨1, _⟩ => show win9_4.index _ (1 : Fin 2) * 64 ≤ (i 1).val ∧ (i 1).val < win9_4.index _ (1 : Fin 2) * 64 + 64; rw [f1]; omega

/-- After the region the new-features array is `combH` of the three input arrays as the region found them. -/
theorem final3 (c : Dev nD) : (dat9 V c).arrAt 3 cfg9.N = combH (V c main_v111) (V c main_v22) (V c main_v0) :=
  (dat9 V c).arrAt_eq_of_cover 3 _ (fun t _ => flushed3_eq V c t) cover3
/-- And the next-message array is `combM` of them. -/
theorem final4 (c : Dev nD) : (dat9 V c).arrAt 4 cfg9.N = combM (V c main_v111) (V c main_v22) (V c main_v0) :=
  (dat9 V c).arrAt_eq_of_cover 4 _ (fun t _ => flushed4_eq V c t) cover4

end Cert.KernelIdeal.Comb9

end
-- ==== Proof.KStep9.lean ====
/-
  The kernel program's buffers across one propagation step: the host operations before region 9 aggregate the current
  message along the edges; region 9 combines the aggregate with the factor table and the projection into the new
  features and the next message. The edge lists, the factor table and the projection pass through unchanged.
-/
import proofs.«144990_j83459804496278_1_alg».proof.Proof.Gen.KernelIdeal.Frame
import proofs.«144990_j83459804496278_1_alg».proof.Proof.Comb9
import proofs.«144990_j83459804496278_1_alg».proof.Proof.KDefs
import Idealize.ShloMosaic.Lib.StableHlo.Run

set_option maxRecDepth 16384

noncomputable section

namespace Cert.KernelIdeal.KStep9

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The host operations before region 9, from any contents: the aggregate of the message along the edges; the edge
    lists, the factor table and the projection kept. -/
theorem host (Wp : Valuation τ sig (Elt Ideal)) :
    StableHlo.after (hostOps9 (F := Ideal)) Wp (Proc.devRef .tc main_arg3) = Wp (Proc.devRef .tc main_arg3)
    ∧ StableHlo.after (hostOps9 (F := Ideal)) Wp (Proc.devRef .tc main_arg4) = Wp (Proc.devRef .tc main_arg4)
    ∧ StableHlo.after (hostOps9 (F := Ideal)) Wp (Proc.devRef .tc main_v22) = Wp (Proc.devRef .tc main_v22)
    ∧ StableHlo.after (hostOps9 (F := Ideal)) Wp (Proc.devRef .tc main_v0) = Wp (Proc.devRef .tc main_v0)
    ∧ StableHlo.after (hostOps9 (F := Ideal)) Wp (Proc.devRef .tc main_v111) = agg (Wp (Proc.devRef .tc main_v101_1)) (Wp (Proc.devRef .tc main_arg3)) (Wp (Proc.devRef .tc main_arg4)) := by
  refine ⟨?_, ?_, ?_, ?_, ?_⟩ <;> (dsimp only [hostOps9]; after_results_simp) <;> rfl

/-- The buffers at the end of region 9, from what they hold at the end of the region before. -/
theorem step (c : Dev nD) (x3 x4 : (⟨S1600000, .i32⟩ : BufTy).Contents (Elt Ideal)) (nrm : SN2.Idx → EReal) (h0 msg : SN64.Idx → EReal)
    (h3 : W21 m ρ c (Proc.devRef .tc main_arg3) = x3) (h4 : W21 m ρ c (Proc.devRef .tc main_arg4) = x4)
    (hn : W21 m ρ c (Proc.devRef .tc main_v22) = nrm) (hh : W21 m ρ c (Proc.devRef .tc main_v0) = h0)
    (hm : W21 m ρ c (Proc.devRef .tc main_v101_1) = msg) :
    W23 m ρ c (Proc.devRef .tc main_arg3) = x3 ∧ W23 m ρ c (Proc.devRef .tc main_arg4) = x4
    ∧ W23 m ρ c (Proc.devRef .tc main_v22) = nrm ∧ W23 m ρ c (Proc.devRef .tc main_v0) = h0
    ∧ W23 m ρ c (Proc.devRef .tc main_v112_0) = combH (agg msg x3 x4) nrm h0
    ∧ W23 m ρ c (Proc.devRef .tc main_v112_1) = combM (agg msg x3 x4) nrm h0 := by
  obtain ⟨g3, g4, gn, gh, ga⟩ := host (W21 m ρ c)
  have e3 : W22 m ρ c (Proc.devRef .tc main_arg3) = x3 := g3.trans h3
  have e4 : W22 m ρ c (Proc.devRef .tc main_arg4) = x4 := g4.trans h4
  have en : W22 m ρ c (Proc.devRef .tc main_v22) = nrm := gn.trans hn
  have eh : W22 m ρ c (Proc.devRef .tc main_v0) = h0 := gh.trans hh
  have ea : W22 m ρ c (Proc.devRef .tc main_v111) = agg msg x3 x4 := by
    rw [← hm, ← h3, ← h4]; exact ga
  refine ⟨(W23_of_ne m ρ c main_arg3 (by decide)).trans e3, (W23_of_ne m ρ c main_arg4 (by decide)).trans e4,
    ((W23_arr m ρ c 1).trans (((dat9 (V22 m ρ) c).arrAt_in 1 rfl _).trans (A_eq9 (V22 m ρ) c 1))).trans en,
    ((W23_arr m ρ c 2).trans (((dat9 (V22 m ρ) c).arrAt_in 2 rfl _).trans (A_eq9 (V22 m ρ) c 2))).trans eh, ?_, ?_⟩
  · refine (W23_arr m ρ c 3).trans ((Comb9.final3 (V22 m ρ) c).trans ?_)
    show combH (W22 m ρ c (Proc.devRef .tc main_v111)) (W22 m ρ c (Proc.devRef .tc main_v22)) (W22 m ρ c (Proc.devRef .tc main_v0)) = _
    rw [ea, en, eh]
  · refine (W23_arr m ρ c 4).trans ((Comb9.final4 (V22 m ρ) c).trans ?_)
    show combM (W22 m ρ c (Proc.devRef .tc main_v111)) (W22 m ρ c (Proc.devRef .tc main_v22)) (W22 m ρ c (Proc.devRef .tc main_v0)) = _
    rw [ea, en, eh]

end Cert.KernelIdeal.KStep9

end
-- ==== Proof.Comb10.lean ====
/-
  Region 10 of the kernel's program is one propagation step's dense half, tiled over the nodes: at grid point `t` it
  reads rows 4000·t … 4000·t + 3999 of the aggregated messages, of the two-column factor table and of the projected
  features, and writes the same rows of the new features `(0.9 · agg) · nd + 0.1 · h0` and of the next message (the new
  features times the source factor). The 25 row blocks tile the 100000 rows, so after the region each output array is one
  function of the three input arrays as the region found them: `Cert.Appnp.combH` and `Cert.Appnp.combM`.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Comb10

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Column `k` of `j`'s row in a block of the factor table. -/
abbrev jcol (j : S4000x64.Idx) (k : Fin 2) : S4000x2.Idx := fun a => match a with
  | ⟨0, _⟩ => ⟨(j 0).val, (j 0).isLt⟩
  | ⟨1, _⟩ => ⟨k.val, k.isLt⟩

/-- The keepdims column of a block's factor table, broadcast along the 64 lanes, read at an index: the column's entry of
    the index's row. -/
theorem bcol (k : Fin 2) (off : Fin 2 → Nat) (hoff : off = ![0, k.val]) (h : S4000x2.Slices off S4000x1) (x1 : Vec Ideal S4000x2 .f32) (j : S4000x64.Idx) :
    broadcastTo S4000x64 (extractStridedSlice S4000x1 off x1 h) broadcasts_S4000x1_S4000x64 j = x1 (jcol j k) := by
  subst hoff
  rw [broadcastTo_apply _ broadcasts_S4000x1_S4000x64 j (fun a => match a with
    | ⟨0, _⟩ => ⟨(j 0).val, (j 0).isLt⟩
    | ⟨1, _⟩ => ⟨0, Nat.one_pos⟩) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]
  exact extractStridedSlice_apply _ x1 h _ (jcol j k) (fun a => match a with
    | ⟨0, _⟩ => by show (j 0).val = 0 + (j 0).val; omega
    | ⟨1, _⟩ => by show k.val = k.val + 0; omega)

/-- The new-features payload at an index of the block. -/
theorem payH (x0 : Vec Ideal S4000x64 .f32) (x1 : Vec Ideal S4000x2 .f32) (x2 : Vec Ideal S4000x64 .f32) (j : S4000x64.Idx) :
    k10_pay2 x0 x1 x2 j = c9 * x0 j * x1 (jcol j 1) + c1 * x2 j := by
  unfold k10_pay2 k10_pay1
  simp only [shapeCast_self]
  show Ideal.ofBits .f32 0x3F666666#32 * x0 j * broadcastTo S4000x64 (extractStridedSlice S4000x1 ![0, 1] x1 slices_S4000x2_o0_1_S4000x1) broadcasts_S4000x1_S4000x64 j + Ideal.ofBits .f32 0x3DCCCCCD#32 * x2 j = _
  rw [bcol 1 ![0, 1] rfl]

/-- The next-message payload at an index of the block. -/
theorem payM (x0 : Vec Ideal S4000x64 .f32) (x1 : Vec Ideal S4000x2 .f32) (x2 : Vec Ideal S4000x64 .f32) (j : S4000x64.Idx) :
    k10_pay3 x0 x1 x2 j = (c9 * x0 j * x1 (jcol j 1) + c1 * x2 j) * x1 (jcol j 0) := by
  unfold k10_pay3
  show k10_pay2 x0 x1 x2 j * broadcastTo S4000x64 (extractStridedSlice S4000x1 ![0, 0] (k10_pay1 x1) slices_S4000x2_o0_0_S4000x1) broadcasts_S4000x1_S4000x64 j = _
  unfold k10_pay1
  simp only [shapeCast_self]
  rw [payH, bcol 0 ![0, 0] rfl]

/-- Both payloads at a block index `j` that sits at the array index `i`, from the three reads at those indices. -/
theorem pointH (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e2 : x2 j = h0 i) :
    k10_pay2 x0 x1 x2 j = combH agg nrm h0 i := by
  rw [payH, e0, e1, e2]; rfl
theorem pointM (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e1' : x1 (jcol j 0) = nrm (rowcol i 0)) (e2 : x2 j = h0 i) :
    k10_pay3 x0 x1 x2 j = combM agg nrm h0 i := by
  rw [payM, e0, e1, e1', e2]; rfl

/-- The printed index maps over the grid: every window's block row is the point, its block column 0. -/
theorem idx_facts : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0 :=
  (by decide +kernel : ∀ t : Fin grid10.N, _)

/-- The three input blocks at point `t`, read at a block index, are the arrays at the output block's array index. -/
theorem reads (w : Fin 2) (hw : w = 0 ∨ w = 1) (c : Dev nD) (t : Fin cfg10.N) (j : S4000x64.Idx) (i : SN64.Idx)
    (hi0 : (i 0).val = t.val * 4000 + (j 0).val) (hi1 : (i 1).val = (j 1).val) :
    iblk10 V c 0 t j = V c main_v122 i ∧ iblk10 V c 1 t (jcol j w) = V c main_v22 (rowcol i w) ∧ iblk10 V c 2 t j = V c main_v0 i := by
  obtain ⟨a0, a1, b0, b1, d0, d1, -⟩ := idx_facts t
  refine ⟨?_, ?_, ?_⟩
  · show V c main_v122 (((cfg10.win 0).blk t).view.emb j) = V c main_v122 i
    refine congrArg _ (funext fun a => Fin.ext ?_)
    match a with
    | ⟨0, _⟩ => show win10_0.index t (0 : Fin 2) * 4000 + 1 * (j 0).val = (i 0).val; omega
    | ⟨1, _⟩ => show win10_0.index t (1 : Fin 2) * 64 + 1 * (j 1).val = (i 1).val; omega
  · show V c main_v22 (((cfg10.win 1).blk t).view.emb (jcol j w)) = V c main_v22 (rowcol i w)
    refine congrArg _ (funext fun a => Fin.ext ?_)
    match a with
    | ⟨0, _⟩ => show win10_1.index t (0 : Fin 2) * 4000 + 1 * (j 0).val = (i 0).val; omega
    | ⟨1, _⟩ => show win10_1.index t (1 : Fin 2) * 2 + 1 * w.val = w.val; omega
  · show V c main_v0 (((cfg10.win 2).blk t).view.emb j) = V c main_v0 i
    refine congrArg _ (funext fun a => Fin.ext ?_)
    match a with
    | ⟨0, _⟩ => show win10_2.index t (0 : Fin 2) * 4000 + 1 * (j 0).val = (i 0).val; omega
    | ⟨1, _⟩ => show win10_2.index t (1 : Fin 2) * 64 + 1 * (j 1).val = (i 1).val; omega

/-- What point `t` writes back through the new-features window is block `t` of `combH` of the arrays as found. -/
theorem flushed3_eq (c : Dev nD) (t : Fin cfg10.N) :
    (dat10 V c).flushed 3 t = ((cfg10.win 3).blk t).view.read (Elt Ideal) (combH (V c main_v122) (V c main_v22) (V c main_v0)) := by
  show (cfg10.win 3).cut (grid10.coords t) ((dat10 V c).after 3 t) = _
  rw [after10_3]
  unfold out10_3
  rw [View.canon_unit_zero hz]
  simp only [View.ld_unit_zero (S := S4000x64) hz, View.ld_unit_zero (S := S4000x2) hz]
  obtain ⟨-, -, -, -, -, -, f0, f1, -⟩ := idx_facts t
  funext j
  have hi0 : ((((cfg10.win 3).blk t).view.emb j) 0).val = t.val * 4000 + (j 0).val := by
    show win10_3.index t (0 : Fin 2) * 4000 + 1 * (j 0).val = _; omega
  have hi1 : ((((cfg10.win 3).blk t).view.emb j) 1).val = (j 1).val := by
    show win10_3.index t (1 : Fin 2) * 64 + 1 * (j 1).val = _; omega
  obtain ⟨r0, r1, r2⟩ := reads V 1 (Or.inr rfl) c t j _ hi0 hi1
  exact pointH _ _ _ _ _ _ j _ r0 r1 r2

/-- The same through the next-message window: block `t` of `combM`. -/
theorem flushed4_eq (c : Dev nD) (t : Fin cfg10.N) :
    (dat10 V c).flushed 4 t = ((cfg10.win 4).blk t).view.read (Elt Ideal) (combM (V c main_v122) (V c main_v22) (V c main_v0)) := by
  show (cfg10.win 4).cut (grid10.coords t) ((dat10 V c).after 4 t) = _
  rw [after10_4]
  unfold out10_4
  rw [View.canon_unit_zero hz]
  simp only [View.ld_unit_zero (S := S4000x64) hz, View.ld_unit_zero (S := S4000x2) hz]
  obtain ⟨-, -, -, -, -, -, -, -, f0, f1⟩ := idx_facts t
  funext j
  have hi0 : ((((cfg10.win 4).blk t).view.emb j) 0).val = t.val * 4000 + (j 0).val := by
    show win10_4.index t (0 : Fin 2) * 4000 + 1 * (j 0).val = _; omega
  have hi1 : ((((cfg10.win 4).blk t).view.emb j) 1).val = (j 1).val := by
    show win10_4.index t (1 : Fin 2) * 64 + 1 * (j 1).val = _; omega
  obtain ⟨r0, r1, r2⟩ := reads V 1 (Or.inr rfl) c t j _ hi0 hi1
  obtain ⟨-, r1', -⟩ := reads V 0 (Or.inl rfl) c t j _ hi0 hi1
  exact pointM _ _ _ _ _ _ j _ r0 r1 r1' r2

/-- An index of an output array is in point `t`'s block iff its row is among the block's 4000 rows. -/
theorem mem_blk3 (t : Fin cfg10.N) (i : SN64.Idx) :
    i ∈ ((cfg10.win 3).blk t).view.set ↔ ∀ a : Fin 2, win10_3.index t a * S4000x64.size a ≤ (i a).val ∧ (i a).val < win10_3.index t a * S4000x64.size a + S4000x64.size a := by
  show i ∈ ((View.whole main_v123_0).slice (win10_3.rect t)).set ↔ _
  rw [View.set_slice_whole, Rect.mem_set_unit]
  exact Iff.rfl
theorem mem_blk4 (t : Fin cfg10.N) (i : SN64.Idx) :
    i ∈ ((cfg10.win 4).blk t).view.set ↔ ∀ a : Fin 2, win10_4.index t a * S4000x64.size a ≤ (i a).val ∧ (i a).val < win10_4.index t a * S4000x64.size a + S4000x64.size a := by
  show i ∈ ((View.whole main_v123_1).slice (win10_4.rect t)).set ↔ _
  rw [View.set_slice_whole, Rect.mem_set_unit]
  exact Iff.rfl

/-- Every row lies in the block of the point `row / 4000`. -/
theorem cover3 (i : SN64.Idx) : ∃ t : Fin cfg10.N, (cfg10.win 3).flush t = true ∧ i ∈ ((cfg10.win 3).blk t).view.set := by
  have hi0 : (i 0).val < 100000 := (i 0).isLt
  have hi1 : (i 1).val < 64 := (i 1).isLt
  have hN : cfg10.N = 25 := N_10
  refine ⟨⟨(i 0).val / 4000, by rw [hN]; omega⟩, flush10_3 _, ?_⟩
  rw [mem_blk3]
  obtain ⟨-, -, -, -, -, -, f0, f1, -⟩ := idx_facts ⟨(i 0).val / 4000, by rw [hN]; omega⟩
  intro a
  match a with
  | ⟨0, _⟩ => show win10_3.index _ (0 : Fin 2) * 4000 ≤ (i 0).val ∧ (i 0).val < win10_3.index _ (0 : Fin 2) * 4000 + 4000; rw [f0]; show (i 0).val / 4000 * 4000 ≤ _ ∧ _ < (i 0).val / 4000 * 4000 + 4000; omega
  | ⟨1, _⟩ => show win10_3.index _ (1 : Fin 2) * 64 ≤ (i 1).val ∧ (i 1).val < win10_3.index _ (1 : Fin 2) * 64 + 64; rw [f1]; omega
theorem cover4 (i : SN64.Idx) : ∃ t : Fin cfg10.N, (cfg10.win 4).flush t = true ∧ i ∈ ((cfg10.win 4).blk t).view.set := by
  have hi0 : (i 0).val < 100000 := (i 0).isLt
  have hi1 : (i 1).val < 64 := (i 1).isLt
  have hN : cfg10.N = 25 := N_10
  refine ⟨⟨(i 0).val / 4000, by rw [hN]; omega⟩, flush10_4 _, ?_⟩
  rw [mem_blk4]
  obtain ⟨-, -, -, -, -, -, -, -, f0, f1⟩ := idx_facts ⟨(i 0).val / 4000, by rw [hN]; omega⟩
  intro a
  match a with
  | ⟨0, _⟩ => show win10_4.index _ (0 : Fin 2) * 4000 ≤ (i 0).val ∧ (i 0).val < win10_4.index _ (0 : Fin 2) * 4000 + 4000; rw [f0]; show (i 0).val / 4000 * 4000 ≤ _ ∧ _ < (i 0).val / 4000 * 4000 + 4000; omega
  | ⟨1, _⟩ => show win10_4.index _ (1 : Fin 2) * 64 ≤ (i 1).val ∧ (i 1).val < win10_4.index _ (1 : Fin 2) * 64 + 64; rw [f1]; omega

/-- After the region the new-features array is `combH` of the three input arrays as the region found them. -/
theorem final3 (c : Dev nD) : (dat10 V c).arrAt 3 cfg10.N = combH (V c main_v122) (V c main_v22) (V c main_v0) :=
  (dat10 V c).arrAt_eq_of_cover 3 _ (fun t _ => flushed3_eq V c t) cover3
/-- And the next-message array is `combM` of them. -/
theorem final4 (c : Dev nD) : (dat10 V c).arrAt 4 cfg10.N = combM (V c main_v122) (V c main_v22) (V c main_v0) :=
  (dat10 V c).arrAt_eq_of_cover 4 _ (fun t _ => flushed4_eq V c t) cover4

end Cert.KernelIdeal.Comb10

end
-- ==== Proof.KStep10.lean ====
/-
  The kernel program's buffers across one propagation step: the host operations before region 10 aggregate the current
  message along the edges; region 10 combines the aggregate with the factor table and the projection into the new
  features and the next message. The edge lists, the factor table and the projection pass through unchanged.
-/
import proofs.«144990_j83459804496278_1_alg».proof.Proof.Gen.KernelIdeal.Frame
import proofs.«144990_j83459804496278_1_alg».proof.Proof.Comb10
import proofs.«144990_j83459804496278_1_alg».proof.Proof.KDefs
import Idealize.ShloMosaic.Lib.StableHlo.Run

set_option maxRecDepth 16384

noncomputable section

namespace Cert.KernelIdeal.KStep10

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The host operations before region 10, from any contents: the aggregate of the message along the edges; the edge
    lists, the factor table and the projection kept. -/
theorem host (Wp : Valuation τ sig (Elt Ideal)) :
    StableHlo.after (hostOps10 (F := Ideal)) Wp (Proc.devRef .tc main_arg3) = Wp (Proc.devRef .tc main_arg3)
    ∧ StableHlo.after (hostOps10 (F := Ideal)) Wp (Proc.devRef .tc main_arg4) = Wp (Proc.devRef .tc main_arg4)
    ∧ StableHlo.after (hostOps10 (F := Ideal)) Wp (Proc.devRef .tc main_v22) = Wp (Proc.devRef .tc main_v22)
    ∧ StableHlo.after (hostOps10 (F := Ideal)) Wp (Proc.devRef .tc main_v0) = Wp (Proc.devRef .tc main_v0)
    ∧ StableHlo.after (hostOps10 (F := Ideal)) Wp (Proc.devRef .tc main_v122) = agg (Wp (Proc.devRef .tc main_v112_1)) (Wp (Proc.devRef .tc main_arg3)) (Wp (Proc.devRef .tc main_arg4)) := by
  refine ⟨?_, ?_, ?_, ?_, ?_⟩ <;> (dsimp only [hostOps10]; after_results_simp) <;> rfl

/-- The buffers at the end of region 10, from what they hold at the end of the region before. -/
theorem step (c : Dev nD) (x3 x4 : (⟨S1600000, .i32⟩ : BufTy).Contents (Elt Ideal)) (nrm : SN2.Idx → EReal) (h0 msg : SN64.Idx → EReal)
    (h3 : W23 m ρ c (Proc.devRef .tc main_arg3) = x3) (h4 : W23 m ρ c (Proc.devRef .tc main_arg4) = x4)
    (hn : W23 m ρ c (Proc.devRef .tc main_v22) = nrm) (hh : W23 m ρ c (Proc.devRef .tc main_v0) = h0)
    (hm : W23 m ρ c (Proc.devRef .tc main_v112_1) = msg) :
    W25 m ρ c (Proc.devRef .tc main_arg3) = x3 ∧ W25 m ρ c (Proc.devRef .tc main_arg4) = x4
    ∧ W25 m ρ c (Proc.devRef .tc main_v22) = nrm ∧ W25 m ρ c (Proc.devRef .tc main_v0) = h0
    ∧ W25 m ρ c (Proc.devRef .tc main_v123_0) = combH (agg msg x3 x4) nrm h0
    ∧ W25 m ρ c (Proc.devRef .tc main_v123_1) = combM (agg msg x3 x4) nrm h0 := by
  obtain ⟨g3, g4, gn, gh, ga⟩ := host (W23 m ρ c)
  have e3 : W24 m ρ c (Proc.devRef .tc main_arg3) = x3 := g3.trans h3
  have e4 : W24 m ρ c (Proc.devRef .tc main_arg4) = x4 := g4.trans h4
  have en : W24 m ρ c (Proc.devRef .tc main_v22) = nrm := gn.trans hn
  have eh : W24 m ρ c (Proc.devRef .tc main_v0) = h0 := gh.trans hh
  have ea : W24 m ρ c (Proc.devRef .tc main_v122) = agg msg x3 x4 := by
    rw [← hm, ← h3, ← h4]; exact ga
  refine ⟨(W25_of_ne m ρ c main_arg3 (by decide)).trans e3, (W25_of_ne m ρ c main_arg4 (by decide)).trans e4,
    ((W25_arr m ρ c 1).trans (((dat10 (V24 m ρ) c).arrAt_in 1 rfl _).trans (A_eq10 (V24 m ρ) c 1))).trans en,
    ((W25_arr m ρ c 2).trans (((dat10 (V24 m ρ) c).arrAt_in 2 rfl _).trans (A_eq10 (V24 m ρ) c 2))).trans eh, ?_, ?_⟩
  · refine (W25_arr m ρ c 3).trans ((Comb10.final3 (V24 m ρ) c).trans ?_)
    show combH (W24 m ρ c (Proc.devRef .tc main_v122)) (W24 m ρ c (Proc.devRef .tc main_v22)) (W24 m ρ c (Proc.devRef .tc main_v0)) = _
    rw [ea, en, eh]
  · refine (W25_arr m ρ c 4).trans ((Comb10.final4 (V24 m ρ) c).trans ?_)
    show combM (W24 m ρ c (Proc.devRef .tc main_v122)) (W24 m ρ c (Proc.devRef .tc main_v22)) (W24 m ρ c (Proc.devRef .tc main_v0)) = _
    rw [ea, en, eh]

end Cert.KernelIdeal.KStep10

end
-- ==== Proof.Comb11.lean ====
/-
  Region 11 of the kernel's program is one propagation step's dense half, tiled over the nodes: at grid point `t` it
  reads rows 4000·t … 4000·t + 3999 of the aggregated messages, of the two-column factor table and of the projected
  features, and writes the same rows of the new features `(0.9 · agg) · nd + 0.1 · h0` and of the next message (the new
  features times the source factor). The 25 row blocks tile the 100000 rows, so after the region each output array is one
  function of the three input arrays as the region found them: `Cert.Appnp.combH` and `Cert.Appnp.combM`.
-/
import proofs.«144990_j83459804496278_1_alg».proof.Proof.Gen.KernelIdeal.Frame
import proofs.«144990_j83459804496278_1_alg».proof.Proof.Spec
import Idealize.ShloMosaic.Lib.Pipeline.Value
import Idealize.ShloMosaic.Lib.ValueIdx

set_option maxRecDepth 16384

noncomputable section

namespace Cert.KernelIdeal.Comb11

open Cert.KernelIdeal Cert.KernelIdeal.Gen Idealize.ShloMosaic Idealize.ShloMosaic.TcCoe Idealize.SL.Sem Cert.Appnp
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Column `k` of `j`'s row in a block of the factor table. -/
abbrev jcol (j : S4000x64.Idx) (k : Fin 2) : S4000x2.Idx := fun a => match a with
  | ⟨0, _⟩ => ⟨(j 0).val, (j 0).isLt⟩
  | ⟨1, _⟩ => ⟨k.val, k.isLt⟩

/-- The keepdims column of a block's factor table, broadcast along the 64 lanes, read at an index: the column's entry of
    the index's row. -/
theorem bcol (k : Fin 2) (off : Fin 2 → Nat) (hoff : off = ![0, k.val]) (h : S4000x2.Slices off S4000x1) (x1 : Vec Ideal S4000x2 .f32) (j : S4000x64.Idx) :
    broadcastTo S4000x64 (extractStridedSlice S4000x1 off x1 h) broadcasts_S4000x1_S4000x64 j = x1 (jcol j k) := by
  subst hoff
  rw [broadcastTo_apply _ broadcasts_S4000x1_S4000x64 j (fun a => match a with
    | ⟨0, _⟩ => ⟨(j 0).val, (j 0).isLt⟩
    | ⟨1, _⟩ => ⟨0, Nat.one_pos⟩) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])]
  exact extractStridedSlice_apply _ x1 h _ (jcol j k) (fun a => match a with
    | ⟨0, _⟩ => by show (j 0).val = 0 + (j 0).val; omega
    | ⟨1, _⟩ => by show k.val = k.val + 0; omega)

/-- The new-features payload at an index of the block. -/
theorem payH (x0 : Vec Ideal S4000x64 .f32) (x1 : Vec Ideal S4000x2 .f32) (x2 : Vec Ideal S4000x64 .f32) (j : S4000x64.Idx) :
    k11_pay2 x0 x1 x2 j = c9 * x0 j * x1 (jcol j 1) + c1 * x2 j := by
  unfold k11_pay2 k11_pay1
  simp only [shapeCast_self]
  show Ideal.ofBits .f32 0x3F666666#32 * x0 j * broadcastTo S4000x64 (extractStridedSlice S4000x1 ![0, 1] x1 slices_S4000x2_o0_1_S4000x1) broadcasts_S4000x1_S4000x64 j + Ideal.ofBits .f32 0x3DCCCCCD#32 * x2 j = _
  rw [bcol 1 ![0, 1] rfl]

/-- The next-message payload at an index of the block. -/
theorem payM (x0 : Vec Ideal S4000x64 .f32) (x1 : Vec Ideal S4000x2 .f32) (x2 : Vec Ideal S4000x64 .f32) (j : S4000x64.Idx) :
    k11_pay3 x0 x1 x2 j = (c9 * x0 j * x1 (jcol j 1) + c1 * x2 j) * x1 (jcol j 0) := by
  unfold k11_pay3
  show k11_pay2 x0 x1 x2 j * broadcastTo S4000x64 (extractStridedSlice S4000x1 ![0, 0] (k11_pay1 x1) slices_S4000x2_o0_0_S4000x1) broadcasts_S4000x1_S4000x64 j = _
  unfold k11_pay1
  simp only [shapeCast_self]
  rw [payH, bcol 0 ![0, 0] rfl]

/-- Both payloads at a block index `j` that sits at the array index `i`, from the three reads at those indices. -/
theorem pointH (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e2 : x2 j = h0 i) :
    k11_pay2 x0 x1 x2 j = combH agg nrm h0 i := by
  rw [payH, e0, e1, e2]; rfl
theorem pointM (x0 : Vec Ideal S4000x64 .f32) (x1 : Vec Ideal S4000x2 .f32) (x2 : Vec Ideal S4000x64 .f32)
    (agg : SN64.Idx → EReal) (nrm : SN2.Idx → EReal) (h0 : SN64.Idx → EReal) (j : S4000x64.Idx) (i : SN64.Idx)
    (e0 : x0 j = agg i) (e1 : x1 (jcol j 1) = nrm (rowcol i 1)) (e1' : x1 (jcol j 0) = nrm (rowcol i 0)) (e2 : x2 j = h0 i) :
    k11_pay3 x0 x1 x2 j = combM agg nrm h0 i := by
  rw [payM, e0, e1, e1', e2]; rfl

/-- The printed index maps over the grid: every window's block row is the point, its block column 0. -/
theorem idx_facts : ∀ t : Fin cfg11.N, win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0 :=
  (by decide +kernel : ∀ t : Fin grid11.N, _)

/-- The three input blocks at point `t`, read at a block index, are the arrays at the output block's array index. -/
theorem reads (w : Fin 2) (hw : w = 0 ∨ w = 1) (c : Dev nD) (t : Fin cfg11.N) (j : S4000x64.Idx) (i : SN64.Idx)
    (hi0 : (i 0).val = t.val * 4000 + (j 0).val) (hi1 : (i 1).val = (j 1).val) :
    iblk11 V c 0 t j = V c main_v133 i ∧ iblk11 V c 1 t (jcol j w) = V c main_v22 (rowcol i w) ∧ iblk11 V c 2 t j = V c main_v0 i := by
  obtain ⟨a0, a1, b0, b1, d0, d1, -⟩ := idx_facts t
  refine ⟨?_, ?_, ?_⟩
  · show V c main_v133 (((cfg11.win 0).blk t).view.emb j) = V c main_v133 i
    refine congrArg _ (funext fun a => Fin.ext ?_)
    match a with
    | ⟨0, _⟩ => show win11_0.index t (0 : Fin 2) * 4000 + 1 * (j 0).val = (i 0).val; omega
    | ⟨1, _⟩ => show win11_0.index t (1 : Fin 2) * 64 + 1 * (j 1).val = (i 1).val; omega
  · show V c main_v22 (((cfg11.win 1).blk t).view.emb (jcol j w)) = V c main_v22 (rowcol i w)
    refine congrArg _ (funext fun a => Fin.ext ?_)
    match a with
    | ⟨0, _⟩ => show win11_1.index t (0 : Fin 2) * 4000 + 1 * (j 0).val = (i 0).val; omega
    | ⟨1, _⟩ => show win11_1.index t (1 : Fin 2) * 2 + 1 * w.val = w.val; omega
  · show V c main_v0 (((cfg11.win 2).blk t).view.emb j) = V c main_v0 i
    refine congrArg _ (funext fun a => Fin.ext ?_)
    match a with
    | ⟨0, _⟩ => show win11_2.index t (0 : Fin 2) * 4000 + 1 * (j 0).val = (i 0).val; omega
    | ⟨1, _⟩ => show win11_2.index t (1 : Fin 2) * 64 + 1 * (j 1).val = (i 1).val; omega

/-- What point `t` writes back through the new-features window is block `t` of `combH` of the arrays as found. -/
theorem flushed3_eq (c : Dev nD) (t : Fin cfg11.N) :
    (dat11 V c).flushed 3 t = ((cfg11.win 3).blk t).view.read (Elt Ideal) (combH (V c main_v133) (V c main_v22) (V c main_v0)) := by
  show (cfg11.win 3).cut (grid11.coords t) ((dat11 V c).after 3 t) = _
  rw [after11_3]
  unfold out11_3
  rw [View.canon_unit_zero hz]
  simp only [View.ld_unit_zero (S := S4000x64) hz, View.ld_unit_zero (S := S4000x2) hz]
  obtain ⟨-, -, -, -, -, -, f0, f1, -⟩ := idx_facts t
  funext j
  have hi0 : ((((cfg11.win 3).blk t).view.emb j) 0).val = t.val * 4000 + (j 0).val := by
    show win11_3.index t (0 : Fin 2) * 4000 + 1 * (j 0).val = _; omega
  have hi1 : ((((cfg11.win 3).blk t).view.emb j) 1).val = (j 1).val := by
    show win11_3.index t (1 : Fin 2) * 64 + 1 * (j 1).val = _; omega
  obtain ⟨r0, r1, r2⟩ := reads V 1 (Or.inr rfl) c t j _ hi0 hi1
  exact pointH _ _ _ _ _ _ j _ r0 r1 r2

/-- The same through the next-message window: block `t` of `combM`. -/
theorem flushed4_eq (c : Dev nD) (t : Fin cfg11.N) :
    (dat11 V c).flushed 4 t = ((cfg11.win 4).blk t).view.read (Elt Ideal) (combM (V c main_v133) (V c main_v22) (V c main_v0)) := by
  show (cfg11.win 4).cut (grid11.coords t) ((dat11 V c).after 4 t) = _
  rw [after11_4]
  unfold out11_4
  rw [View.canon_unit_zero hz]
  simp only [View.ld_unit_zero (S := S4000x64) hz, View.ld_unit_zero (S := S4000x2) hz]
  obtain ⟨-, -, -, -, -, -, -, -, f0, f1⟩ := idx_facts t
  funext j
  have hi0 : ((((cfg11.win 4).blk t).view.emb j) 0).val = t.val * 4000 + (j 0).val := by
    show win11_4.index t (0 : Fin 2) * 4000 + 1 * (j 0).val = _; omega
  have hi1 : ((((cfg11.win 4).blk t).view.emb j) 1).val = (j 1).val := by
    show win11_4.index t (1 : Fin 2) * 64 + 1 * (j 1).val = _; omega
  obtain ⟨r0, r1, r2⟩ := reads V 1 (Or.inr rfl) c t j _ hi0 hi1
  obtain ⟨-, r1', -⟩ := reads V 0 (Or.inl rfl) c t j _ hi0 hi1
  exact pointM _ _ _ _ _ _ j _ r0 r1 r1' r2

/-- An index of an output array is in point `t`'s block iff its row is among the block's 4000 rows. -/
theorem mem_blk3 (t : Fin cfg11.N) (i : SN64.Idx) :
    i ∈ ((cfg11.win 3).blk t).view.set ↔ ∀ a : Fin 2, win11_3.index t a * S4000x64.size a ≤ (i a).val ∧ (i a).val < win11_3.index t a * S4000x64.size a + S4000x64.size a := by
  show i ∈ ((View.whole main_v134_0).slice (win11_3.rect t)).set ↔ _
  rw [View.set_slice_whole, Rect.mem_set_unit]
  exact Iff.rfl
theorem mem_blk4 (t : Fin cfg11.N) (i : SN64.Idx) :
    i ∈ ((cfg11.win 4).blk t).view.set ↔ ∀ a : Fin 2, win11_4.index t a * S4000x64.size a ≤ (i a).val ∧ (i a).val < win11_4.index t a * S4000x64.size a + S4000x64.size a := by
  show i ∈ ((View.whole main_v134_1).slice (win11_4.rect t)).set ↔ _
  rw [View.set_slice_whole, Rect.mem_set_unit]
  exact Iff.rfl

/-- Every row lies in the block of the point `row / 4000`. -/
theorem cover3 (i : SN64.Idx) : ∃ t : Fin cfg11.N, (cfg11.win 3).flush t = true ∧ i ∈ ((cfg11.win 3).blk t).view.set := by
  have hi0 : (i 0).val < 100000 := (i 0).isLt
  have hi1 : (i 1).val < 64 := (i 1).isLt
  have hN : cfg11.N = 25 := N_11
  refine ⟨⟨(i 0).val / 4000, by rw [hN]; omega⟩, flush11_3 _, ?_⟩
  rw [mem_blk3]
  obtain ⟨-, -, -, -, -, -, f0, f1, -⟩ := idx_facts ⟨(i 0).val / 4000, by rw [hN]; omega⟩
  intro a
  match a with
  | ⟨0, _⟩ => show win11_3.index _ (0 : Fin 2) * 4000 ≤ (i 0).val ∧ (i 0).val < win11_3.index _ (0 : Fin 2) * 4000 + 4000; rw [f0]; show (i 0).val / 4000 * 4000 ≤ _ ∧ _ < (i 0).val / 4000 * 4000 + 4000; omega
  | ⟨1, _⟩ => show win11_3.index _ (1 : Fin 2) * 64 ≤ (i 1).val ∧ (i 1).val < win11_3.index _ (1 : Fin 2) * 64 + 64; rw [f1]; omega
theorem cover4 (i : SN64.Idx) : ∃ t : Fin cfg11.N, (cfg11.win 4).flush t = true ∧ i ∈ ((cfg11.win 4).blk t).view.set := by
  have hi0 : (i 0).val < 100000 := (i 0).isLt
  have hi1 : (i 1).val < 64 := (i 1).isLt
  have hN : cfg11.N = 25 := N_11
  refine ⟨⟨(i 0).val / 4000, by rw [hN]; omega⟩, flush11_4 _, ?_⟩
  rw [mem_blk4]
  obtain ⟨-, -, -, -, -, -, -, -, f0, f1⟩ := idx_facts ⟨(i 0).val / 4000, by rw [hN]; omega⟩
  intro a
  match a with
  | ⟨0, _⟩ => show win11_4.index _ (0 : Fin 2) * 4000 ≤ (i 0).val ∧ (i 0).val < win11_4.index _ (0 : Fin 2) * 4000 + 4000; rw [f0]; show (i 0).val / 4000 * 4000 ≤ _ ∧ _ < (i 0).val / 4000 * 4000 + 4000; omega
  | ⟨1, _⟩ => show win11_4.index _ (1 : Fin 2) * 64 ≤ (i 1).val ∧ (i 1).val < win11_4.index _ (1 : Fin 2) * 64 + 64; rw [f1]; omega

/-- After the region the new-features array is `combH` of the three input arrays as the region found them. -/
theorem final3 (c : Dev nD) : (dat11 V c).arrAt 3 cfg11.N = combH (V c main_v133) (V c main_v22) (V c main_v0) :=
  (dat11 V c).arrAt_eq_of_cover 3 _ (fun t _ => flushed3_eq V c t) cover3
/-- And the next-message array is `combM` of them. -/
theorem final4 (c : Dev nD) : (dat11 V c).arrAt 4 cfg11.N = combM (V c main_v133) (V c main_v22) (V c main_v0) :=
  (dat11 V c).arrAt_eq_of_cover 4 _ (fun t _ => flushed4_eq V c t) cover4

end Cert.KernelIdeal.Comb11

end
-- ==== Proof.KStep11.lean ====
/-
  The kernel program's buffers across one propagation step: the host operations before region 11 aggregate the current
  message along the edges; region 11 combines the aggregate with the factor table and the projection into the new
  features and the next message. The edge lists, the factor table and the projection pass through unchanged.
-/
import proofs.«144990_j83459804496278_1_alg».proof.Proof.Gen.KernelIdeal.Frame
import proofs.«144990_j83459804496278_1_alg».proof.Proof.Comb11
import proofs.«144990_j83459804496278_1_alg».proof.Proof.KDefs
import Idealize.ShloMosaic.Lib.StableHlo.Run

set_option maxRecDepth 16384

noncomputable section

namespace Cert.KernelIdeal.KStep11

open Cert.KernelIdeal Cert.KernelIdeal.Gen Idealize.ShloMosaic Idealize.ShloMosaic.TcCoe Idealize.SL.Sem Cert.Appnp Cert.KernelIdeal.KVal
open Idealize.ShloMosaic.StableHlo

variable (m : (ℓ : Loc nD τ sig) → Buf (Elt Ideal) ℓ) (ρ : Dev nD → PrngReg)

set_option maxHeartbeats 1000000 in
/-- The host operations before region 11, from any contents: the aggregate of the message along the edges; the edge
    lists, the factor table and the projection kept. -/
theorem host (Wp : Valuation τ sig (Elt Ideal)) :
    StableHlo.after (hostOps11 (F := Ideal)) Wp (Proc.devRef .tc main_arg3) = Wp (Proc.devRef .tc main_arg3)
    ∧ StableHlo.after (hostOps11 (F := Ideal)) Wp (Proc.devRef .tc main_arg4) = Wp (Proc.devRef .tc main_arg4)
    ∧ StableHlo.after (hostOps11 (F := Ideal)) Wp (Proc.devRef .tc main_v22) = Wp (Proc.devRef .tc main_v22)
    ∧ StableHlo.after (hostOps11 (F := Ideal)) Wp (Proc.devRef .tc main_v0) = Wp (Proc.devRef .tc main_v0)
    ∧ StableHlo.after (hostOps11 (F := Ideal)) Wp (Proc.devRef .tc main_v133) = agg (Wp (Proc.devRef .tc main_v123_1)) (Wp (Proc.devRef .tc main_arg3)) (Wp (Proc.devRef .tc main_arg4)) := by
  refine ⟨?_, ?_, ?_, ?_, ?_⟩ <;> (dsimp only [hostOps11]; after_results_simp) <;> rfl

/-- The buffers at the end of region 11, from what they hold at the end of the region before. -/
theorem step (c : Dev nD) (x3 x4 : (⟨S1600000, .i32⟩ : BufTy).Contents (Elt Ideal)) (nrm : SN2.Idx → EReal) (h0 msg : SN64.Idx → EReal)
    (h3 : W25 m ρ c (Proc.devRef .tc main_arg3) = x3) (h4 : W25 m ρ c (Proc.devRef .tc main_arg4) = x4)
    (hn : W25 m ρ c (Proc.devRef .tc main_v22) = nrm) (hh : W25 m ρ c (Proc.devRef .tc main_v0) = h0)
    (hm : W25 m ρ c (Proc.devRef .tc main_v123_1) = msg) :
    W27 m ρ c (Proc.devRef .tc main_arg3) = x3 ∧ W27 m ρ c (Proc.devRef .tc main_arg4) = x4
    ∧ W27 m ρ c (Proc.devRef .tc main_v22) = nrm ∧ W27 m ρ c (Proc.devRef .tc main_v0) = h0
    ∧ W27 m ρ c (Proc.devRef .tc main_v134_0) = combH (agg msg x3 x4) nrm h0
    ∧ W27 m ρ c (Proc.devRef .tc main_v134_1) = combM (agg msg x3 x4) nrm h0 := by
  obtain ⟨g3, g4, gn, gh, ga⟩ := host (W25 m ρ c)
  have e3 : W26 m ρ c (Proc.devRef .tc main_arg3) = x3 := g3.trans h3
  have e4 : W26 m ρ c (Proc.devRef .tc main_arg4) = x4 := g4.trans h4
  have en : W26 m ρ c (Proc.devRef .tc main_v22) = nrm := gn.trans hn
  have eh : W26 m ρ c (Proc.devRef .tc main_v0) = h0 := gh.trans hh
  have ea : W26 m ρ c (Proc.devRef .tc main_v133) = agg msg x3 x4 := by
    rw [← hm, ← h3, ← h4]; exact ga
  refine ⟨(W27_of_ne m ρ c main_arg3 (by decide)).trans e3, (W27_of_ne m ρ c main_arg4 (by decide)).trans e4,
    ((W27_arr m ρ c 1).trans (((dat11 (V26 m ρ) c).arrAt_in 1 rfl _).trans (A_eq11 (V26 m ρ) c 1))).trans en,
    ((W27_arr m ρ c 2).trans (((dat11 (V26 m ρ) c).arrAt_in 2 rfl _).trans (A_eq11 (V26 m ρ) c 2))).trans eh, ?_, ?_⟩
  · refine (W27_arr m ρ c 3).trans ((Comb11.final3 (V26 m ρ) c).trans ?_)
    show combH (W26 m ρ c (Proc.devRef .tc main_v133)) (W26 m ρ c (Proc.devRef .tc main_v22)) (W26 m ρ c (Proc.devRef .tc main_v0)) = _
    rw [ea, en, eh]
  · refine (W27_arr m ρ c 4).trans ((Comb11.final4 (V26 m ρ) c).trans ?_)
    show combM (W26 m ρ c (Proc.devRef .tc main_v133)) (W26 m ρ c (Proc.devRef .tc main_v22)) (W26 m ρ c (Proc.devRef .tc main_v0)) = _
    rw [ea, en, eh]

end Cert.KernelIdeal.KStep11

end
-- ==== Proof.KOut.lean ====
/-
  The kernel program's result as one function of its five arguments: the projection, the first message, nine further
  messages each from the aggregate of the one before, and the new features of the tenth step.
-/
import proofs.«144990_j83459804496278_1_alg».proof.Proof.KDefs
import proofs.«144990_j83459804496278_1_alg».proof.Proof.Spec

noncomputable section

namespace Cert.KernelIdeal.KOut

open Cert.KernelIdeal Idealize.ShloMosaic Cert.Appnp Cert.KernelIdeal.KVal

variable (x0 : (⟨S100000x64, .f32⟩ : BufTy).Contents (Elt Ideal)) (x1 : (⟨S64x64, .f32⟩ : BufTy).Contents (Elt Ideal))
  (x2 : (⟨S64, .f32⟩ : BufTy).Contents (Elt Ideal)) (x3 x4 : (⟨S1600000, .i32⟩ : BufTy).Contents (Elt Ideal))

/-- The first message: the projection scaled by the source factor. -/
def msg0 : SN64.Idx → EReal := scale (lin x0 x1 x2) (ncol x3)

/-- The next message from the current one. -/
def stepM (msg : SN64.Idx → EReal) : SN64.Idx → EReal := combM (agg msg x3 x4) (norms x3 x4) (lin x0 x1 x2)

/-- The result: the new features of the tenth step. -/
def out : SN64.Idx → EReal :=
  combH (agg (stepM x0 x1 x2 x3 x4 (stepM x0 x1 x2 x3 x4 (stepM x0 x1 x2 x3 x4 (stepM x0 x1 x2 x3 x4 (stepM x0 x1 x2 x3 x4
    (stepM x0 x1 x2 x3 x4 (stepM x0 x1 x2 x3 x4 (stepM x0 x1 x2 x3 x4 (stepM x0 x1 x2 x3 x4 (msg0 x0 x1 x2 x3))))))))))
    x3 x4) (norms x3 x4) (lin x0 x1 x2)

end Cert.KernelIdeal.KOut

end
-- ==== Proof.KChain.lean ====
/-
  The kernel program's result buffer, followed through all twelve regions and the host operations between them: from
  the launch memory through the projection, the degree factors, the first message and ten propagation steps, each step's
  module handing the edge lists, the factor table, the projection and the current message to the next.
-/
import proofs.«144990_j83459804496278_1_alg».proof.Proof.KStep01
import proofs.«144990_j83459804496278_1_alg».proof.Proof.KStep2
import proofs.«144990_j83459804496278_1_alg».proof.Proof.KStep3
import proofs.«144990_j83459804496278_1_alg».proof.Proof.KStep4
import proofs.«144990_j83459804496278_1_alg».proof.Proof.KStep5
import proofs.«144990_j83459804496278_1_alg».proof.Proof.KStep6
import proofs.«144990_j83459804496278_1_alg».proof.Proof.KStep7
import proofs.«144990_j83459804496278_1_alg».proof.Proof.KStep8
import proofs.«144990_j83459804496278_1_alg».proof.Proof.KStep9
import proofs.«144990_j83459804496278_1_alg».proof.Proof.KStep10
import proofs.«144990_j83459804496278_1_alg».proof.Proof.KStep11
import proofs.«144990_j83459804496278_1_alg».proof.Proof.KOut

set_option maxRecDepth 16384

noncomputable section

namespace Cert.KernelIdeal.KChain

open Cert.KernelIdeal Cert.KernelIdeal.Gen Idealize.ShloMosaic Idealize.ShloMosaic.TcCoe Idealize.SL.Sem Cert.Appnp Cert.KernelIdeal.KVal

variable (m : (ℓ : Loc nD τ sig) → Buf (Elt Ideal) ℓ) (ρ : Dev nD → PrngReg)

/-- At the last boundary the result buffer holds the kernel's function of the five arguments as launched. -/
theorem value (c : Dev nD) : W27 m ρ c (Proc.devRef .tc main_v134_0)
    = KOut.out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  obtain ⟨a3, a4, an, ah, am⟩ := KStep01.step m ρ c
  obtain ⟨a3, a4, an, ah, -, am⟩ := KStep2.step m ρ c _ _ _ _ _ a3 a4 an ah am
  obtain ⟨a3, a4, an, ah, -, am⟩ := KStep3.step m ρ c _ _ _ _ _ a3 a4 an ah am
  obtain ⟨a3, a4, an, ah, -, am⟩ := KStep4.step m ρ c _ _ _ _ _ a3 a4 an ah am
  obtain ⟨a3, a4, an, ah, -, am⟩ := KStep5.step m ρ c _ _ _ _ _ a3 a4 an ah am
  obtain ⟨a3, a4, an, ah, -, am⟩ := KStep6.step m ρ c _ _ _ _ _ a3 a4 an ah am
  obtain ⟨a3, a4, an, ah, -, am⟩ := KStep7.step m ρ c _ _ _ _ _ a3 a4 an ah am
  obtain ⟨a3, a4, an, ah, -, am⟩ := KStep8.step m ρ c _ _ _ _ _ a3 a4 an ah am
  obtain ⟨a3, a4, an, ah, -, am⟩ := KStep9.step m ρ c _ _ _ _ _ a3 a4 an ah am
  obtain ⟨a3, a4, an, ah, -, am⟩ := KStep10.step m ρ c _ _ _ _ _ a3 a4 an ah am
  obtain ⟨-, -, -, -, r, -⟩ := KStep11.step m ρ c _ _ _ _ _ a3 a4 an ah am
  exact r

end Cert.KernelIdeal.KChain

end
-- ==== Proof.Bridge.lean ====
/-
  The two programs compute one function. Both aggregate along the edges by the same host operations, and both take
  the degree factors from the same host operations, so those enter as shared functions that are never opened. What is
  left is arithmetic at one index: the kernel's step forms `(0.9 · a) · nd` where the reference forms `0.9 · (a · nd)`
  — the same extended real, multiplication being associative there with no finiteness asked —, the kernel reads the two
  factors out of one two-column table where the reference repeats two one-column tables along the rows, and the kernel
  carries the next message `h' · ns` from region to region where the reference recomputes it from `h'`. Ten steps of
  this, from the same projection, give the same result.
-/
import proofs.«144990_j83459804496278_1_alg».proof.Proof.KOut
import proofs.«144990_j83459804496278_1_alg».proof.Proof.RVal
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.Appnp

variable (x0 : (⟨Cert.ReferenceIdeal.S100000x64, .f32⟩ : BufTy).Contents (Elt Ideal)) (x1 : (⟨Cert.ReferenceIdeal.S64x64, .f32⟩ : BufTy).Contents (Elt Ideal))
  (x2 : (⟨Cert.ReferenceIdeal.S64, .f32⟩ : BufTy).Contents (Elt Ideal)) (x3 x4 : (⟨Cert.ReferenceIdeal.S1600000, .i32⟩ : BufTy).Contents (Elt Ideal))

/-- The aggregation and the factor columns are the same functions in the two programs. -/
theorem agg_eq (msg : SN64.Idx → EReal) : Cert.KernelIdeal.KVal.agg (F := Ideal) msg x3 x4 = Cert.ReferenceIdeal.RefValue.agg (F := Ideal) msg x3 x4 := rfl
theorem ncol_eq (idx : (⟨Cert.ReferenceIdeal.S1600000, .i32⟩ : BufTy).Contents (Elt Ideal)) : Cert.KernelIdeal.KVal.ncol (F := Ideal) idx = Cert.ReferenceIdeal.RefValue.ncol (F := Ideal) idx := rfl

/-- The two-column factor table read at a row: column 0 is the source factor's column, column 1 the destination's. -/
theorem norms_col0 (i : SN64.Idx) : Cert.KernelIdeal.KVal.norms (F := Ideal) x3 x4 (rowcol i 0) = Cert.ReferenceIdeal.RefValue.ncol (F := Ideal) x3 (row1 i) := by
  rw [← ncol_eq]
  exact concatenate_pair_apply_left (t := Cert.KernelIdeal.S100000x2) (s₁ := Cert.KernelIdeal.S100000x1) (s₂ := Cert.KernelIdeal.S100000x1)
    1 (Cert.KernelIdeal.KVal.ncol (F := Ideal) x3) (Cert.KernelIdeal.KVal.ncol (F := Ideal) x4) Cert.KernelIdeal.Gen.concatenates_S100000x1_S100000x1_S100000x2_d1
    (rowcol i 0) rfl (row1 i) (fun b => match b with
    | ⟨0, _⟩ => rfl
    | ⟨1, _⟩ => rfl)
theorem norms_col1 (i : SN64.Idx) : Cert.KernelIdeal.KVal.norms (F := Ideal) x3 x4 (rowcol i 1) = Cert.ReferenceIdeal.RefValue.ncol (F := Ideal) x4 (row1 i) := by
  rw [← ncol_eq]
  exact concatenate_pair_apply_right (t := Cert.KernelIdeal.S100000x2) (s₁ := Cert.KernelIdeal.S100000x1) (s₂ := Cert.KernelIdeal.S100000x1)
    1 (Cert.KernelIdeal.KVal.ncol (F := Ideal) x3) (Cert.KernelIdeal.KVal.ncol (F := Ideal) x4) Cert.KernelIdeal.Gen.concatenates_S100000x1_S100000x1_S100000x2_d1
    (rowcol i 1) rfl rfl (row1 i) (fun b => match b with
    | ⟨0, _⟩ => fun _ => rfl
    | ⟨1, _⟩ => fun h => absurd rfl h) rfl

/-- A one-column table repeated along the 64 columns, and a constant repeated everywhere, read at an index. -/
theorem bc_col (y : (⟨Cert.ReferenceIdeal.S100000x1, .f32⟩ : BufTy).Contents (Elt Ideal)) (i : SN64.Idx) :
    broadcastInDim Cert.ReferenceIdeal.S100000x64 ![0, 1] Cert.ReferenceIdeal.Gen.bcast_S100000x1_S100000x64_0_1 y i = y (row1 i) :=
  broadcastInDim_apply _ Cert.ReferenceIdeal.Gen.bcast_S100000x1_S100000x64_0_1 y i (row1 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])
theorem bc_const (w : BitVec 32) (i : SN64.Idx) :
    broadcastInDim Cert.ReferenceIdeal.S100000x64 ![] Cert.ReferenceIdeal.Gen.bcast_S_S100000x64 (constant (F := Ideal) Cert.ReferenceIdeal.S_ .f32 w) i = Ideal.ofBits .f32 w :=
  broadcastInDim_apply _ Cert.ReferenceIdeal.Gen.bcast_S_S100000x64 (constant (F := Ideal) Cert.ReferenceIdeal.S_ .f32 w) i (fun a => a.elim0) (fun a => a.elim0)

/-- One step: from a message that is `h · ns`, the kernel's new features are the reference's step of `h`, and its next
    message is that step times `ns`. -/
theorem step_eq (h0 : SN64.Idx → EReal) (x3 x4 : (⟨Cert.ReferenceIdeal.S1600000, .i32⟩ : BufTy).Contents (Elt Ideal)) (msg h : SN64.Idx → EReal)
    (hm : msg = mulf (F := Ideal) (φ := .f32) h (broadcastInDim Cert.ReferenceIdeal.S100000x64 ![0, 1] Cert.ReferenceIdeal.Gen.bcast_S100000x1_S100000x64_0_1 (Cert.ReferenceIdeal.RefValue.ncol (F := Ideal) x3))) :
    combH (Cert.KernelIdeal.KVal.agg (F := Ideal) msg x3 x4) (Cert.KernelIdeal.KVal.norms (F := Ideal) x3 x4) h0 = Cert.ReferenceIdeal.RefValue.step (F := Ideal) h0 (Cert.ReferenceIdeal.RefValue.ncol x3) (Cert.ReferenceIdeal.RefValue.ncol x4) x3 x4 h
    ∧ combM (Cert.KernelIdeal.KVal.agg (F := Ideal) msg x3 x4) (Cert.KernelIdeal.KVal.norms (F := Ideal) x3 x4) h0
      = mulf (F := Ideal) (φ := .f32) (Cert.ReferenceIdeal.RefValue.step (F := Ideal) h0 (Cert.ReferenceIdeal.RefValue.ncol x3) (Cert.ReferenceIdeal.RefValue.ncol x4) x3 x4 h)
          (broadcastInDim Cert.ReferenceIdeal.S100000x64 ![0, 1] Cert.ReferenceIdeal.Gen.bcast_S100000x1_S100000x64_0_1 (Cert.ReferenceIdeal.RefValue.ncol (F := Ideal) x3)) := by
  subst hm
  have e : ∀ i : SN64.Idx, combH (Cert.KernelIdeal.KVal.agg (F := Ideal) (mulf (F := Ideal) (φ := .f32) h (broadcastInDim Cert.ReferenceIdeal.S100000x64 ![0, 1] Cert.ReferenceIdeal.Gen.bcast_S100000x1_S100000x64_0_1 (Cert.ReferenceIdeal.RefValue.ncol (F := Ideal) x3))) x3 x4) (Cert.KernelIdeal.KVal.norms (F := Ideal) x3 x4) h0 i
      = Cert.ReferenceIdeal.RefValue.step (F := Ideal) h0 (Cert.ReferenceIdeal.RefValue.ncol x3) (Cert.ReferenceIdeal.RefValue.ncol x4) x3 x4 h i := by
    intro i
    unfold combH Cert.ReferenceIdeal.RefValue.step
    rw [norms_col1, agg_eq]
    rw [addf_apply, mulf_apply, mulf_apply, mulf_apply, bc_const, bc_const, bc_col]
    rw [mul_assoc]
  refine ⟨funext e, funext fun i => ?_⟩
  unfold combM
  rw [e i, norms_col0, mulf_apply, bc_col]

/-- The first message is the projection times the source factor's column. -/
theorem msg0_eq : Cert.KernelIdeal.KOut.msg0 x0 x1 x2 x3
    = mulf (F := Ideal) (φ := .f32) (Cert.ReferenceIdeal.RefValue.proj (F := Ideal) x0 x1 x2) (broadcastInDim Cert.ReferenceIdeal.S100000x64 ![0, 1] Cert.ReferenceIdeal.Gen.bcast_S100000x1_S100000x64_0_1 (Cert.ReferenceIdeal.RefValue.ncol (F := Ideal) x3)) := by
  funext i
  unfold Cert.KernelIdeal.KOut.msg0 scale
  rw [← Cert.ReferenceIdeal.RefValue.proj_eq, ncol_eq, mulf_apply, bc_col]

/-- THE TWO RESULTS ARE ONE FUNCTION of the five arguments. -/
theorem out_eq : Cert.KernelIdeal.KOut.out x0 x1 x2 x3 x4 = Cert.ReferenceIdeal.RefValue.result (F := Ideal) x0 x1 x2 x3 x4 := by
  unfold Cert.KernelIdeal.KOut.out Cert.KernelIdeal.KOut.stepM Cert.ReferenceIdeal.RefValue.result
  rw [← Cert.ReferenceIdeal.RefValue.proj_eq x0 x1 x2]
  have s1 := step_eq (Cert.ReferenceIdeal.RefValue.proj (F := Ideal) x0 x1 x2) x3 x4 _ _ (msg0_eq x0 x1 x2 x3)
  have s2 := step_eq (Cert.ReferenceIdeal.RefValue.proj (F := Ideal) x0 x1 x2) x3 x4 _ _ s1.2
  have s3 := step_eq (Cert.ReferenceIdeal.RefValue.proj (F := Ideal) x0 x1 x2) x3 x4 _ _ s2.2
  have s4 := step_eq (Cert.ReferenceIdeal.RefValue.proj (F := Ideal) x0 x1 x2) x3 x4 _ _ s3.2
  have s5 := step_eq (Cert.ReferenceIdeal.RefValue.proj (F := Ideal) x0 x1 x2) x3 x4 _ _ s4.2
  have s6 := step_eq (Cert.ReferenceIdeal.RefValue.proj (F := Ideal) x0 x1 x2) x3 x4 _ _ s5.2
  have s7 := step_eq (Cert.ReferenceIdeal.RefValue.proj (F := Ideal) x0 x1 x2) x3 x4 _ _ s6.2
  have s8 := step_eq (Cert.ReferenceIdeal.RefValue.proj (F := Ideal) x0 x1 x2) x3 x4 _ _ s7.2
  have s9 := step_eq (Cert.ReferenceIdeal.RefValue.proj (F := Ideal) x0 x1 x2) x3 x4 _ _ s8.2
  have s10 := step_eq (Cert.ReferenceIdeal.RefValue.proj (F := Ideal) x0 x1 x2) x3 x4 _ _ s9.2
  exact s10.1

end Cert.Bridge

end
-- ==== Proof.Claims.lean ====
/-
  The five claims. The three frames are the generated ones (the reference's is its run with the result
  dropped); nothing was rewritten on the way to the idealized kernel, so `preserves` asks nothing; and the two idealized
  programs end with equal results: the kernel's result buffer is followed through its twelve regions to one function of
  the arguments, the reference's run is read as ten steps of its propagation, and the two functions are equal index by
  index over the extended reals.
-/
import proofs.«144990_j83459804496278_1_alg».proof.Defs
import proofs.«144990_j83459804496278_1_alg».proof.Proof.Gen.Kernel.Frame
import proofs.«144990_j83459804496278_1_alg».proof.Proof.Gen.KernelIdeal.Frame
import proofs.«144990_j83459804496278_1_alg».proof.Proof.RunP
import proofs.«144990_j83459804496278_1_alg».proof.Proof.RVal
import proofs.«144990_j83459804496278_1_alg».proof.Proof.Gen.Pre_finite_inputs
import proofs.«144990_j83459804496278_1_alg».proof.Proof.KRun
import proofs.«144990_j83459804496278_1_alg».proof.Proof.KChain
import proofs.«144990_j83459804496278_1_alg».proof.Proof.Bridge

noncomputable section

namespace Cert.Proof.Claims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read over the extended reals. -/
theorem preserves : Cert.preserves_Kernel_KernelIdeal := trivial

/-- Both idealized programs, from memories agreeing on the arguments, end with the result at one function of the arguments. -/
theorem algebraic : Cert.algebraic_KernelIdeal_ReferenceIdeal := by
  intro m ρ m' ρ' _ hagree
  refine ⟨fun c => Cert.KernelIdeal.KOut.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun r h c => ⟨(h c).1.trans (Cert.KernelIdeal.KChain.value m ρ c), (h c).2⟩)
      (Cert.KernelIdeal.KRun.run_main (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1, (hagree c).2.2.2.2]
    exact (Cert.Bridge.out_eq _ _ _ _ _).symm

end Cert.Proof.Claims

end
-- ==== Proof.lean ====
/- The certificate of the APPNP propagation kernel against its jnp reference: `Cert.Claim` from the programs' stated
   facts (the generated instances) and the five claims of Proof/Claims.lean. The kernel is twelve tiled regions — a
   projection, a row scaling and ten fused combine steps — among host gathers and segment sums; the reference is the same
   propagation written with whole-array operations. Over the extended reals the two compute one function: the modules
   under Proof/ read each region's output array as a function of its input arrays, follow the result buffer through the
   whole program, and compare with the reference's run step by step. -/
import proofs.«144990_j83459804496278_1_alg».proof.Defs
import proofs.«144990_j83459804496278_1_alg».proof.Proof.Gen.Kernel
import proofs.«144990_j83459804496278_1_alg».proof.Proof.Gen.Kernel.Skeleton
import proofs.«144990_j83459804496278_1_alg».proof.Proof.Gen.Kernel.Launch
import proofs.«144990_j83459804496278_1_alg».proof.Proof.Gen.Kernel.Points
import proofs.«144990_j83459804496278_1_alg».proof.Proof.Gen.Kernel.Frame
import proofs.«144990_j83459804496278_1_alg».proof.Proof.Gen.KernelIdeal
import proofs.«144990_j83459804496278_1_alg».proof.Proof.Gen.KernelIdeal.Skeleton
import proofs.«144990_j83459804496278_1_alg».proof.Proof.Gen.KernelIdeal.Launch
import proofs.«144990_j83459804496278_1_alg».proof.Proof.Gen.KernelIdeal.Points
import proofs.«144990_j83459804496278_1_alg».proof.Proof.Gen.KernelIdeal.Frame
import proofs.«144990_j83459804496278_1_alg».proof.Proof.Gen.ReferenceIdeal
import proofs.«144990_j83459804496278_1_alg».proof.Proof.Gen.Pre_finite_inputs
import proofs.«144990_j83459804496278_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
